-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v204)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v204) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x256x32 : Shape := ⟨4, ![2, 256, 256, 32]⟩
abbrev S2x128x32 : Shape := ⟨3, ![2, 128, 32]⟩
abbrev S2x128x2 : Shape := ⟨3, ![2, 128, 2]⟩
abbrev S2x128x1 : Shape := ⟨3, ![2, 128, 1]⟩
abbrev S_ : Shape := ⟨0, ![]⟩

class Facts : Prop where
  bcast_S_S2x256x256x32 : S_.BroadcastsInDim S2x256x256x32 (![] : Fin 0 → Fin S2x256x256x32.rank)
  reducesTo_S2x256x256x32_S_d0_1_2_3 : S2x256x256x32.ReducesTo [0, 1, 2, 3] S_
  h_S_ : 0 < S_.numel
  bcast_S_S2x128x32 : S_.BroadcastsInDim S2x128x32 (![] : Fin 0 → Fin S2x128x32.rank)
  reducesTo_S2x128x32_S_d0_1_2 : S2x128x32.ReducesTo [0, 1, 2] S_
  bcast_S_S2x128x2 : S_.BroadcastsInDim S2x128x2 (![] : Fin 0 → Fin S2x128x2.rank)
  reducesTo_S2x128x2_S_d0_1_2 : S2x128x2.ReducesTo [0, 1, 2] S_
  bcast_S_S2x128x1 : S_.BroadcastsInDim S2x128x1 (![] : Fin 0 → Fin S2x128x1.rank)
  reducesTo_S2x128x1_S_d0_1_2 : S2x128x1.ReducesTo [0, 1, 2] S_

variable [Facts]

def fn_part1 {F : FTy → Type} [FloatOps F] (main_v13 : IVec S_ 1) (main_v16 : IVec S2x128x1 1) : IVec S_ 1 :=
  let main_c_5 : IVec S_ 1 := constantI S_ 1 1#1
  let main_v17 : IVec S_ 1 := (fun x v => Host.reduce IntOp.andi x v reducesTo_S2x128x1_S_d0_1_2 h_S_) main_v16 main_c_5
  let main_v18 : IVec S_ 1 := andi main_v13 main_v17
  main_v18

def fn {F : FTy → Type} [FloatOps F] (main_arg0 : FVec F S2x256x256x32 .f32) (main_arg1 : FVec F S2x128x32 .f32) (main_arg2 : FVec F S2x128x2 .f32) (main_arg3 : FVec F S2x128x1 .f32) : IVec S_ 1 :=
  let main_v0 : FVec F S2x256x256x32 .f32 := Host.absf main_arg0
  let main_cst : FVec F S_ .f32 := constant S_ .f32 0x7F800000#32
  let main_v1 : FVec F S2x256x256x32 .f32 := broadcastInDim S2x256x256x32 ![] bcast_S_S2x256x256x32 main_cst
  let main_v2 : IVec S2x256x256x32 1 := cmpf .olt main_v0 main_v1
  let main_c : IVec S_ 1 := constantI S_ 1 1#1
  let main_v3 : IVec S_ 1 := (fun x v => Host.reduce IntOp.andi x v reducesTo_S2x256x256x32_S_d0_1_2_3 h_S_) main_v2 main_c
  let main_v4 : FVec F S2x128x32 .f32 := Host.absf main_arg1
  let main_cst_0 : FVec F S_ .f32 := constant S_ .f32 0x7F800000#32
  let main_v5 : FVec F S2x128x32 .f32 := broadcastInDim S2x128x32 ![] bcast_S_S2x128x32 main_cst_0
  let main_v6 : IVec S2x128x32 1 := cmpf .olt main_v4 main_v5
  let main_c_1 : IVec S_ 1 := constantI S_ 1 1#1
  let main_v7 : IVec S_ 1 := (fun x v => Host.reduce IntOp.andi x v reducesTo_S2x128x32_S_d0_1_2 h_S_) main_v6 main_c_1
  let main_v8 : IVec S_ 1 := andi main_v3 main_v7
  let main_v9 : FVec F S2x128x2 .f32 := Host.absf main_arg2
  let main_cst_2 : FVec F S_ .f32 := constant S_ .f32 0x7F800000#32
  let main_v10 : FVec F S2x128x2 .f32 := broadcastInDim S2x128x2 ![] bcast_S_S2x128x2 main_cst_2
  let main_v11 : IVec S2x128x2 1 := cmpf .olt main_v9 main_v10
  let main_c_3 : IVec S_ 1 := constantI S_ 1 1#1
  let main_v12 : IVec S_ 1 := (fun x v => Host.reduce IntOp.andi x v reducesTo_S2x128x2_S_d0_1_2 h_S_) main_v11 main_c_3
  let main_v13 : IVec S_ 1 := andi main_v8 main_v12
  let main_v14 : FVec F S2x128x1 .f32 := Host.absf main_arg3
  let main_cst_4 : FVec F S_ .f32 := constant S_ .f32 0x7F800000#32
  let main_v15 : FVec F S2x128x1 .f32 := broadcastInDim S2x128x1 ![] bcast_S_S2x128x1 main_cst_4
  let main_v16 : IVec S2x128x1 1 := cmpf .olt main_v14 main_v15
  fn_part1 (F := F) main_v13 main_v16
-- ==== Kernel.lean ====
abbrev S2x256x256x32 : Shape := ⟨4, ![2, 256, 256, 32]⟩
abbrev S2x128x32 : Shape := ⟨3, ![2, 128, 32]⟩
abbrev S2x128x2 : Shape := ⟨3, ![2, 128, 2]⟩
abbrev S2x128x1 : Shape := ⟨3, ![2, 128, 1]⟩
abbrev S_ : Shape := ⟨0, ![]⟩
abbrev S2x128 : Shape := ⟨2, ![2, 128]⟩
abbrev S2 : Shape := ⟨1, ![2]⟩
abbrev S2x1 : Shape := ⟨2, ![2, 1]⟩
abbrev S2x128x3 : Shape := ⟨3, ![2, 128, 3]⟩
abbrev S2x65536x32 : Shape := ⟨3, ![2, 65536, 32]⟩
abbrev S2x128x128 : Shape := ⟨3, ![2, 128, 128]⟩
abbrev S1x8192x32 : Shape := ⟨3, ![1, 8192, 32]⟩
abbrev S1x128x32 : Shape := ⟨3, ![1, 128, 32]⟩
abbrev S1x128x128 : Shape := ⟨3, ![1, 128, 128]⟩
abbrev S128x128 : Shape := ⟨2, ![128, 128]⟩
abbrev S8192x32 : Shape := ⟨2, ![8192, 32]⟩
abbrev S8192 : Shape := ⟨1, ![8192]⟩
abbrev S8192x1 : Shape := ⟨2, ![8192, 1]⟩
abbrev S128x32 : Shape := ⟨2, ![128, 32]⟩
abbrev S32x128 : Shape := ⟨2, ![32, 128]⟩
abbrev S8192x128 : Shape := ⟨2, ![8192, 128]⟩
abbrev S128 : Shape := ⟨1, ![128]⟩
abbrev S128x1 : Shape := ⟨2, ![128, 1]⟩
abbrev S128x2 : Shape := ⟨2, ![128, 2]⟩
abbrev S2x1x128 : Shape := ⟨3, ![2, 1, 128]⟩
abbrev S2x65536x128 : Shape := ⟨3, ![2, 65536, 128]⟩
abbrev S1x1x128 : Shape := ⟨3, ![1, 1, 128]⟩
abbrev S1x8192x128 : Shape := ⟨3, ![1, 8192, 128]⟩
abbrev S1x128 : Shape := ⟨2, ![1, 128]⟩

abbrev nBuf : Space → Nat
  | .hbm => 288
  | .vmem => 15
  | .smem => 0
  | _ => 0

abbrev hbmTy0_0 (i : Nat) : BufTy := match i % 128 with
  | 0 => ⟨S2x256x256x32, .f32⟩
  | 1 => ⟨S2x128x32, .f32⟩
  | 2 => ⟨S2x128x2, .f32⟩
  | 3 => ⟨S2x128x1, .f32⟩
  | 4 => ⟨S2x128x32, .f32⟩
  | 5 => ⟨S_, .f32⟩
  | 6 => ⟨S2x128, .f32⟩
  | 7 => ⟨S2x128x1, .f32⟩
  | 8 => ⟨S2x128x1, .f32⟩
  | 9 => ⟨S_, .f32⟩
  | 10 => ⟨S2x128x1, .f32⟩
  | 11 => ⟨S2x128x1, .f32⟩
  | 12 => ⟨S2x128x32, .f32⟩
  | 13 => ⟨S2x128x32, .f32⟩
  | 14 => ⟨S2x128x1, .f32⟩
  | 15 => ⟨S2x128, .f32⟩
  | 16 => ⟨S_, .f32⟩
  | 17 => ⟨S2x128, .f32⟩
  | 18 => ⟨S2x128, .f32⟩
  | 19 => ⟨S_, .f32⟩
  | 20 => ⟨S2x128, .f32⟩
  | 21 => ⟨S2x128, .f32⟩
  | 22 => ⟨S_, .f32⟩
  | 23 => ⟨S2x128, .f32⟩
  | 24 => ⟨S2x128, .f32⟩
  | 25 => ⟨S2x128x1, .f32⟩
  | 26 => ⟨S2x128, .f32⟩
  | 27 => ⟨S_, .f32⟩
  | 28 => ⟨S2x128, .f32⟩
  | 29 => ⟨S2x128, .f32⟩
  | 30 => ⟨S_, .f32⟩
  | 31 => ⟨S2x128, .f32⟩
  | 32 => ⟨S2x128, .f32⟩
  | 33 => ⟨S_, .f32⟩
  | 34 => ⟨S2x128, .f32⟩
  | 35 => ⟨S2x128, .f32⟩
  | 36 => ⟨S_, .f32⟩
  | 37 => ⟨S_, .i32⟩
  | 38 => ⟨S_, .f32⟩
  | 39 => ⟨S2x128, .f32⟩
  | 40 => ⟨S2x128, .f32⟩
  | 41 => ⟨S_, .f32⟩
  | 42 => ⟨S2x128, .f32⟩
  | 43 => ⟨S2x128, .f32⟩
  | 44 => ⟨S_, .f32⟩
  | 45 => ⟨S_, .i32⟩
  | 46 => ⟨S_, .f32⟩
  | 47 => ⟨S2x128, .f32⟩
  | 48 => ⟨S2x128, .f32⟩
  | 49 => ⟨S_, .f32⟩
  | 50 => ⟨S2x128, .f32⟩
  | 51 => ⟨S2x128, .f32⟩
  | 52 => ⟨S2x128, .f32⟩
  | 53 => ⟨S2x128, .f32⟩
  | 54 => ⟨S2x128, .f32⟩
  | 55 => ⟨S2x128, .f32⟩
  | 56 => ⟨S2x128, .f32⟩
  | 57 => ⟨S2x128, .f32⟩
  | 58 => ⟨S2x128, .f32⟩
  | 59 => ⟨S2x128, .f32⟩
  | 60 => ⟨S2x128, .f32⟩
  | 61 => ⟨S2x128, .f32⟩
  | 62 => ⟨S2x128, .f32⟩
  | 63 => ⟨S2x128, .f32⟩
  | 64 => ⟨S2x128, .f32⟩
  | 65 => ⟨S2x128, .f32⟩
  | 66 => ⟨S2x128, .f32⟩
  | 67 => ⟨S2x128, .f32⟩
  | 68 => ⟨S2, .i32⟩
  | 69 => ⟨S2x1, .i32⟩
  | 70 => ⟨S2x128, .i32⟩
  | 71 => ⟨S2x128, .i32⟩
  | 72 => ⟨S_, .i32⟩
  | 73 => ⟨S2x1, .i32⟩
  | 74 => ⟨S2x1, .i1⟩
  | 75 => ⟨S_, .i32⟩
  | 76 => ⟨S2x1, .i32⟩
  | 77 => ⟨S2x1, .i32⟩
  | 78 => ⟨S2x1, .i32⟩
  | 79 => ⟨S_, .i32⟩
  | 80 => ⟨S2x128, .i32⟩
  | 81 => ⟨S2x128, .i1⟩
  | 82 => ⟨S_, .i32⟩
  | 83 => ⟨S2x128, .i32⟩
  | 84 => ⟨S2x128, .i32⟩
  | 85 => ⟨S2x128, .i32⟩
  | 86 => ⟨S_, .i32⟩
  | 87 => ⟨S2x128, .i32⟩
  | 88 => ⟨S2x128, .i1⟩
  | 89 => ⟨S_, .i32⟩
  | 90 => ⟨S2x128, .i32⟩
  | 91 => ⟨S2x128, .i32⟩
  | 92 => ⟨S2x128, .i32⟩
  | 93 => ⟨S2x128, .i32⟩
  | 94 => ⟨S2x128x1, .i32⟩
  | 95 => ⟨S2x128x1, .i32⟩
  | 96 => ⟨S2x128x1, .i32⟩
  | 97 => ⟨S2x128x3, .i32⟩
  | 98 => ⟨S2x128x32, .f32⟩
  | 99 => ⟨S2x128x1, .f32⟩
  | 100 => ⟨S2x128x32, .f32⟩
  | 101 => ⟨S2x128x32, .f32⟩
  | 102 => ⟨S2x128, .i32⟩
  | 103 => ⟨S2x128, .i32⟩
  | 104 => ⟨S_, .i32⟩
  | 105 => ⟨S2x1, .i32⟩
  | 106 => ⟨S2x1, .i1⟩
  | 107 => ⟨S_, .i32⟩
  | 108 => ⟨S2x1, .i32⟩
  | 109 => ⟨S2x1, .i32⟩
  | 110 => ⟨S2x1, .i32⟩
  | 111 => ⟨S_, .i32⟩
  | 112 => ⟨S2x128, .i32⟩
  | 113 => ⟨S2x128, .i1⟩
  | 114 => ⟨S_, .i32⟩
  | 115 => ⟨S2x128, .i32⟩
  | 116 => ⟨S2x128, .i32⟩
  | 117 => ⟨S2x128, .i32⟩
  | 118 => ⟨S_, .i32⟩
  | 119 => ⟨S2x128, .i32⟩
  | 120 => ⟨S2x128, .i1⟩
  | 121 => ⟨S_, .i32⟩
  | 122 => ⟨S2x128, .i32⟩
  | 123 => ⟨S2x128, .i32⟩
  | 124 => ⟨S2x128, .i32⟩
  | 125 => ⟨S2x128, .i32⟩
  | 126 => ⟨S2x128x1, .i32⟩
  | 127 => ⟨S2x128x1, .i32⟩
  | _ => ⟨S2x256x256x32, .f32⟩

abbrev hbmTy0_1 (i : Nat) : BufTy := match i % 128 with
  | 0 => ⟨S2x128x1, .i32⟩
  | 1 => ⟨S2x128x3, .i32⟩
  | 2 => ⟨S2x128x32, .f32⟩
  | 3 => ⟨S2x128x1, .f32⟩
  | 4 => ⟨S2x128x32, .f32⟩
  | 5 => ⟨S2x128x32, .f32⟩
  | 6 => ⟨S2x128x32, .f32⟩
  | 7 => ⟨S2x128, .i32⟩
  | 8 => ⟨S2x128, .i32⟩
  | 9 => ⟨S_, .i32⟩
  | 10 => ⟨S2x1, .i32⟩
  | 11 => ⟨S2x1, .i1⟩
  | 12 => ⟨S_, .i32⟩
  | 13 => ⟨S2x1, .i32⟩
  | 14 => ⟨S2x1, .i32⟩
  | 15 => ⟨S2x1, .i32⟩
  | 16 => ⟨S_, .i32⟩
  | 17 => ⟨S2x128, .i32⟩
  | 18 => ⟨S2x128, .i1⟩
  | 19 => ⟨S_, .i32⟩
  | 20 => ⟨S2x128, .i32⟩
  | 21 => ⟨S2x128, .i32⟩
  | 22 => ⟨S2x128, .i32⟩
  | 23 => ⟨S_, .i32⟩
  | 24 => ⟨S2x128, .i32⟩
  | 25 => ⟨S2x128, .i1⟩
  | 26 => ⟨S_, .i32⟩
  | 27 => ⟨S2x128, .i32⟩
  | 28 => ⟨S2x128, .i32⟩
  | 29 => ⟨S2x128, .i32⟩
  | 30 => ⟨S2x128, .i32⟩
  | 31 => ⟨S2x128x1, .i32⟩
  | 32 => ⟨S2x128x1, .i32⟩
  | 33 => ⟨S2x128x1, .i32⟩
  | 34 => ⟨S2x128x3, .i32⟩
  | 35 => ⟨S2x128x32, .f32⟩
  | 36 => ⟨S2x128x1, .f32⟩
  | 37 => ⟨S2x128x32, .f32⟩
  | 38 => ⟨S2x128x32, .f32⟩
  | 39 => ⟨S2x128x32, .f32⟩
  | 40 => ⟨S2x128, .i32⟩
  | 41 => ⟨S2x128, .i32⟩
  | 42 => ⟨S_, .i32⟩
  | 43 => ⟨S2x1, .i32⟩
  | 44 => ⟨S2x1, .i1⟩
  | 45 => ⟨S_, .i32⟩
  | 46 => ⟨S2x1, .i32⟩
  | 47 => ⟨S2x1, .i32⟩
  | 48 => ⟨S2x1, .i32⟩
  | 49 => ⟨S_, .i32⟩
  | 50 => ⟨S2x128, .i32⟩
  | 51 => ⟨S2x128, .i1⟩
  | 52 => ⟨S_, .i32⟩
  | 53 => ⟨S2x128, .i32⟩
  | 54 => ⟨S2x128, .i32⟩
  | 55 => ⟨S2x128, .i32⟩
  | 56 => ⟨S_, .i32⟩
  | 57 => ⟨S2x128, .i32⟩
  | 58 => ⟨S2x128, .i1⟩
  | 59 => ⟨S_, .i32⟩
  | 60 => ⟨S2x128, .i32⟩
  | 61 => ⟨S2x128, .i32⟩
  | 62 => ⟨S2x128, .i32⟩
  | 63 => ⟨S2x128, .i32⟩
  | 64 => ⟨S2x128x1, .i32⟩
  | 65 => ⟨S2x128x1, .i32⟩
  | 66 => ⟨S2x128x1, .i32⟩
  | 67 => ⟨S2x128x3, .i32⟩
  | 68 => ⟨S2x128x32, .f32⟩
  | 69 => ⟨S2x128x1, .f32⟩
  | 70 => ⟨S2x128x32, .f32⟩
  | 71 => ⟨S2x128x32, .f32⟩
  | 72 => ⟨S2x128x32, .f32⟩
  | 73 => ⟨S2x128x32, .f32⟩
  | 74 => ⟨S_, .f32⟩
  | 75 => ⟨S2x128, .f32⟩
  | 76 => ⟨S2x128x1, .f32⟩
  | 77 => ⟨S2x128x1, .f32⟩
  | 78 => ⟨S_, .f32⟩
  | 79 => ⟨S2x128x1, .f32⟩
  | 80 => ⟨S2x128x1, .f32⟩
  | 81 => ⟨S2x128x32, .f32⟩
  | 82 => ⟨S2x128x32, .f32⟩
  | 83 => ⟨S2x128x32, .f32⟩
  | 84 => ⟨S_, .f32⟩
  | 85 => ⟨S2x128, .f32⟩
  | 86 => ⟨S2x128x1, .f32⟩
  | 87 => ⟨S2x65536x32, .f32⟩
  | 88 => ⟨S2x128x128, .f32⟩
  | 89 => ⟨S128, .i32⟩
  | 90 => ⟨S128, .i32⟩
  | 91 => ⟨S_, .i32⟩
  | 92 => ⟨S128, .i32⟩
  | 93 => ⟨S128, .i1⟩
  | 94 => ⟨S_, .i32⟩
  | 95 => ⟨S128, .i32⟩
  | 96 => ⟨S128, .i32⟩
  | 97 => ⟨S128, .i32⟩
  | 98 => ⟨S_, .i32⟩
  | 99 => ⟨S128, .i32⟩
  | 100 => ⟨S128, .i1⟩
  | 101 => ⟨S_, .i32⟩
  | 102 => ⟨S128, .i32⟩
  | 103 => ⟨S128, .i32⟩
  | 104 => ⟨S128, .i32⟩
  | 105 => ⟨S128x1, .i32⟩
  | 106 => ⟨S128x1, .i32⟩
  | 107 => ⟨S128x2, .i32⟩
  | 108 => ⟨S2x128, .f32⟩
  | 109 => ⟨S2x128x1, .f32⟩
  | 110 => ⟨S2x1x128, .f32⟩
  | 111 => ⟨S2x128x128, .f32⟩
  | 112 => ⟨S2x128x128, .f32⟩
  | 113 => ⟨S2x128x128, .f32⟩
  | 114 => ⟨S2x128x128, .f32⟩
  | 115 => ⟨S_, .f32⟩
  | 116 => ⟨S2x128x128, .f32⟩
  | 117 => ⟨S2x128x128, .f32⟩
  | 118 => ⟨S2x128x128, .f32⟩
  | 119 => ⟨S128x128, .i32⟩
  | 120 => ⟨S128x128, .i32⟩
  | 121 => ⟨S_, .i32⟩
  | 122 => ⟨S128x128, .i32⟩
  | 123 => ⟨S128x128, .i32⟩
  | 124 => ⟨S128x128, .i1⟩
  | 125 => ⟨S1x128x128, .i1⟩
  | 126 => ⟨S_, .f32⟩
  | 127 => ⟨S2x128x128, .f32⟩
  | _ => ⟨S2x256x256x32, .f32⟩

abbrev hbmTy0_2 (i : Nat) : BufTy := match i % 128 with
  | 0 => ⟨S2x128x128, .i1⟩
  | 1 => ⟨S1x128x128, .i1⟩
  | 2 => ⟨S2x128x128, .i1⟩
  | 3 => ⟨S2x128x128, .i1⟩
  | 4 => ⟨S2x1x128, .f32⟩
  | 5 => ⟨S2x128x128, .f32⟩
  | 6 => ⟨S2x128x128, .f32⟩
  | 7 => ⟨S2x128x128, .i1⟩
  | 8 => ⟨S2x128x128, .i1⟩
  | 9 => ⟨S_, .f32⟩
  | 10 => ⟨S2x128x1, .f32⟩
  | 11 => ⟨S2x128x1, .i1⟩
  | 12 => ⟨S2x128x1, .i1⟩
  | 13 => ⟨S2x1x128, .i1⟩
  | 14 => ⟨S2x128x128, .i1⟩
  | 15 => ⟨S2x128x128, .i1⟩
  | 16 => ⟨S2x128x128, .i1⟩
  | 17 => ⟨S2x128x128, .i1⟩
  | 18 => ⟨S2x128x128, .i1⟩
  | 19 => ⟨S2x1x128, .i1⟩
  | 20 => ⟨S2x128x128, .i1⟩
  | 21 => ⟨S2x128x128, .i1⟩
  | 22 => ⟨S2x128x128, .i1⟩
  | 23 => ⟨S2x128x128, .i1⟩
  | 24 => ⟨S2x128x128, .i1⟩
  | 25 => ⟨S_, .i1⟩
  | 26 => ⟨S2x128, .i1⟩
  | 27 => ⟨S2x128x1, .i1⟩
  | 28 => ⟨S2x128x1, .i1⟩
  | 29 => ⟨S2x128x1, .f32⟩
  | 30 => ⟨S2x1x128, .f32⟩
  | 31 => ⟨S2x65536x128, .f32⟩
  | _ => ⟨S2x256x256x32, .f32⟩

abbrev hbmTy (i : Nat) : BufTy := match i / 128 with
  | 0 => hbmTy0_0 i
  | 1 => hbmTy0_1 i
  | 2 => hbmTy0_2 i
  | _ => ⟨S2x256x256x32, .f32⟩

abbrev bufTy : (tb : Table) → Fin (tcTables nBuf tb) → BufTy
  | .hbm, ⟨i, _⟩ => hbmTy i
  | .local _ .vmem, ⟨0, _⟩ => ⟨S1x8192x32, .f32⟩
  | .local _ .vmem, ⟨1, _⟩ => ⟨S1x8192x32, .f32⟩
  | .local _ .vmem, ⟨2, _⟩ => ⟨S1x128x32, .f32⟩
  | .local _ .vmem, ⟨3, _⟩ => ⟨S1x128x32, .f32⟩
  | .local _ .vmem, ⟨4, _⟩ => ⟨S1x128x128, .f32⟩
  | .local _ .vmem, ⟨5, _⟩ => ⟨S1x128x128, .f32⟩
  | .local _ .vmem, ⟨6, _⟩ => ⟨S128x128, .f32⟩
  | .local _ .vmem, ⟨7, _⟩ => ⟨S1x8192x32, .f32⟩
  | .local _ .vmem, ⟨8, _⟩ => ⟨S1x8192x32, .f32⟩
  | .local _ .vmem, ⟨9, _⟩ => ⟨S1x128x32, .f32⟩
  | .local _ .vmem, ⟨10, _⟩ => ⟨S1x128x32, .f32⟩
  | .local _ .vmem, ⟨11, _⟩ => ⟨S1x1x128, .f32⟩
  | .local _ .vmem, ⟨12, _⟩ => ⟨S1x1x128, .f32⟩
  | .local _ .vmem, ⟨13, _⟩ => ⟨S1x8192x128, .f32⟩
  | .local _ .vmem, ⟨14, _⟩ => ⟨S1x8192x128, .f32⟩
  | _, _ => ⟨S2x256x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_c : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v21 : Ref sig .tc := ⟨.hbm, 43, rfl⟩
abbrev main_cst_7 : Ref sig .tc := ⟨.hbm, 44, rfl⟩
abbrev main_c_8 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_9 : Ref sig .tc := ⟨.hbm, 72, rfl⟩
abbrev main_v43 : Ref sig .tc := ⟨.hbm, 73, rfl⟩
abbrev main_v44 : Ref sig .tc := ⟨.hbm, 74, rfl⟩
abbrev main_c_10 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_11 : Ref sig .tc := ⟨.hbm, 79, rfl⟩
abbrev main_v48 : Ref sig .tc := ⟨.hbm, 80, rfl⟩
abbrev main_v49 : Ref sig .tc := ⟨.hbm, 81, rfl⟩
abbrev main_c_12 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_13 : Ref sig .tc := ⟨.hbm, 86, rfl⟩
abbrev main_v53 : Ref sig .tc := ⟨.hbm, 87, rfl⟩
abbrev main_v54 : Ref sig .tc := ⟨.hbm, 88, rfl⟩
abbrev main_c_14 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_c_15 : Ref sig .tc := ⟨.hbm, 104, rfl⟩
abbrev main_v69 : Ref sig .tc := ⟨.hbm, 105, rfl⟩
abbrev main_v70 : Ref sig .tc := ⟨.hbm, 106, rfl⟩
abbrev main_c_16 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_17 : Ref sig .tc := ⟨.hbm, 111, rfl⟩
abbrev main_v74 : Ref sig .tc := ⟨.hbm, 112, rfl⟩
abbrev main_v75 : Ref sig .tc := ⟨.hbm, 113, rfl⟩
abbrev main_c_18 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_c_19 : Ref sig .tc := ⟨.hbm, 118, rfl⟩
abbrev main_v79 : Ref sig .tc := ⟨.hbm, 119, rfl⟩
abbrev main_v80 : Ref sig .tc := ⟨.hbm, 120, rfl⟩
abbrev main_c_20 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_21 : Ref sig .tc := ⟨.hbm, 137, rfl⟩
abbrev main_v96 : Ref sig .tc := ⟨.hbm, 138, rfl⟩
abbrev main_v97 : Ref sig .tc := ⟨.hbm, 139, rfl⟩
abbrev main_c_22 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_c_23 : Ref sig .tc := ⟨.hbm, 144, rfl⟩
abbrev main_v101 : Ref sig .tc := ⟨.hbm, 145, rfl⟩
abbrev main_v102 : Ref sig .tc := ⟨.hbm, 146, rfl⟩
abbrev main_c_24 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_c_25 : Ref sig .tc := ⟨.hbm, 151, rfl⟩
abbrev main_v106 : Ref sig .tc := ⟨.hbm, 152, rfl⟩
abbrev main_v107 : Ref sig .tc := ⟨.hbm, 153, rfl⟩
abbrev main_c_26 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_c_27 : Ref sig .tc := ⟨.hbm, 170, rfl⟩
abbrev main_v123 : Ref sig .tc := ⟨.hbm, 171, rfl⟩
abbrev main_v124 : Ref sig .tc := ⟨.hbm, 172, rfl⟩
abbrev main_c_28 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_c_29 : Ref sig .tc := ⟨.hbm, 177, rfl⟩
abbrev main_v128 : Ref sig .tc := ⟨.hbm, 178, rfl⟩
abbrev main_v129 : Ref sig .tc := ⟨.hbm, 179, rfl⟩
abbrev main_c_30 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_c_31 : Ref sig .tc := ⟨.hbm, 184, rfl⟩
abbrev main_v133 : Ref sig .tc := ⟨.hbm, 185, rfl⟩
abbrev main_v134 : Ref sig .tc := ⟨.hbm, 186, rfl⟩
abbrev main_c_32 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_call3_v0 : Ref sig .tc := ⟨.hbm, 201, rfl⟩
abbrev main_call3_cst : Ref sig .tc := ⟨.hbm, 202, rfl⟩
abbrev main_call3_v1 : Ref sig .tc := ⟨.hbm, 203, rfl⟩
abbrev main_call3_v2 : Ref sig .tc := ⟨.hbm, 204, rfl⟩
abbrev main_v148 : Ref sig .tc := ⟨.hbm, 205, rfl⟩
abbrev main_cst_33 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_34 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_call4_v0 : Ref sig .tc := ⟨.hbm, 217, rfl⟩
abbrev main_call4_v1 : Ref sig .tc := ⟨.hbm, 218, rfl⟩
abbrev main_call4_c : Ref sig .tc := ⟨.hbm, 219, rfl⟩
abbrev main_call4_v2 : Ref sig .tc := ⟨.hbm, 220, rfl⟩
abbrev main_call4_v3 : Ref sig .tc := ⟨.hbm, 221, rfl⟩
abbrev main_call4_c_0 : Ref sig .tc := ⟨.hbm, 222, rfl⟩
abbrev main_call4_v4 : Ref sig .tc := ⟨.hbm, 223, rfl⟩
abbrev main_call4_v5 : Ref sig .tc := ⟨.hbm, 224, rfl⟩
abbrev main_call4_v6 : Ref sig .tc := ⟨.hbm, 225, rfl⟩
abbrev main_call4_c_1 : Ref sig .tc := ⟨.hbm, 226, rfl⟩
abbrev main_call4_v7 : Ref sig .tc := ⟨.hbm, 227, rfl⟩
abbrev main_call4_v8 : Ref sig .tc := ⟨.hbm, 228, rfl⟩
abbrev main_call4_c_2 : Ref sig .tc := ⟨.hbm, 229, rfl⟩
abbrev main_call4_v9 : Ref sig .tc := ⟨.hbm, 230, rfl⟩
abbrev main_call4_v10 : Ref sig .tc := ⟨.hbm, 231, rfl⟩
abbrev main_call4_v11 : Ref sig .tc := ⟨.hbm, 232, rfl⟩
abbrev main_call4_v12 : Ref sig .tc := ⟨.hbm, 233, rfl⟩
abbrev main_call4_v13 : Ref sig .tc := ⟨.hbm, 234, rfl⟩
abbrev main_call4_v14 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_cst_35 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_c_36 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_cst_37 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_cst_38 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_c_39 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8192x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  reducesTo_S2x128x32_S2x128_d2 : S2x128x32.ReducesTo [2] S2x128
  h_S_ : 0 < S_.numel
  bcast_S2x128_S2x128x1_0_1 : S2x128.BroadcastsInDim S2x128x1 (![0, 1] : Fin 2 → Fin S2x128x1.rank)
  bcast_S_S2x128x1 : S_.BroadcastsInDim S2x128x1 (![] : Fin 0 → Fin S2x128x1.rank)
  bcast_S2x128x1_S2x128x32_0_1_2 : S2x128x1.BroadcastsInDim S2x128x32 (![0, 1, 2] : Fin 3 → Fin S2x128x32.rank)
  slices_S2x128x2_S2x128x1_0_0_0 : S2x128x2.Slices ![0, 0, 0] S2x128x1
  shapeCasts_S2x128x1_S2x128 : S2x128x1.ShapeCasts S2x128
  bcast_S_S2x128 : S_.BroadcastsInDim S2x128 (![] : Fin 0 → Fin S2x128.rank)
  slices_S2x128x2_S2x128x1_0_0_1 : S2x128x2.Slices ![0, 0, 1] S2x128x1
  bcast_S2_S2x1_0 : S2.BroadcastsInDim S2x1 (![0] : Fin 1 → Fin S2x1.rank)
  bcast_S_S2x1 : S_.BroadcastsInDim S2x1 (![] : Fin 0 → Fin S2x1.rank)
  bcast_S2x1_S2x128_0_1 : S2x1.BroadcastsInDim S2x128 (![0, 1] : Fin 2 → Fin S2x128.rank)
  concatenates_S2x128x1_S2x128x1_S2x128x1_S2x128x3_d2 : Shape.Concatenates [S2x128x1, S2x128x1, S2x128x1] S2x128x3 2
  shapeCasts_S2x256x256x32_S2x65536x32 : S2x256x256x32.ShapeCasts S2x65536x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x8192x32_S1x8192x32_0_0_0 : ∀ a, (![0, 0, 0] : Fin 3 → Nat) a + S1x8192x32.size a ≤ S1x8192x32.size a
  h_S1x8192x32 : 0 < S1x8192x32.numel
  shapeCasts_S1x8192x32_S8192x32 : S1x8192x32.ShapeCasts S8192x32
  reduces_S8192x32_S8192 : S8192x32.Reduces [1] S8192
  shapeCasts_S8192_S8192x1 : S8192.ShapeCasts S8192x1
  broadcasts_S8192x1_S8192x32 : S8192x1.Broadcasts S8192x32
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  transposes_S128x32_p1_0_S32x128 : S128x32.Transposes [1, 0] S32x128
  natLt_1_32 : 1 < 32
  bitsLt_bf16_f32 : FTy.bits .bf16 < FTy.bits .f32
  shapeCasts_S128x128_S1x128x128 : S128x128.ShapeCasts S1x128x128
  inb_S1x128x128_S1x128x128_0_0_0 : ∀ a, (![0, 0, 0] : Fin 3 → Nat) a + S1x128x128.size a ≤ S1x128x128.size a
  h_S1x128x128 : 0 < S1x128x128.numel
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  bcast_S2x128_S2x1x128_0_2 : S2x128.BroadcastsInDim S2x1x128 (![0, 2] : Fin 2 → Fin S2x1x128.rank)
  bcast_S2x128x1_S2x128x128_0_1_2 : S2x128x1.BroadcastsInDim S2x128x128 (![0, 1, 2] : Fin 3 → Fin S2x128x128.rank)
  bcast_S2x1x128_S2x128x128_0_1_2 : S2x1x128.BroadcastsInDim S2x128x128 (![0, 1, 2] : Fin 3 → Fin S2x128x128.rank)
  bcast_S_S2x128x128 : S_.BroadcastsInDim S2x128x128 (![] : Fin 0 → Fin S2x128x128.rank)
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S2x128x128_0_1_2 : S1x128x128.BroadcastsInDim S2x128x128 (![0, 1, 2] : Fin 3 → Fin S2x128x128.rank)
  transposes_S2x128x1_S2x1x128_0_2_1 : S2x128x1.Transposes [0, 2, 1] S2x1x128
  reducesTo_S2x128x128_S2x128_d2 : S2x128x128.ReducesTo [2] S2x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S8192x128 : S1x128.Broadcasts S8192x128
  shapeCasts_S8192x128_S1x8192x128 : S8192x128.ShapeCasts S1x8192x128
  inb_S1x8192x128_S1x8192x128_0_0_0 : ∀ a, (![0, 0, 0] : Fin 3 → Nat) a + S1x8192x128.size a ≤ S1x8192x128.size a
  h_S1x8192x128 : 0 < S1x8192x128.numel
  gather_S2x256x256x32_S2x128x3_S2x128x32_2_012_n_n_012_2_11132_wf : GatherDims.WF S2x256x256x32 S2x128x3 S2x128x32 [2] [0, 1, 2] [] [0, 1, 2] [] 2 ![1, 1, 1, 32]
  dot_S8192x32_S32x128_S8192x128_1_0_0_1_n_n_wf : DotDims.WF S8192x32 S32x128 S8192x128 [1] [0] [0] [1] [] []
  dot_S8192x128_S8192x128_S128x128_0_0_1_1_n_n_wf : DotDims.WF S8192x128 S8192x128 S128x128 [0] [0] [1] [1] [] []
  gather_S2x128x128_S128x2_S2x128_0_12_n_n_12_1_211_wf : GatherDims.WF S2x128x128 S128x2 S2x128 [0] [1, 2] [] [1, 2] [] 1 ![2, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x32.size a ≤ S2x65536x32.size a
  hwx0_0 : ∀ i : grid0.Coords, EltTy.bits .f32 = 32 ∨ (Rect.block (s := S2x65536x32) S1x8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x32.size a ≤ S2x128x32.size a
  hwx0_1 : ∀ i : grid0.Coords, EltTy.bits .f32 = 32 ∨ (Rect.block (s := S2x128x32) S1x128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S2x128x128.size a
  hwx0_2 : ∀ i : grid0.Coords, EltTy.bits .f32 = 32 ∨ (Rect.block (s := S2x128x128) S1x128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x32.size a ≤ S2x65536x32.size a
  hwx1_0 : ∀ i : grid1.Coords, EltTy.bits .f32 = 32 ∨ (Rect.block (s := S2x65536x32) S1x8192x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x32.size a ≤ S2x128x32.size a
  hwx1_1 : ∀ i : grid1.Coords, EltTy.bits .f32 = 32 ∨ (Rect.block (s := S2x128x32) S1x128x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S2x1x128.size a
  hwx1_2 : ∀ i : grid1.Coords, EltTy.bits .f32 = 32 ∨ (Rect.block (s := S2x1x128) S1x1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8192x128.size a ≤ S2x65536x128.size a
  hwx1_3 : ∀ i : grid1.Coords, EltTy.bits .f32 = 32 ∨ (Rect.block (s := S2x65536x128) S1x8192x128.size (cc1_transform_3 i) (hinb1_3 i)).WholeWords (EltTy.packing .f32)

variable [Facts₀]

def gather_S2x256x256x32_S2x128x3_S2x128x32_2_012_n_n_012_2_11132 : GatherDims S2x256x256x32 S2x128x3 S2x128x32 where
  offsetDims := [2]
  collapsedSliceDims := [0, 1, 2]
  operandBatchingDims := []
  startIndicesBatchingDims := []
  startIndexMap := [0, 1, 2]
  indexVectorDim := 2
  sliceSizes := ![1, 1, 1, 32]
  wf := gather_S2x256x256x32_S2x128x3_S2x128x32_2_012_n_n_012_2_11132_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf
def dot_S8192x128_S8192x128_S128x128_0_0_1_1_n_n : DotDims S8192x128 S8192x128 S128x128 where
  lhsContracting := [0]
  rhsContracting := [0]
  lhsNonContracting := [1]
  rhsNonContracting := [1]
  lhsBatch := []
  rhsBatch := []
  wf := dot_S8192x128_S8192x128_S128x128_0_0_1_1_n_n_wf
def gather_S2x128x128_S128x2_S2x128_0_12_n_n_12_1_211 : GatherDims S2x128x128 S128x2 S2x128 where
  offsetDims := [0]
  collapsedSliceDims := [1, 2]
  operandBatchingDims := []
  startIndicesBatchingDims := []
  startIndexMap := [1, 2]
  indexVectorDim := 1
  sliceSizes := ![2, 1, 1]
  wf := gather_S2x128x128_S128x2_S2x128_0_12_n_n_12_1_211_wf

abbrev win0_0 : Pipeline.Window sig grid0 :=
  Pipeline.Window.ofSpec (Memref.whole main_v156) S1x8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v157) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v156) S1x8192x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x128x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v203) S1x1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v204) S1x8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x256x256x32 : Shape := ⟨4, ![2, 256, 256, 32]⟩
abbrev S2x128x32 : Shape := ⟨3, ![2, 128, 32]⟩
abbrev S2x128x2 : Shape := ⟨3, ![2, 128, 2]⟩
abbrev S2x128x1 : Shape := ⟨3, ![2, 128, 1]⟩
abbrev S2x32x256x256 : Shape := ⟨4, ![2, 32, 256, 256]⟩
abbrev S2x128 : Shape := ⟨2, ![2, 128]⟩
abbrev S_ : Shape := ⟨0, ![]⟩
abbrev S2 : Shape := ⟨1, ![2]⟩
abbrev S2x1 : Shape := ⟨2, ![2, 1]⟩
abbrev S2x128x3 : Shape := ⟨3, ![2, 128, 3]⟩
abbrev S2x65536x32 : Shape := ⟨3, ![2, 65536, 32]⟩
abbrev S2x65536 : Shape := ⟨2, ![2, 65536]⟩
abbrev S2x65536x1 : Shape := ⟨3, ![2, 65536, 1]⟩
abbrev S2x65536x128 : Shape := ⟨3, ![2, 65536, 128]⟩
abbrev S2x128x128 : Shape := ⟨3, ![2, 128, 128]⟩
abbrev S2x1x128 : Shape := ⟨3, ![2, 1, 128]⟩
abbrev S128x128 : Shape := ⟨2, ![128, 128]⟩
abbrev S1x128x128 : Shape := ⟨3, ![1, 128, 128]⟩

abbrev nBuf : Space → Nat
  | .hbm => 301
  | .vmem => 0
  | .smem => 0
  | _ => 0

abbrev hbmTy0_0 (i : Nat) : BufTy := match i % 128 with
  | 0 => ⟨S2x256x256x32, .f32⟩
  | 1 => ⟨S2x128x32, .f32⟩
  | 2 => ⟨S2x128x2, .f32⟩
  | 3 => ⟨S2x128x1, .f32⟩
  | 4 => ⟨S2x32x256x256, .f32⟩
  | 5 => ⟨S2x128x1, .f32⟩
  | 6 => ⟨S2x128, .f32⟩
  | 7 => ⟨S_, .f32⟩
  | 8 => ⟨S2x128, .f32⟩
  | 9 => ⟨S2x128, .f32⟩
  | 10 => ⟨S_, .f32⟩
  | 11 => ⟨S2x128, .f32⟩
  | 12 => ⟨S2x128, .f32⟩
  | 13 => ⟨S_, .f32⟩
  | 14 => ⟨S2x128, .f32⟩
  | 15 => ⟨S2x128, .f32⟩
  | 16 => ⟨S2x128x1, .f32⟩
  | 17 => ⟨S2x128, .f32⟩
  | 18 => ⟨S_, .f32⟩
  | 19 => ⟨S2x128, .f32⟩
  | 20 => ⟨S2x128, .f32⟩
  | 21 => ⟨S_, .f32⟩
  | 22 => ⟨S2x128, .f32⟩
  | 23 => ⟨S2x128, .f32⟩
  | 24 => ⟨S_, .f32⟩
  | 25 => ⟨S2x128, .f32⟩
  | 26 => ⟨S2x128, .f32⟩
  | 27 => ⟨S_, .f32⟩
  | 28 => ⟨S_, .i32⟩
  | 29 => ⟨S_, .f32⟩
  | 30 => ⟨S2x128, .f32⟩
  | 31 => ⟨S2x128, .f32⟩
  | 32 => ⟨S_, .f32⟩
  | 33 => ⟨S2x128, .f32⟩
  | 34 => ⟨S2x128, .f32⟩
  | 35 => ⟨S_, .f32⟩
  | 36 => ⟨S_, .i32⟩
  | 37 => ⟨S_, .f32⟩
  | 38 => ⟨S2x128, .f32⟩
  | 39 => ⟨S2x128, .f32⟩
  | 40 => ⟨S_, .f32⟩
  | 41 => ⟨S2x128, .f32⟩
  | 42 => ⟨S2x128, .f32⟩
  | 43 => ⟨S2x128, .f32⟩
  | 44 => ⟨S2x128, .f32⟩
  | 45 => ⟨S2x128, .f32⟩
  | 46 => ⟨S2x128, .f32⟩
  | 47 => ⟨S2x128, .f32⟩
  | 48 => ⟨S2x128, .f32⟩
  | 49 => ⟨S2x128, .f32⟩
  | 50 => ⟨S2x128, .f32⟩
  | 51 => ⟨S2x128, .f32⟩
  | 52 => ⟨S2x128, .f32⟩
  | 53 => ⟨S2x128, .f32⟩
  | 54 => ⟨S2x128, .f32⟩
  | 55 => ⟨S2x128, .f32⟩
  | 56 => ⟨S2x128, .f32⟩
  | 57 => ⟨S2x128, .f32⟩
  | 58 => ⟨S2x128, .f32⟩
  | 59 => ⟨S2x256x256x32, .f32⟩
  | 60 => ⟨S2, .i32⟩
  | 61 => ⟨S2x1, .i32⟩
  | 62 => ⟨S2x128, .i32⟩
  | 63 => ⟨S2x128, .i32⟩
  | 64 => ⟨S_, .i32⟩
  | 65 => ⟨S2x1, .i32⟩
  | 66 => ⟨S2x1, .i1⟩
  | 67 => ⟨S_, .i32⟩
  | 68 => ⟨S2x1, .i32⟩
  | 69 => ⟨S2x1, .i32⟩
  | 70 => ⟨S2x1, .i32⟩
  | 71 => ⟨S_, .i32⟩
  | 72 => ⟨S2x128, .i32⟩
  | 73 => ⟨S2x128, .i1⟩
  | 74 => ⟨S_, .i32⟩
  | 75 => ⟨S2x128, .i32⟩
  | 76 => ⟨S2x128, .i32⟩
  | 77 => ⟨S2x128, .i32⟩
  | 78 => ⟨S_, .i32⟩
  | 79 => ⟨S2x128, .i32⟩
  | 80 => ⟨S2x128, .i1⟩
  | 81 => ⟨S_, .i32⟩
  | 82 => ⟨S2x128, .i32⟩
  | 83 => ⟨S2x128, .i32⟩
  | 84 => ⟨S2x128, .i32⟩
  | 85 => ⟨S2x128, .i32⟩
  | 86 => ⟨S2x128x1, .i32⟩
  | 87 => ⟨S2x128x1, .i32⟩
  | 88 => ⟨S2x128x1, .i32⟩
  | 89 => ⟨S2x128x3, .i32⟩
  | 90 => ⟨S2x128x32, .f32⟩
  | 91 => ⟨S2x128x1, .f32⟩
  | 92 => ⟨S2x128x32, .f32⟩
  | 93 => ⟨S2x128x32, .f32⟩
  | 94 => ⟨S2x128, .i32⟩
  | 95 => ⟨S2x128, .i32⟩
  | 96 => ⟨S_, .i32⟩
  | 97 => ⟨S2x1, .i32⟩
  | 98 => ⟨S2x1, .i1⟩
  | 99 => ⟨S_, .i32⟩
  | 100 => ⟨S2x1, .i32⟩
  | 101 => ⟨S2x1, .i32⟩
  | 102 => ⟨S2x1, .i32⟩
  | 103 => ⟨S_, .i32⟩
  | 104 => ⟨S2x128, .i32⟩
  | 105 => ⟨S2x128, .i1⟩
  | 106 => ⟨S_, .i32⟩
  | 107 => ⟨S2x128, .i32⟩
  | 108 => ⟨S2x128, .i32⟩
  | 109 => ⟨S2x128, .i32⟩
  | 110 => ⟨S_, .i32⟩
  | 111 => ⟨S2x128, .i32⟩
  | 112 => ⟨S2x128, .i1⟩
  | 113 => ⟨S_, .i32⟩
  | 114 => ⟨S2x128, .i32⟩
  | 115 => ⟨S2x128, .i32⟩
  | 116 => ⟨S2x128, .i32⟩
  | 117 => ⟨S2x128, .i32⟩
  | 118 => ⟨S2x128x1, .i32⟩
  | 119 => ⟨S2x128x1, .i32⟩
  | 120 => ⟨S2x128x1, .i32⟩
  | 121 => ⟨S2x128x3, .i32⟩
  | 122 => ⟨S2x128x32, .f32⟩
  | 123 => ⟨S2x128x1, .f32⟩
  | 124 => ⟨S2x128x32, .f32⟩
  | 125 => ⟨S2x128x32, .f32⟩
  | 126 => ⟨S2x128x32, .f32⟩
  | 127 => ⟨S2x128, .i32⟩
  | _ => ⟨S2x256x256x32, .f32⟩

abbrev hbmTy0_1 (i : Nat) : BufTy := match i % 128 with
  | 0 => ⟨S2x128, .i32⟩
  | 1 => ⟨S_, .i32⟩
  | 2 => ⟨S2x1, .i32⟩
  | 3 => ⟨S2x1, .i1⟩
  | 4 => ⟨S_, .i32⟩
  | 5 => ⟨S2x1, .i32⟩
  | 6 => ⟨S2x1, .i32⟩
  | 7 => ⟨S2x1, .i32⟩
  | 8 => ⟨S_, .i32⟩
  | 9 => ⟨S2x128, .i32⟩
  | 10 => ⟨S2x128, .i1⟩
  | 11 => ⟨S_, .i32⟩
  | 12 => ⟨S2x128, .i32⟩
  | 13 => ⟨S2x128, .i32⟩
  | 14 => ⟨S2x128, .i32⟩
  | 15 => ⟨S_, .i32⟩
  | 16 => ⟨S2x128, .i32⟩
  | 17 => ⟨S2x128, .i1⟩
  | 18 => ⟨S_, .i32⟩
  | 19 => ⟨S2x128, .i32⟩
  | 20 => ⟨S2x128, .i32⟩
  | 21 => ⟨S2x128, .i32⟩
  | 22 => ⟨S2x128, .i32⟩
  | 23 => ⟨S2x128x1, .i32⟩
  | 24 => ⟨S2x128x1, .i32⟩
  | 25 => ⟨S2x128x1, .i32⟩
  | 26 => ⟨S2x128x3, .i32⟩
  | 27 => ⟨S2x128x32, .f32⟩
  | 28 => ⟨S2x128x1, .f32⟩
  | 29 => ⟨S2x128x32, .f32⟩
  | 30 => ⟨S2x128x32, .f32⟩
  | 31 => ⟨S2x128x32, .f32⟩
  | 32 => ⟨S2x128, .i32⟩
  | 33 => ⟨S2x128, .i32⟩
  | 34 => ⟨S_, .i32⟩
  | 35 => ⟨S2x1, .i32⟩
  | 36 => ⟨S2x1, .i1⟩
  | 37 => ⟨S_, .i32⟩
  | 38 => ⟨S2x1, .i32⟩
  | 39 => ⟨S2x1, .i32⟩
  | 40 => ⟨S2x1, .i32⟩
  | 41 => ⟨S_, .i32⟩
  | 42 => ⟨S2x128, .i32⟩
  | 43 => ⟨S2x128, .i1⟩
  | 44 => ⟨S_, .i32⟩
  | 45 => ⟨S2x128, .i32⟩
  | 46 => ⟨S2x128, .i32⟩
  | 47 => ⟨S2x128, .i32⟩
  | 48 => ⟨S_, .i32⟩
  | 49 => ⟨S2x128, .i32⟩
  | 50 => ⟨S2x128, .i1⟩
  | 51 => ⟨S_, .i32⟩
  | 52 => ⟨S2x128, .i32⟩
  | 53 => ⟨S2x128, .i32⟩
  | 54 => ⟨S2x128, .i32⟩
  | 55 => ⟨S2x128, .i32⟩
  | 56 => ⟨S2x128x1, .i32⟩
  | 57 => ⟨S2x128x1, .i32⟩
  | 58 => ⟨S2x128x1, .i32⟩
  | 59 => ⟨S2x128x3, .i32⟩
  | 60 => ⟨S2x128x32, .f32⟩
  | 61 => ⟨S2x128x1, .f32⟩
  | 62 => ⟨S2x128x32, .f32⟩
  | 63 => ⟨S2x128x32, .f32⟩
  | 64 => ⟨S2x128x32, .f32⟩
  | 65 => ⟨S2x128x32, .f32⟩
  | 66 => ⟨S_, .f32⟩
  | 67 => ⟨S2x128, .f32⟩
  | 68 => ⟨S2x128x1, .f32⟩
  | 69 => ⟨S2x128x1, .f32⟩
  | 70 => ⟨S_, .f32⟩
  | 71 => ⟨S2x128x1, .f32⟩
  | 72 => ⟨S2x128x1, .f32⟩
  | 73 => ⟨S2x128x32, .f32⟩
  | 74 => ⟨S2x128x32, .f32⟩
  | 75 => ⟨S2x128x32, .f32⟩
  | 76 => ⟨S_, .f32⟩
  | 77 => ⟨S2x128, .f32⟩
  | 78 => ⟨S2x128x1, .f32⟩
  | 79 => ⟨S2x128x1, .f32⟩
  | 80 => ⟨S_, .f32⟩
  | 81 => ⟨S2x128x1, .f32⟩
  | 82 => ⟨S2x128x1, .f32⟩
  | 83 => ⟨S2x128x32, .f32⟩
  | 84 => ⟨S2x128x32, .f32⟩
  | 85 => ⟨S2x128x32, .f32⟩
  | 86 => ⟨S_, .f32⟩
  | 87 => ⟨S2x128, .f32⟩
  | 88 => ⟨S2x128x1, .f32⟩
  | 89 => ⟨S2x65536x32, .f32⟩
  | 90 => ⟨S2x65536x32, .f32⟩
  | 91 => ⟨S_, .f32⟩
  | 92 => ⟨S2x65536, .f32⟩
  | 93 => ⟨S2x65536x1, .f32⟩
  | 94 => ⟨S2x65536x1, .f32⟩
  | 95 => ⟨S_, .f32⟩
  | 96 => ⟨S2x65536x1, .f32⟩
  | 97 => ⟨S2x65536x1, .f32⟩
  | 98 => ⟨S2x65536x32, .f32⟩
  | 99 => ⟨S2x65536x32, .f32⟩
  | 100 => ⟨S2x128x32, .f32⟩
  | 101 => ⟨S_, .f32⟩
  | 102 => ⟨S2x128, .f32⟩
  | 103 => ⟨S2x128x1, .f32⟩
  | 104 => ⟨S2x128x1, .f32⟩
  | 105 => ⟨S_, .f32⟩
  | 106 => ⟨S2x128x1, .f32⟩
  | 107 => ⟨S2x128x1, .f32⟩
  | 108 => ⟨S2x128x32, .f32⟩
  | 109 => ⟨S2x128x32, .f32⟩
  | 110 => ⟨S2x65536x128, .f32⟩
  | 111 => ⟨S_, .f32⟩
  | 112 => ⟨S2x65536x128, .f32⟩
  | 113 => ⟨S2x65536x128, .f32⟩
  | 114 => ⟨S_, .f32⟩
  | 115 => ⟨S2x65536x128, .f32⟩
  | 116 => ⟨S2x65536x128, .i1⟩
  | 117 => ⟨S2x65536x128, .f32⟩
  | 118 => ⟨S2x128x128, .f32⟩
  | 119 => ⟨S_, .f32⟩
  | 120 => ⟨S2x128, .f32⟩
  | 121 => ⟨S2x128x1, .f32⟩
  | 122 => ⟨S2x1x128, .f32⟩
  | 123 => ⟨S2x128x128, .f32⟩
  | 124 => ⟨S2x128x128, .f32⟩
  | 125 => ⟨S2x128x128, .f32⟩
  | 126 => ⟨S2x128x128, .f32⟩
  | 127 => ⟨S_, .f32⟩
  | _ => ⟨S2x256x256x32, .f32⟩

abbrev hbmTy0_2 (i : Nat) : BufTy := match i % 128 with
  | 0 => ⟨S2x128x128, .f32⟩
  | 1 => ⟨S2x128x128, .f32⟩
  | 2 => ⟨S2x128x128, .f32⟩
  | 3 => ⟨S128x128, .i32⟩
  | 4 => ⟨S128x128, .i32⟩
  | 5 => ⟨S_, .i32⟩
  | 6 => ⟨S128x128, .i32⟩
  | 7 => ⟨S128x128, .i32⟩
  | 8 => ⟨S128x128, .i1⟩
  | 9 => ⟨S1x128x128, .i1⟩
  | 10 => ⟨S_, .f32⟩
  | 11 => ⟨S2x128x128, .f32⟩
  | 12 => ⟨S2x128x128, .i1⟩
  | 13 => ⟨S1x128x128, .i1⟩
  | 14 => ⟨S2x128x128, .i1⟩
  | 15 => ⟨S2x128x128, .i1⟩
  | 16 => ⟨S2x1x128, .f32⟩
  | 17 => ⟨S2x128x128, .f32⟩
  | 18 => ⟨S2x128x128, .f32⟩
  | 19 => ⟨S2x128x128, .i1⟩
  | 20 => ⟨S2x128x128, .i1⟩
  | 21 => ⟨S_, .f32⟩
  | 22 => ⟨S2x128x1, .f32⟩
  | 23 => ⟨S2x128x1, .i1⟩
  | 24 => ⟨S2x128x1, .i1⟩
  | 25 => ⟨S2x1x128, .i1⟩
  | 26 => ⟨S2x128x128, .i1⟩
  | 27 => ⟨S2x128x128, .i1⟩
  | 28 => ⟨S2x128x128, .i1⟩
  | 29 => ⟨S2x128x128, .i1⟩
  | 30 => ⟨S2x128x128, .i1⟩
  | 31 => ⟨S2x1x128, .i1⟩
  | 32 => ⟨S2x128x128, .i1⟩
  | 33 => ⟨S2x128x128, .i1⟩
  | 34 => ⟨S2x128x128, .i1⟩
  | 35 => ⟨S2x128x128, .i1⟩
  | 36 => ⟨S2x128x128, .i1⟩
  | 37 => ⟨S_, .i1⟩
  | 38 => ⟨S2x128, .i1⟩
  | 39 => ⟨S2x128x1, .i1⟩
  | 40 => ⟨S2x128x1, .i1⟩
  | 41 => ⟨S2x128x1, .f32⟩
  | 42 => ⟨S2x1x128, .f32⟩
  | 43 => ⟨S2x65536x128, .f32⟩
  | 44 => ⟨S2x65536x128, .f32⟩
  | _ => ⟨S2x256x256x32, .f32⟩

abbrev hbmTy (i : Nat) : BufTy := match i / 128 with
  | 0 => hbmTy0_0 i
  | 1 => hbmTy0_1 i
  | 2 => hbmTy0_2 i
  | _ => ⟨S2x256x256x32, .f32⟩

abbrev bufTy : (tb : Table) → Fin (tcTables nBuf tb) → BufTy
  | .hbm, ⟨i, _⟩ => hbmTy i
  | _, _ => ⟨S2x256x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v17 : Ref sig .tc := ⟨.hbm, 34, rfl⟩
abbrev main_cst_6 : Ref sig .tc := ⟨.hbm, 35, rfl⟩
abbrev main_c_7 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_c_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_12 : Ref sig .tc := ⟨.hbm, 78, rfl⟩
abbrev main_v50 : Ref sig .tc := ⟨.hbm, 79, rfl⟩
abbrev main_v51 : Ref sig .tc := ⟨.hbm, 80, rfl⟩
abbrev main_c_13 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_16 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_c_19 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_20 : Ref sig .tc := ⟨.hbm, 129, rfl⟩
abbrev main_v93 : Ref sig .tc := ⟨.hbm, 130, rfl⟩
abbrev main_v94 : Ref sig .tc := ⟨.hbm, 131, rfl⟩
abbrev main_c_21 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_22 : Ref sig .tc := ⟨.hbm, 136, rfl⟩
abbrev main_v98 : Ref sig .tc := ⟨.hbm, 137, rfl⟩
abbrev main_v99 : Ref sig .tc := ⟨.hbm, 138, rfl⟩
abbrev main_c_23 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_c_24 : Ref sig .tc := ⟨.hbm, 143, rfl⟩
abbrev main_v103 : Ref sig .tc := ⟨.hbm, 144, rfl⟩
abbrev main_v104 : Ref sig .tc := ⟨.hbm, 145, rfl⟩
abbrev main_c_25 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_26 : Ref sig .tc := ⟨.hbm, 162, rfl⟩
abbrev main_v120 : Ref sig .tc := ⟨.hbm, 163, rfl⟩
abbrev main_v121 : Ref sig .tc := ⟨.hbm, 164, rfl⟩
abbrev main_c_27 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_c_28 : Ref sig .tc := ⟨.hbm, 169, rfl⟩
abbrev main_v125 : Ref sig .tc := ⟨.hbm, 170, rfl⟩
abbrev main_v126 : Ref sig .tc := ⟨.hbm, 171, rfl⟩
abbrev main_c_29 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_c_30 : Ref sig .tc := ⟨.hbm, 176, rfl⟩
abbrev main_v130 : Ref sig .tc := ⟨.hbm, 177, rfl⟩
abbrev main_v131 : Ref sig .tc := ⟨.hbm, 178, rfl⟩
abbrev main_c_31 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_call2_v0 : Ref sig .tc := ⟨.hbm, 193, rfl⟩
abbrev main_call2_cst : Ref sig .tc := ⟨.hbm, 194, rfl⟩
abbrev main_call2_v1 : Ref sig .tc := ⟨.hbm, 195, rfl⟩
abbrev main_call2_v2 : Ref sig .tc := ⟨.hbm, 196, rfl⟩
abbrev main_v145 : Ref sig .tc := ⟨.hbm, 197, rfl⟩
abbrev main_cst_32 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_call3_v0 : Ref sig .tc := ⟨.hbm, 203, rfl⟩
abbrev main_call3_cst : Ref sig .tc := ⟨.hbm, 204, rfl⟩
abbrev main_call3_v1 : Ref sig .tc := ⟨.hbm, 205, rfl⟩
abbrev main_call3_v2 : Ref sig .tc := ⟨.hbm, 206, rfl⟩
abbrev main_v150 : Ref sig .tc := ⟨.hbm, 207, rfl⟩
abbrev main_cst_33 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_34 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_call4_v0 : Ref sig .tc := ⟨.hbm, 218, rfl⟩
abbrev main_call4_cst : Ref sig .tc := ⟨.hbm, 219, rfl⟩
abbrev main_call4_v1 : Ref sig .tc := ⟨.hbm, 220, rfl⟩
abbrev main_call4_v2 : Ref sig .tc := ⟨.hbm, 221, rfl⟩
abbrev main_v159 : Ref sig .tc := ⟨.hbm, 222, rfl⟩
abbrev main_cst_35 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_call5_v0 : Ref sig .tc := ⟨.hbm, 228, rfl⟩
abbrev main_call5_cst : Ref sig .tc := ⟨.hbm, 229, rfl⟩
abbrev main_call5_v1 : Ref sig .tc := ⟨.hbm, 230, rfl⟩
abbrev main_call5_v2 : Ref sig .tc := ⟨.hbm, 231, rfl⟩
abbrev main_v164 : Ref sig .tc := ⟨.hbm, 232, rfl⟩
abbrev main_cst_36 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_call6_cst : Ref sig .tc := ⟨.hbm, 239, rfl⟩
abbrev main_call6_v0 : Ref sig .tc := ⟨.hbm, 240, rfl⟩
abbrev main_v170 : Ref sig .tc := ⟨.hbm, 241, rfl⟩
abbrev main_cst_37 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_cst_38 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_cst_39 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_c_40 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_cst_41 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_cst_42 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_c_43 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩

abbrev nD : Nat := 1
abbrev τ : Topo := Topo.v7x

variable {F : FTy → Type} [FloatOps F]

class Facts₀ : Prop where
  transposes_S2x256x256x32_S2x32x256x256_0_3_1_2 : S2x256x256x32.Transposes [0, 3, 1, 2] S2x32x256x256
  slices_S2x128x2_S2x128x1_0_0_0 : S2x128x2.Slices ![0, 0, 0] S2x128x1
  shapeCasts_S2x128x1_S2x128 : S2x128x1.ShapeCasts S2x128
  bcast_S_S2x128 : S_.BroadcastsInDim S2x128 (![] : Fin 0 → Fin S2x128.rank)
  slices_S2x128x2_S2x128x1_0_0_1 : S2x128x2.Slices ![0, 0, 1] S2x128x1
  transposes_S2x32x256x256_S2x256x256x32_0_2_3_1 : S2x32x256x256.Transposes [0, 2, 3, 1] S2x256x256x32
  bcast_S2_S2x1_0 : S2.BroadcastsInDim S2x1 (![0] : Fin 1 → Fin S2x1.rank)
  bcast_S_S2x1 : S_.BroadcastsInDim S2x1 (![] : Fin 0 → Fin S2x1.rank)
  bcast_S2x1_S2x128_0_1 : S2x1.BroadcastsInDim S2x128 (![0, 1] : Fin 2 → Fin S2x128.rank)
  bcast_S2x128_S2x128x1_0_1 : S2x128.BroadcastsInDim S2x128x1 (![0, 1] : Fin 2 → Fin S2x128x1.rank)
  concatenates_S2x128x1_S2x128x1_S2x128x1_S2x128x3_d2 : Shape.Concatenates [S2x128x1, S2x128x1, S2x128x1] S2x128x3 2
  bcast_S2x128x1_S2x128x32_0_1_2 : S2x128x1.BroadcastsInDim S2x128x32 (![0, 1, 2] : Fin 3 → Fin S2x128x32.rank)
  reducesTo_S2x128x32_S2x128_d2 : S2x128x32.ReducesTo [2] S2x128
  h_S_ : 0 < S_.numel
  bcast_S_S2x128x1 : S_.BroadcastsInDim S2x128x1 (![] : Fin 0 → Fin S2x128x1.rank)
  shapeCasts_S2x256x256x32_S2x65536x32 : S2x256x256x32.ShapeCasts S2x65536x32
  reducesTo_S2x65536x32_S2x65536_d2 : S2x65536x32.ReducesTo [2] S2x65536
  bcast_S2x65536_S2x65536x1_0_1 : S2x65536.BroadcastsInDim S2x65536x1 (![0, 1] : Fin 2 → Fin S2x65536x1.rank)
  bcast_S_S2x65536x1 : S_.BroadcastsInDim S2x65536x1 (![] : Fin 0 → Fin S2x65536x1.rank)
  bcast_S2x65536x1_S2x65536x32_0_1_2 : S2x65536x1.BroadcastsInDim S2x65536x32 (![0, 1, 2] : Fin 3 → Fin S2x65536x32.rank)
  bcast_S_S2x65536x128 : S_.BroadcastsInDim S2x65536x128 (![] : Fin 0 → Fin S2x65536x128.rank)
  reducesTo_S2x65536x128_S2x128_d1 : S2x65536x128.ReducesTo [1] S2x128
  bcast_S2x128_S2x1x128_0_2 : S2x128.BroadcastsInDim S2x1x128 (![0, 2] : Fin 2 → Fin S2x1x128.rank)
  bcast_S2x128x1_S2x128x128_0_1_2 : S2x128x1.BroadcastsInDim S2x128x128 (![0, 1, 2] : Fin 3 → Fin S2x128x128.rank)
  bcast_S2x1x128_S2x128x128_0_1_2 : S2x1x128.BroadcastsInDim S2x128x128 (![0, 1, 2] : Fin 3 → Fin S2x128x128.rank)
  bcast_S_S2x128x128 : S_.BroadcastsInDim S2x128x128 (![] : Fin 0 → Fin S2x128x128.rank)
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S2x128x128_0_1_2 : S1x128x128.BroadcastsInDim S2x128x128 (![0, 1, 2] : Fin 3 → Fin S2x128x128.rank)
  transposes_S2x128x1_S2x1x128_0_2_1 : S2x128x1.Transposes [0, 2, 1] S2x1x128
  reducesTo_S2x128x128_S2x128_d2 : S2x128x128.ReducesTo [2] S2x128
  bcast_S2x1x128_S2x65536x128_0_1_2 : S2x1x128.BroadcastsInDim S2x65536x128 (![0, 1, 2] : Fin 3 → Fin S2x65536x128.rank)
  gather_S2x256x256x32_S2x128x3_S2x128x32_2_012_n_n_012_2_11132_wf : GatherDims.WF S2x256x256x32 S2x128x3 S2x128x32 [2] [0, 1, 2] [] [0, 1, 2] [] 2 ![1, 1, 1, 32]
  dot_S2x65536x32_S2x128x32_S2x65536x128_2_2_1_1_0_0_wf : DotDims.WF S2x65536x32 S2x128x32 S2x65536x128 [2] [2] [1] [1] [0] [0]
  dot_S2x65536x128_S2x65536x128_S2x128x128_1_1_2_2_0_0_wf : DotDims.WF S2x65536x128 S2x65536x128 S2x128x128 [1] [1] [2] [2] [0] [0]

variable [Facts₀]

def gather_S2x256x256x32_S2x128x3_S2x128x32_2_012_n_n_012_2_11132 : GatherDims S2x256x256x32 S2x128x3 S2x128x32 where
  offsetDims := [2]
  collapsedSliceDims := [0, 1, 2]
  operandBatchingDims := []
  startIndicesBatchingDims := []
  startIndexMap := [0, 1, 2]
  indexVectorDim := 2
  sliceSizes := ![1, 1, 1, 32]
  wf := gather_S2x256x256x32_S2x128x3_S2x128x32_2_012_n_n_012_2_11132_wf
def dot_S2x65536x32_S2x128x32_S2x65536x128_2_2_1_1_0_0 : DotDims S2x65536x32 S2x128x32 S2x65536x128 where
  lhsContracting := [2]
  rhsContracting := [2]
  lhsNonContracting := [1]
  rhsNonContracting := [1]
  lhsBatch := [0]
  rhsBatch := [0]
  wf := dot_S2x65536x32_S2x128x32_S2x65536x128_2_2_1_1_0_0_wf
def dot_S2x65536x128_S2x65536x128_S2x128x128_1_1_2_2_0_0 : DotDims S2x65536x128 S2x65536x128 S2x128x128 where
  lhsContracting := [1]
  rhsContracting := [1]
  lhsNonContracting := [2]
  rhsNonContracting := [2]
  lhsBatch := [0]
  rhsBatch := [0]
  wf := dot_S2x65536x128_S2x65536x128_S2x128x128_1_1_2_2_0_0_wf

class Facts : Prop extends Facts₀ where

variable [Facts]
-- ==== Proof.HandKernel.Fold.lean ====
/-
  The contents of core `c`'s buffers at every boundary between two items of @main, as a fold from the
  launch memory `m`: a stretch of host operations applies them in order (`StableHlo.after`); a kernel
  region replaces the arrays of its windows by given arrays `a0` / `a1` (what the region's write-backs
  leave) and keeps every other buffer.
-/
import proofs.«134385_j4260607558106_2_alg».proof.Proof.Gen.Kernel.Launch
import Idealize.ShloMosaic.Lib.Pipeline.FrameSuffix

noncomputable section

namespace Cert.Kernel.Hand

open Cert.Kernel Cert.Kernel.Gen
open Idealize.ShloMosaic Idealize.ShloMosaic.TcCoe
open Idealize.SL.Sem

variable {F : FTy → Type} [FloatOps F]

variable (m : (ℓ : Loc nD τ sig) → Buf (Elt F) ℓ)

/-- The arrays a region leaves, one per window of the region. -/
abbrev Arrs0 (c : Dev nD) : Type := (w : Fin 3) → Buf (Elt F) ((spec0 w).arr.view.loc (c.tc : Thread nD τ))
abbrev Arrs1 (c : Dev nD) : Type := (w : Fin 4) → Buf (Elt F) ((spec1 w).arr.view.loc (c.tc : Thread nD τ))

/-- At launch. -/
abbrev W0 (c : Dev nD) : Valuation τ sig (Elt F) := fun b => m (c, b)
/-- After the norm of the phenotypes' rows. -/
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
abbrev W6 (c : Dev nD) : Valuation τ sig (Elt F) := StableHlo.after hostOps0_5 (W5 m c)
abbrev W7 (c : Dev nD) : Valuation τ sig (Elt F) := StableHlo.after hostOps0_6 (W6 m c)
/-- At the entry of the first region (the intersection counts). -/
abbrev W8 (c : Dev nD) : Valuation τ sig (Elt F) := StableHlo.after hostOps0_7 (W7 m c)

variable (a0 : (c : Dev nD) → Arrs0 (F := F) c)

/-- At the exit of the first region: its windows' arrays at `a0`. -/
def W9 (c : Dev nD) : Valuation τ sig (Elt F) := Pipeline.withArrays spec0 c (W8 m c) (a0 c)
abbrev W10 (c : Dev nD) : Valuation τ sig (Elt F) := StableHlo.after hostOps1 (W9 m a0 c)
/-- At the entry of the second region (the masks). -/
abbrev W11 (c : Dev nD) : Valuation τ sig (Elt F) := StableHlo.after hostOps1_1 (W10 m a0 c)

variable (a1 : (c : Dev nD) → Arrs1 (F := F) c)

/-- At the exit of the second region, the end of @main. -/
def W12 (c : Dev nD) : Valuation τ sig (Elt F) := Pipeline.withArrays spec1 c (W11 m a0 c) (a1 c)

theorem W9_arr (c : Dev nD) (w : Fin 3) : W9 m a0 c (Proc.devRef .tc (Pipeline.arrRef spec0 w)) = a0 c w := by
  unfold W9; exact Pipeline.withArrays_arr spec0 launch0.win.arr_inj c _ _ w
theorem W9_of_ne (c : Dev nD) (b : Ref sig .tc) (hb : ∀ w, Pipeline.arrRef spec0 w ≠ b) :
    W9 m a0 c (Proc.devRef .tc b) = W8 m c (Proc.devRef .tc b) := by
  unfold W9; exact Pipeline.withArrays_of_ne spec0 c _ _ b hb
theorem W12_arr (c : Dev nD) (w : Fin 4) : W12 m a0 a1 c (Proc.devRef .tc (Pipeline.arrRef spec1 w)) = a1 c w := by
  unfold W12; exact Pipeline.withArrays_arr spec1 launch1.win.arr_inj c _ _ w
theorem W12_of_ne (c : Dev nD) (b : Ref sig .tc) (hb : ∀ w, Pipeline.arrRef spec1 w ≠ b) :
    W12 m a0 a1 c (Proc.devRef .tc b) = W11 m a0 c (Proc.devRef .tc b) := by
  unfold W12; exact Pipeline.withArrays_of_ne spec1 c _ _ b hb

end Cert.Kernel.Hand

end
-- ==== Proof.HandKernel.Reg0Runs.lean ====
/-
  The body of the first kernel region (the intersection counts), run once per case of its one branch.

  The body keeps a [128,128] accumulator in a scratch buffer that survives from one grid point to the
  next.  At a point whose second grid coordinate is 0 it first stores zeros into the accumulator; at
  every point it then adds the point's contribution (a function of the two input blocks) to the
  accumulator and copies the accumulator, with a leading unit axis, into the output block.  Both runs
  below say exactly that: from the two input blocks `x0`, `x1` (and, away from the first tile, the
  accumulator `a` the point before left) the scratch ends at `k0_pay2 x0 x1 a` (with `a` the zeros
  `k0_pay1` at a first tile) and the output block at the same array with a leading unit axis.
-/
import proofs.«134385_j4260607558106_2_alg».proof.Proof.Gen.Kernel.Launch
import proofs.«134385_j4260607558106_2_alg».proof.Proof.Gen.Kernel.Skeleton
import proofs.«134385_j4260607558106_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one branch, from the grid coordinates: the second coordinate is 0. -/
abbrev cond0_0 (i : grid0.Coords) : Prop := (Scalar.cmpi .ne (Scalar.extui (Scalar.cmpi .eq (BitVec.ofNat 32 (i 1).val) 0#32)) 0#32) = 1#1

/-- It holds at the points ≡ 0 (mod 8): the first tile of each batch entry. -/
theorem hcond0_0 : ∀ t : Fin cfg0.N, cond0_0 (grid0.coords t) ↔ t.val % 8 = 0 :=
  (by decide +kernel : ∀ t : Fin grid0.N, cond0_0 (grid0.coords t) ↔ t.val % 8 = 0)

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- At a first tile: whatever the accumulator and the output block held, the accumulator ends at the
    zeros plus the point's contribution and the output block at the same with a leading unit axis; the
    input blocks are left as they were. -/
theorem sound_kernel0_A (c : Dev nD) (E : Set ℕ) (i : grid0.Coords) (arg2 : Memref sig .tc .vmem S1x8192x32 .f32) (harg2 : arg2.IsWhole) (arg3 : Memref sig .tc .vmem S1x128x32 .f32) (harg3 : arg3.IsWhole) (arg4 : Memref sig .tc .vmem S1x128x128 .f32) (harg4 : arg4.IsWhole) (arg5 : Memref sig .tc .vmem S128x128 .f32) (harg5 : arg5.IsWhole)
    (hc0 : cond0_0 i) (x0 : Vec F S1x8192x32 .f32) (x1 : Vec F S1x128x32 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (shapeCast S1x128x128 (k0_pay2 x0 x1 (k0_pay1 (F := F))) shapeCasts_S128x128_S1x128x128)
            ∗ owns (c : Thread nD τ) arg5 fullShare (k0_pay2 x0 x1 (k0_pay1 (F := F)))) -∗ K ⟨⟩))
      ⊢ wp frame (wpE (defs₀ (F := F)) Variants.none c none) E (cc0__masks_reduce_kernel i arg2 harg2 arg3 harg3 arg4 harg4 arg5 harg5) K := by
  simp only [cc0__masks_reduce_kernel_eq_skeleton]; unfold cc0__masks_reduce_kernel_skel
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.Mem.head _, View.mem_set_unit_zero hz3 inb_S1x128x128_S1x128x128_0_0_0 y⟩), View.canon_unit_zero hz3]
    simp only [View.readCov_cons_toLoadRect, View.readAt_eq_ld, harg2.read_unread, harg3.read_unread, View.ld_unit_zero (S := S1x8192x32) hz3, View.ld_unit_zero (S := S1x128x32) hz3]
    rfl
  iexists _; isplitr
  swap; · iexact HS0
  ipureintro
  sl_unfold_run_names
  rw [View.read_writes_eq_canon _ _ _ (fun y => ⟨_, List.Mem.head _, View.mem_set_unit_zero hz2 inb_S128x128_S128x128_0_0 y⟩), View.canon_cons_unit_zero hz2]
  simp only [View.readCov_cons_toLoadRect, View.readAt_eq_ld, harg2.read_unread, harg3.read_unread, View.ld_unit_zero (S := S1x8192x32) hz3, View.ld_unit_zero (S := S1x128x32) hz3]

set_option maxHeartbeats 1000000 in
/-- Away from a first tile: from the accumulator at `a`, it ends at `a` plus the point's contribution
    and the output block at the same with a leading unit axis; the input blocks are left as they were. -/
theorem sound_kernel0_B (c : Dev nD) (E : Set ℕ) (i : grid0.Coords) (arg2 : Memref sig .tc .vmem S1x8192x32 .f32) (harg2 : arg2.IsWhole) (arg3 : Memref sig .tc .vmem S1x128x32 .f32) (harg3 : arg3.IsWhole) (arg4 : Memref sig .tc .vmem S1x128x128 .f32) (harg4 : arg4.IsWhole) (arg5 : Memref sig .tc .vmem S128x128 .f32) (harg5 : arg5.IsWhole)
    (hc0 : ¬cond0_0 i) (x0 : Vec F S1x8192x32 .f32) (x1 : Vec F S1x128x32 .f32) (a : Vec F S128x128 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare a
        ∗ (iprop(owns (c : Thread nD τ) arg2 fullShare x0 ∗ owns (c : Thread nD τ) arg3 fullShare x1
            ∗ owns (c : Thread nD τ) arg4 fullShare (shapeCast S1x128x128 (k0_pay2 x0 x1 a) shapeCasts_S128x128_S1x128x128)
            ∗ owns (c : Thread nD τ) arg5 fullShare (k0_pay2 x0 x1 a)) -∗ K ⟨⟩))
      ⊢ wp frame (wpE (defs₀ (F := F)) Variants.none c none) E (cc0__masks_reduce_kernel i arg2 harg2 arg3 harg3 arg4 harg4 arg5 harg5) K := by
  simp only [cc0__masks_reduce_kernel_eq_skeleton]; unfold cc0__masks_reduce_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.Mem.head _, View.mem_set_unit_zero hz3 inb_S1x128x128_S1x128x128_0_0_0 y⟩), View.canon_unit_zero hz3]
    simp only [View.readCov_cons_toLoadRect, View.readAt_eq_ld, harg2.read_unread, harg3.read_unread, harg5.read_unread, View.ld_unit_zero (S := S128x128) hz2, View.ld_unit_zero (S := S1x8192x32) hz3, View.ld_unit_zero (S := S1x128x32) hz3]
    rfl
  iexists _; isplitr
  swap; · iexact HS0
  ipureintro
  sl_unfold_run_names
  rw [View.read_writes_eq_canon _ _ _ (fun y => ⟨_, List.Mem.head _, View.mem_set_unit_zero hz2 inb_S128x128_S128x128_0_0 y⟩), View.canon_cons_unit_zero hz2]
  simp only [View.readCov_cons_toLoadRect, View.readAt_eq_ld, harg2.read_unread, harg3.read_unread, harg5.read_unread, View.ld_unit_zero (S := S128x128) hz2, View.ld_unit_zero (S := S1x8192x32) hz3, View.ld_unit_zero (S := S1x128x32) hz3]

end Cert.Kernel.Hand

end
-- ==== Proof.HandKernel.Reg0.lean ====
/-
  The first kernel region (the intersection counts) at a parameter `V`, the buffer contents of a core
  when the region is entered: each window's block at a grid point, the accumulator after each point
  (one recursion over the points: at a first tile the zeros plus the point's contribution, elsewhere
  what the point before left plus the point's contribution), the region's invariant (before the first
  point whatever the launch hands over; afterwards the scratch at the accumulator of the point before,
  every other scoped buffer at anything), the proof data of the pipeline, and the body's obligation at
  every point, by cases on the tile.
-/
import proofs.«134385_j4260607558106_2_alg».proof.Proof.HandKernel.Reg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, fetched only at a first tile: elsewhere its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The point's contribution and the accumulator -/

/-- What a point adds to the accumulator, from its two input blocks: with `q` the rows of the first
    block divided by the larger of their norm and a small constant, and `raw = q · kᵀ` against the rows
    `k` of the second block, the [128,128] matrix `mbᵀ · mb` of the 0/1 matrix `mb = (raw > 1/2)`. -/
def contrib0 (x0 : Vec F S1x8192x32 .f32) (x1 : Vec F S1x128x32 .f32) : Vec F S128x128 .f32 :=
  have v4 : FVec F S8192x32 .f32 := shapeCast S8192x32 x0 shapeCasts_S1x8192x32_S8192x32
  have v5 : FVec F S8192x32 .f32 := mulf v4 v4
  have v6 : FVec F S8192 .f32 := multiReduction .add [1] S8192 v5 0x00000000#32 reduces_S8192x32_S8192 (.inl rfl) rfl
  have v7 : FVec F S8192x1 .f32 := shapeCast S8192x1 v6 shapeCasts_S8192_S8192x1
  have v8 : FVec F S8192x1 .f32 := sqrt v7
  have cst_3 : F .f32 := Scalar.ofBits .f32 0x358637BD#32
  have v9 : FVec F S8192x1 .f32 := broadcast S8192x1 cst_3
  have v10 : FVec F S8192x1 .f32 := maximumf v8 v9
  have v11 : FVec F S8192x32 .f32 := broadcastTo S8192x32 v10 broadcasts_S8192x1_S8192x32
  have v12 : FVec F S8192x32 .f32 := divf v4 v11
  have v14 : FVec F S128x32 .f32 := shapeCast S128x32 x1 shapeCasts_S1x128x32_S128x32
  have v15 : FVec F S32x128 .f32 := transpose S32x128 [1, 0] v14 transposes_S128x32_p1_0_S32x128
  have cst_7 : FVec F S8192x128 .f32 := constant S8192x128 .f32 0x00000000#32
  have v16 : FVec F S8192x128 .f32 := matmul dot_S8192x32_S32x128_S8192x128_1_0_0_1_n_n (some .fp32) v12 v15 cst_7
  have cst_8 : F .f32 := Scalar.ofBits .f32 0x3F000000#32
  have v17 : FVec F S8192x128 .f32 := broadcast S8192x128 cst_8
  have v18 : IVec S8192x128 1 := cmpf .ogt v16 v17
  have v19 : IVec S8192x128 32 := extui 32 v18 natLt_1_32
  have v20 : FVec F S8192x128 .f32 := sitofp .f32 v19
  have v21 : FVec F S8192x128 .bf16 := truncf .bf16 v20 bitsLt_bf16_f32
  have cst_9 : FVec F S128x128 .f32 := constant S128x128 .f32 0x00000000#32
  have v22 : FVec F S128x128 .f32 := matmul dot_S8192x128_S8192x128_S128x128_0_0_1_1_n_n none v21 v21 cst_9
  v22

/-- The accumulator's update is "add the contribution" (up to a reshape to its own shape). -/
theorem k0_pay2_eq (x0 : Vec F S1x8192x32 .f32) (x1 : Vec F S1x128x32 .f32) (a : Vec F S128x128 .f32) :
    k0_pay2 x0 x1 a = shapeCast S128x128 (addf a (contrib0 x0 x1)) shapeCasts_S128x128_S128x128 := rfl

/-- The zeros a first tile starts from. -/
theorem k0_pay1_eq : (k0_pay1 (F := F)) = shapeCast S128x128 (broadcast S128x128 (Scalar.ofBits .f32 0x00000000#32)) shapeCasts_S128x128_S128x128 := rfl

/-- THE ACCUMULATION. The scratch after the body at position `n`: at a first tile (`n % 8 = 0`) the
    zeros plus the point's contribution, elsewhere what the point before left plus the point's
    contribution. -/
def acc0 (c : Dev nD) : (n : ℕ) → n < cfg0.N → Vec F S128x128 .f32
  | 0, hn => k0_pay2 (iblk0 V c 0 ⟨0, hn⟩) (iblk0 V c 1 ⟨0, hn⟩) (k0_pay1 (F := F))
  | n + 1, hn =>
    if (n + 1) % 8 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a first tile. -/
theorem acc0_A (c : Dev nD) (t : Fin cfg0.N) (h0 : t.val % 8 = 0) :
    acc0 V c t.val t.isLt = k0_pay2 (iblk0 V c 0 t) (iblk0 V c 1 t) (k0_pay1 (F := F)) := by
  obtain ⟨n, hn⟩ := t
  cases n with
  | zero => exact rfl
  | succ n => exact if_pos h0

/-- Elsewhere: over what the point before left. -/
theorem acc0_B (c : Dev nD) (t : Fin cfg0.N) (h0 : ¬t.val % 8 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant -/

/-- The scratch operand: the accumulator, a whole scoped buffer of the kernel's own. -/
abbrev scM0_0 : Memref sig .tc .vmem S128x128 .f32 := Memref.whole cc0_scratch0

/-- The core's other scoped buffers that are no staging buffer of this region, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the region, with the accumulator as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

/-- The invariant before position `n`: before the first point what the launch hands over (the
    accumulator at anything); afterwards the accumulator at what the point before left, every other
    scoped buffer at anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ rest0 (F := F) c) ∗ (∃ r, prngReg c r)) := by
  cases n with
  | zero => exact absurd rfl hz
  | succ n => rfl

/-! ## The pipeline's proof data -/

/-- The proof data of the region's pipeline on core `c`: the arrays as the region finds them; after the
    body at point `t` each input's buffer at its block and the output's at the accumulator with a leading
    unit axis; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => shapeCast S1x128x128 (acc0 V c t.val t.isLt) shapeCasts_S128x128_S1x128x128
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = shapeCast S1x128x128 (acc0 V c t.val t.isLt) shapeCasts_S128x128_S1x128x128 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 4800000 in
/-- The body at any point: the inputs' memrefs hold their blocks; the tile says which case the point is
    in; the invariant hands the body the accumulator at what the point before left (at anything at the
    first point) and takes it back at this point's; the other scoped buffers, the generator register and
    the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, after0_0, after0_1, after0_2]
  by_cases h0 : t.val % 8 = 0
  · rw [acc0_A V c t h0]
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply (sound_kernel0_A c Set.univ (grid0.coords t) _ _ _ _ _ _ _ _ ((hcond0_0 t).mpr h0) (iblk0 V c 0 t) (iblk0 V c 1 t) _)
      isplitl [H0]; · iexact H0
      isplitl [H1]; · iexact H1
      isplitl [H2]; · iexists _; iexact H2
      isplitl [HS0]; · iexact HS0
      iintro ⟨H0, H1, H2, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply (sound_kernel0_A c Set.univ (grid0.coords t) _ _ _ _ _ _ _ _ ((hcond0_0 t).mpr h0) (iblk0 V c 0 t) (iblk0 V c 1 t) _)
      isplitl [H0]; · iexact H0
      isplitl [H1]; · iexact H1
      isplitl [H2]; · iexists _; iexact H2
      isplitl [HS0]; · iexists _; iexact HS0
      iintro ⟨H0, H1, H2, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      iexact H2
  · rw [acc0_B V c t h0]
    have hz : t.val ≠ 0 := fun e => h0 (by rw [e])
    rw [PhiS0_castSucc V c t, PhiS0_pos V c _ _ hz]
    iintro ⟨⟨⟨HS0, Hrest⟩, Hg⟩, Ho, ⟨%d0, H0⟩, ⟨%d1, H1⟩, ⟨%d2, H2⟩⟩
    iapply (sound_kernel0_B c Set.univ (grid0.coords t) _ _ _ _ _ _ _ _ (fun h => h0 ((hcond0_0 t).mp h)) (iblk0 V c 0 t) (iblk0 V c 1 t) _ _)
    isplitl [H0]; · iexact H0
    isplitl [H1]; · iexact H1
    isplitl [H2]; · iexists _; iexact H2
    isplitl [HS0]; · iexact HS0
    iintro ⟨H0, H1, H2, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives it back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]; · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Regions

end Cert.Kernel.Hand

end
-- ==== Proof.HandKernel.Reg1.lean ====
/-
  The second kernel region (the masks): its class-A half at a parameter V, the TensorCore's buffer contents
  when the region is entered. Each window's block at a grid point read off its array; the output buffer after
  the body as the canonical contents of the body's one store over the payload of its three loads; the body's
  triple; the proof data of the pipeline; the body obligation at every point.
-/
import proofs.«134385_j4260607558106_2_alg».proof.Proof.Gen.Kernel.Launch
import proofs.«134385_j4260607558106_2_alg».proof.Proof.Gen.Kernel.Skeleton
import proofs.«134385_j4260607558106_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 8192: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (its block index moves only with the batch: unfetched, the buffer still holds it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S1x8192x32 := Rect.unit (s := S1x8192x32) ![0, 0, 0] S1x8192x32.size inb_S1x8192x32_S1x8192x32_0_0_0
abbrev r1_1 : Rect S1x128x32 := Rect.unit (s := S1x128x32) ![0, 0, 0] S1x128x32.size inb_S1x128x32_S1x128x32_0_0_0
abbrev r1_2 : Rect S1x1x128 := Rect.unit (s := S1x1x128) ![0, 0, 0] S1x1x128.size inb_S1x1x128_S1x1x128_0_0_0
abbrev r1_3 : Rect S1x8192x128 := Rect.unit (s := S1x8192x128) ![0, 0, 0] S1x8192x128.size inb_S1x8192x128_S1x8192x128_0_0_0

/-! ## What the body leaves in the output window's buffer -/

/-- Window 3's staging buffer after the body, from the input windows' blocks: the canonical contents of its one
    store, whose value is the payload over the three loads. -/
def out1_3 (x0 : Vec F S1x8192x32 .f32) (x1 : Vec F S1x128x32 .f32) (x2 : Vec F S1x1x128 .f32) : Vec F S1x8192x128 .f32 :=
  View.canon [⟨r1_3, k1_pay1 (View.ld x0 r1_0) (View.ld x1 r1_1) (View.ld x2 r1_2)⟩]

/-- The store is of the whole buffer, so it covers it. -/
theorem cover1_3 (p0 : Vec F S1x8192x128 .f32) (y : S1x8192x128.Idx) :
    ∃ pc ∈ ([⟨r1_3, p0⟩] : List (View.Piece (Elt F) S1x8192x128 .f32)), y ∈ pc.1.set :=
  View.cover_of_tiled [⟨r1_3, p0⟩] S1x8192x128.size (by rfl) y

/-! ## The body's triple -/

set_option maxHeartbeats 1000000 in
/-- The kernel body on whole staging memrefs, the inputs' at read contents x0 x1 x2 and the output's at anything,
    runs to the continuation holding the inputs' as they were and the output's at out1_3 of the inputs'. -/
theorem sound_kernel1 (c : Dev nD) (E : Set ℕ) (i : grid1.Coords)
    (arg2 : Memref sig .tc .vmem S1x8192x32 .f32) (harg2 : arg2.IsWhole) (arg3 : Memref sig .tc .vmem S1x128x32 .f32) (harg3 : arg3.IsWhole)
    (arg4 : Memref sig .tc .vmem S1x1x128 .f32) (harg4 : arg4.IsWhole) (arg5 : Memref sig .tc .vmem S1x8192x128 .f32) (harg5 : arg5.IsWhole)
    (x0 : Vec F S1x8192x32 .f32) (x1 : Vec F S1x128x32 .f32) (x2 : Vec F S1x1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__masks_final_kernel i arg2 harg2 arg3 harg3 arg4 harg4 arg5 harg5) K := by
  simp only [cc1__masks_final_kernel_eq_skeleton]; unfold cc1__masks_final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core c: the arrays as the region finds them (V); after the body at
    point t each input's buffer at its block and the output's at out1_3 of the input blocks; the class-A invariant;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.HandKernel.Run.lean ====
import proofs.«134385_j4260607558106_2_alg».proof.Proof.HandKernel.Fold
import proofs.«134385_j4260607558106_2_alg».proof.Proof.HandKernel.Reg0
import proofs.«134385_j4260607558106_2_alg».proof.Proof.HandKernel.Reg1
import proofs.«134385_j4260607558106_2_alg».proof.Proof.Gen.Kernel.Launch
import proofs.«134385_j4260607558106_2_alg».proof.Proof.Gen.Kernel.Skeleton
import proofs.«134385_j4260607558106_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the two regions' boundaries -/

/-- The buffers as the first region finds them, read at the TensorCore's references. -/
abbrev V8 : (c : Dev nD) → (b : Ref sig .tc) → Buf (Elt F) ((c : Thread nD τ).loc b) := fun c b => W8 m c b
/-- What the first region's write-backs leave in its windows' arrays. -/
def a0 (c : Dev nD) : Arrs0 (F := F) c := fun w => (dat0 (V8 m) c).arrAt w cfg0.N
/-- The buffers as the second region finds them. -/
abbrev V11 : (c : Dev nD) → (b : Ref sig .tc) → Buf (Elt F) ((c : Thread nD τ).loc b) := fun c b => W11 m (a0 m) c b
/-- What the second region's write-backs leave in its windows' arrays. -/
def a1 (c : Dev nD) : Arrs1 (F := F) c := fun w => (dat1 (V11 m) c).arrAt w cfg1.N
/-- The buffers at the first region's exit and at the end of @main. -/
abbrev V9 : (c : Dev nD) → (b : Ref sig .tc) → Buf (Elt F) ((c : Thread nD τ).loc b) := fun c b => W9 m (a0 m) c b
abbrev V12 : (c : Dev nD) → (b : Ref sig .tc) → Buf (Elt F) ((c : Thread nD τ).loc b) := fun c b => W12 m (a0 m) (a1 m) c b

theorem hF0 (c : Dev nD) (w : Fin cfg0.W) : (dat0 (V8 m) c).arrAt w cfg0.N = V9 m c (Pipeline.arrRef spec0 w) :=
  (W9_arr m (a0 m) c w).symm
theorem hrest0 (c : Dev nD) : ∀ b, b ∉ Finset.univ.image (Pipeline.arrRef spec0) → V9 m c b = V8 m c b :=
  fun b hb => W9_of_ne m (a0 m) c b fun w e => hb (Finset.mem_image.mpr ⟨w, Finset.mem_univ _, e⟩)
theorem hF1 (c : Dev nD) (w : Fin cfg1.W) : (dat1 (V11 m) c).arrAt w cfg1.N = V12 m c (Pipeline.arrRef spec1 w) :=
  (W12_arr m (a0 m) (a1 m) c w).symm
theorem hrest1 (c : Dev nD) : ∀ b, b ∉ Finset.univ.image (Pipeline.arrRef spec1) → V12 m c b = V11 m c b :=
  fun b hb => W12_of_ne m (a0 m) (a1 m) c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V8 m) c
  | ⟨1, _⟩ => fun c => dat1 (V11 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item of @main. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end's contents, the generator register at some state. -/
abbrev Tₙ (c : Dev nD) : sProp 𝕄 := iprop(StableHlo.held (c : Thread nD τ) (Pipeline.ucRefs τ sig) (W12 m (a0 m) (a1 m) c) ∗ ∃ r, prngReg c r)

/-! ## The regions as items -/

set_option backward.isDefEq.respectTransparency.types false in
/-- The first region: entered from every unscoped buffer at `W8`, left at `W9`. Its windows' arrays are split out of the
    unscoped buffers and put back at the exit contents; the generator register and the scoped buffers (the carried
    accumulator among them) pass into the region's invariant and come back out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V8 m) c).loose
  hwaits := Pipeline.hwaits_of_owed_zero _ _ _ _ L lv 0 fun _ _ => rfl
  pre c := iprop(StableHlo.held (c : Thread nD τ) (Pipeline.ucRefs τ sig) (W8 m c) ∗ R c)
  post c := iprop(StableHlo.held (c : Thread nD τ) (Pipeline.ucRefs τ sig) (W9 m (a0 m) c) ∗ R c)
  X c := iprop(∃ r, prngReg c r)
  Y c := iprop(∃ r, prngReg c r)
  Z c := Pipeline.unscopedRest (Ix := Unit) (Name := ℕ) (U := UR sig nD τ) (Lvl := ℕ) spec0 c (V8 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (V8 m) c)
    show iprop((∃ r, prngReg c r) ∗ Pipeline.prefHeld (pcfgs (F := F) 0).pre c (fun _ => fullShare) (adm (F := F) 0).1
      ∗ Pipeline.scopedRest (Ix := Unit) (Name := ℕ) (U := UR sig nD τ) (Lvl := ℕ) spec0 c) ⊢ (iprop(Pipeline.scopedRest spec0 c ∗ ∃ r, prngReg c r) : sProp 𝕄)
    iintro ⟨Hp, -, Hr⟩
    isplitl [Hr]; · iexact Hr
    iexact Hp
  hout c := by
    rw [Pipeline.ownSems0_none]
    refine BI.Entails.trans (hout0 (V8 m) c) ?_
    show (iprop(Pipeline.scopedRest spec0 c ∗ ∃ r, prngReg c r) : sProp 𝕄) ⊢ iprop((∃ r, prngReg c r) ∗ BI.emp
      ∗ Pipeline.scopedRest (Ix := Unit) (Name := ℕ) (U := UR sig nD τ) (Lvl := ℕ) spec0 c)
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V8 m c) (V9 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W11`, left at `W12`, the end of @main. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m) c).loose
  hwaits := Pipeline.hwaits_of_owed_zero _ _ _ _ L lv 1 fun _ _ => rfl
  pre c := iprop(StableHlo.held (c : Thread nD τ) (Pipeline.ucRefs τ sig) (W11 m (a0 m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V11 m c) (V12 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's twelve items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .region (reg0 m),
    .host (hseg hostOps1 hostOps1_sub hostOps1_fresh (W9 m (a0 m))),
    .host (hseg hostOps1_1 hostOps1_1_sub hostOps1_1_fresh (W10 m (a0 m))),
    .region (reg1 m) ]

theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting, and in every final state each unscoped buffer of each core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m (a0 m) (a1 m) c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m (a0 m) (a1 m) c b)
    (hfin := fun c s' => by
      iintro ⟨⟨Hh, -⟩, HSI⟩
      unfold StableHlo.held
      imodintro
      iapply (pointsTo_read_all (Pipeline.ucRefs τ sig) (fun b => (((c : Thread nD τ)).1, b)) (W12 m (a0 m) (a1 m) c) s')
      isplitl [Hh] <;> iassumption)
    (hQ := fun s h c => h c)

end Cert.Kernel.Hand

end
-- ==== Proof.HandKernel.Frame.lean ====
import proofs.«134385_j4260607558106_2_alg».proof.Proof.HandKernel.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No item of @main writes an argument

No host operation writes an argument's buffer and no window of either region has an argument as its array, so the
fold of the boundaries' contents at an argument walks back to the launch memory. -/

/-- `r` is one of @main's four arguments. -/
abbrev IsArg (r : Ref sig .tc) : Prop := r = main_arg0 ∨ r = main_arg1 ∨ r = main_arg2 ∨ r = main_arg3

/-- A stretch of host operations none of which writes `r` leaves `r`'s contents. -/
theorem after_keep {r : Ref sig .tc} (ops : List (HloOp τ sig (Elt F))) (V : Valuation τ sig (Elt F))
    (h : ops.Forall fun op => (Proc.devRef .tc r : DevRef τ sig) ∉ op.writes) :
    StableHlo.after ops V (Proc.devRef .tc r) = V (Proc.devRef .tc r) :=
  StableHlo.after_of_forall_not_mem (b := Proc.devRef .tc r) ops V (List.forall_iff_forall_mem.mp h)

theorem keep_hostOps0 {r : Ref sig .tc} (hr : IsArg r) :
    (hostOps0 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps0_1 {r : Ref sig .tc} (hr : IsArg r) :
    (hostOps0_1 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps0_2 {r : Ref sig .tc} (hr : IsArg r) :
    (hostOps0_2 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps0_3 {r : Ref sig .tc} (hr : IsArg r) :
    (hostOps0_3 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps0_4 {r : Ref sig .tc} (hr : IsArg r) :
    (hostOps0_4 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
set_option maxHeartbeats 8000000 in
theorem keep_hostOps0_5 {r : Ref sig .tc} (hr : IsArg r) :
    (hostOps0_5 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps0_6 {r : Ref sig .tc} (hr : IsArg r) :
    (hostOps0_6 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps0_7 {r : Ref sig .tc} (hr : IsArg r) :
    (hostOps0_7 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps1 {r : Ref sig .tc} (hr : IsArg r) :
    (hostOps1 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps1_1 {r : Ref sig .tc} (hr : IsArg r) :
    (hostOps1_1 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)

/-- An argument's buffer holds its launch contents at the end of @main. -/
theorem W12_arg {r : Ref sig .tc} (hr : IsArg r) (c : Dev nD) :
    W12 m (a0 m) (a1 m) c (Proc.devRef .tc r) = m ((c : Thread nD τ).loc r) :=
  calc W12 m (a0 m) (a1 m) c (Proc.devRef .tc r)
    _ = W11 m (a0 m) c (Proc.devRef .tc r) := W12_of_ne m (a0 m) (a1 m) c r (by rcases hr with rfl | rfl | rfl | rfl <;> decide)
    _ = W10 m (a0 m) c (Proc.devRef .tc r) := after_keep hostOps1_1 _ (keep_hostOps1_1 hr)
    _ = W9 m (a0 m) c (Proc.devRef .tc r) := after_keep hostOps1 _ (keep_hostOps1 hr)
    _ = W8 m c (Proc.devRef .tc r) := W9_of_ne m (a0 m) c r (by rcases hr with rfl | rfl | rfl | rfl <;> decide)
    _ = W7 m c (Proc.devRef .tc r) := after_keep hostOps0_7 _ (keep_hostOps0_7 hr)
    _ = W6 m c (Proc.devRef .tc r) := after_keep hostOps0_6 _ (keep_hostOps0_6 hr)
    _ = W5 m c (Proc.devRef .tc r) := after_keep hostOps0_5 _ (keep_hostOps0_5 hr)
    _ = W4 m c (Proc.devRef .tc r) := after_keep hostOps0_4 _ (keep_hostOps0_4 hr)
    _ = W3 m c (Proc.devRef .tc r) := after_keep hostOps0_3 _ (keep_hostOps0_3 hr)
    _ = W2 m c (Proc.devRef .tc r) := after_keep hostOps0_2 _ (keep_hostOps0_2 hr)
    _ = W1 m c (Proc.devRef .tc r) := after_keep hostOps0_1 _ (keep_hostOps0_1 hr)
    _ = W0 m c (Proc.devRef .tc r) := after_keep hostOps0 _ (keep_hostOps0 hr)
    _ = m ((c : Thread nD τ).loc r) := rfl

/-- The result's buffer is the output window's array of the second region: it ends at what that region's write-backs leave. -/
theorem W12_result (c : Dev nD) : W12 m (a0 m) (a1 m) c (Proc.devRef .tc main_v204) = a1 m c 3 :=
  W12_arr m (a0 m) (a1 m) c 3

/-- THE FRAME AND THE RESULT, at any `F`: every weakly fair execution of @main from `m` with zero counters terminates, nothing
    faulting; the result's buffer ends at what the second region's write-backs leave in its output window's array, and every
    argument ends as launched. -/
theorem run_result : θ_run defs (onTc (τ := τ) (main (F := F))) ⟨m, fun _ => 0, ρ⟩ (fun r => ∀ c : Dev nD,
      r.2.mem ((c.tc : Thread nD τ).loc main_v204) = a1 m c 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_v204 (by decide))).trans (W12_result m c),
     (h c _ (mem_uc main_arg0 (by decide))).trans (W12_arg m (Or.inl rfl) c),
     (h c _ (mem_uc main_arg1 (by decide))).trans (W12_arg m (Or.inr (Or.inl rfl)) c),
     (h c _ (mem_uc main_arg2 (by decide))).trans (W12_arg m (Or.inr (Or.inr (Or.inl rfl))) c),
     (h c _ (mem_uc main_arg3 (by decide))).trans (W12_arg m (Or.inr (Or.inr (Or.inr rfl))) c)⟩) (run m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.Kernel.Hand

end
-- ==== Proof.HandKernelIdeal.Fold.lean ====
/-
  The contents of core `c`'s buffers at every boundary between two items of @main, as a fold from the
  launch memory `m`: a stretch of host operations applies them in order (`StableHlo.after`); a kernel
  region replaces the arrays of its windows by given arrays `a0` / `a1` (what the region's write-backs
  leave) and keeps every other buffer.
-/
import proofs.«134385_j4260607558106_2_alg».proof.Proof.Gen.KernelIdeal.Launch
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-- The arrays a region leaves, one per window of the region. -/
abbrev Arrs0 (c : Dev nD) : Type := (w : Fin 3) → Buf (Elt F) ((spec0 w).arr.view.loc (c.tc : Thread nD τ))
abbrev Arrs1 (c : Dev nD) : Type := (w : Fin 4) → Buf (Elt F) ((spec1 w).arr.view.loc (c.tc : Thread nD τ))

/-- At launch. -/
abbrev W0 (c : Dev nD) : Valuation τ sig (Elt F) := fun b => m (c, b)
/-- After the norm of the phenotypes' rows. -/
abbrev W1 (c : Dev nD) : Valuation τ sig (Elt F) := StableHlo.after hostOps0 (W0 m c)
abbrev W2 (c : Dev nD) : Valuation τ sig (Elt F) := StableHlo.after hostOps0_1 (W1 m c)
abbrev W3 (c : Dev nD) : Valuation τ sig (Elt F) := StableHlo.after hostOps0_2 (W2 m c)
abbrev W4 (c : Dev nD) : Valuation τ sig (Elt F) := StableHlo.after hostOps0_3 (W3 m c)
abbrev W5 (c : Dev nD) : Valuation τ sig (Elt F) := StableHlo.after hostOps0_4 (W4 m c)
abbrev W6 (c : Dev nD) : Valuation τ sig (Elt F) := StableHlo.after hostOps0_5 (W5 m c)
abbrev W7 (c : Dev nD) : Valuation τ sig (Elt F) := StableHlo.after hostOps0_6 (W6 m c)
/-- At the entry of the first region (the intersection counts). -/
abbrev W8 (c : Dev nD) : Valuation τ sig (Elt F) := StableHlo.after hostOps0_7 (W7 m c)

variable (a0 : (c : Dev nD) → Arrs0 (F := F) c)

/-- At the exit of the first region: its windows' arrays at `a0`. -/
def W9 (c : Dev nD) : Valuation τ sig (Elt F) := Pipeline.withArrays spec0 c (W8 m c) (a0 c)
abbrev W10 (c : Dev nD) : Valuation τ sig (Elt F) := StableHlo.after hostOps1 (W9 m a0 c)
/-- At the entry of the second region (the masks). -/
abbrev W11 (c : Dev nD) : Valuation τ sig (Elt F) := StableHlo.after hostOps1_1 (W10 m a0 c)

variable (a1 : (c : Dev nD) → Arrs1 (F := F) c)

/-- At the exit of the second region, the end of @main. -/
def W12 (c : Dev nD) : Valuation τ sig (Elt F) := Pipeline.withArrays spec1 c (W11 m a0 c) (a1 c)

theorem W9_arr (c : Dev nD) (w : Fin 3) : W9 m a0 c (Proc.devRef .tc (Pipeline.arrRef spec0 w)) = a0 c w := by
  unfold W9; exact Pipeline.withArrays_arr spec0 launch0.win.arr_inj c _ _ w
theorem W9_of_ne (c : Dev nD) (b : Ref sig .tc) (hb : ∀ w, Pipeline.arrRef spec0 w ≠ b) :
    W9 m a0 c (Proc.devRef .tc b) = W8 m c (Proc.devRef .tc b) := by
  unfold W9; exact Pipeline.withArrays_of_ne spec0 c _ _ b hb
theorem W12_arr (c : Dev nD) (w : Fin 4) : W12 m a0 a1 c (Proc.devRef .tc (Pipeline.arrRef spec1 w)) = a1 c w := by
  unfold W12; exact Pipeline.withArrays_arr spec1 launch1.win.arr_inj c _ _ w
theorem W12_of_ne (c : Dev nD) (b : Ref sig .tc) (hb : ∀ w, Pipeline.arrRef spec1 w ≠ b) :
    W12 m a0 a1 c (Proc.devRef .tc b) = W11 m a0 c (Proc.devRef .tc b) := by
  unfold W12; exact Pipeline.withArrays_of_ne spec1 c _ _ b hb

end Cert.KernelIdeal.Hand

end
-- ==== Proof.HandKernelIdeal.Reg0Runs.lean ====
/-
  The body of the first kernel region (the intersection counts), run once per case of its one branch.

  The body keeps a [128,128] accumulator in a scratch buffer that survives from one grid point to the
  next.  At a point whose second grid coordinate is 0 it first stores zeros into the accumulator; at
  every point it then adds the point's contribution (a function of the two input blocks) to the
  accumulator and copies the accumulator, with a leading unit axis, into the output block.  Both runs
  below say exactly that: from the two input blocks `x0`, `x1` (and, away from the first tile, the
  accumulator `a` the point before left) the scratch ends at `k0_pay2 x0 x1 a` (with `a` the zeros
  `k0_pay1` at a first tile) and the output block at the same array with a leading unit axis.
-/
import proofs.«134385_j4260607558106_2_alg».proof.Proof.Gen.KernelIdeal.Launch
import proofs.«134385_j4260607558106_2_alg».proof.Proof.Gen.KernelIdeal.Skeleton
import proofs.«134385_j4260607558106_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's one branch, from the grid coordinates: the second coordinate is 0. -/
abbrev cond0_0 (i : grid0.Coords) : Prop := (Scalar.cmpi .ne (Scalar.extui (Scalar.cmpi .eq (BitVec.ofNat 32 (i 1).val) 0#32)) 0#32) = 1#1

/-- It holds at the points ≡ 0 (mod 8): the first tile of each batch entry. -/
theorem hcond0_0 : ∀ t : Fin cfg0.N, cond0_0 (grid0.coords t) ↔ t.val % 8 = 0 :=
  (by decide +kernel : ∀ t : Fin grid0.N, cond0_0 (grid0.coords t) ↔ t.val % 8 = 0)

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- At a first tile: whatever the accumulator and the output block held, the accumulator ends at the
    zeros plus the point's contribution and the output block at the same with a leading unit axis; the
    input blocks are left as they were. -/
theorem sound_kernel0_A (c : Dev nD) (E : Set ℕ) (i : grid0.Coords) (arg2 : Memref sig .tc .vmem S1x8192x32 .f32) (harg2 : arg2.IsWhole) (arg3 : Memref sig .tc .vmem S1x128x32 .f32) (harg3 : arg3.IsWhole) (arg4 : Memref sig .tc .vmem S1x128x128 .f32) (harg4 : arg4.IsWhole) (arg5 : Memref sig .tc .vmem S128x128 .f32) (harg5 : arg5.IsWhole)
    (hc0 : cond0_0 i) (x0 : Vec F S1x8192x32 .f32) (x1 : Vec F S1x128x32 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (shapeCast S1x128x128 (k0_pay2 x0 x1 (k0_pay1 (F := F))) shapeCasts_S128x128_S1x128x128)
            ∗ owns (c : Thread nD τ) arg5 fullShare (k0_pay2 x0 x1 (k0_pay1 (F := F)))) -∗ K ⟨⟩))
      ⊢ wp frame (wpE (defs₀ (F := F)) Variants.none c none) E (cc0__masks_reduce_kernel i arg2 harg2 arg3 harg3 arg4 harg4 arg5 harg5) K := by
  simp only [cc0__masks_reduce_kernel_eq_skeleton]; unfold cc0__masks_reduce_kernel_skel
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.Mem.head _, View.mem_set_unit_zero hz3 inb_S1x128x128_S1x128x128_0_0_0 y⟩), View.canon_unit_zero hz3]
    simp only [View.readCov_cons_toLoadRect, View.readAt_eq_ld, harg2.read_unread, harg3.read_unread, View.ld_unit_zero (S := S1x8192x32) hz3, View.ld_unit_zero (S := S1x128x32) hz3]
    rfl
  iexists _; isplitr
  swap; · iexact HS0
  ipureintro
  sl_unfold_run_names
  rw [View.read_writes_eq_canon _ _ _ (fun y => ⟨_, List.Mem.head _, View.mem_set_unit_zero hz2 inb_S128x128_S128x128_0_0 y⟩), View.canon_cons_unit_zero hz2]
  simp only [View.readCov_cons_toLoadRect, View.readAt_eq_ld, harg2.read_unread, harg3.read_unread, View.ld_unit_zero (S := S1x8192x32) hz3, View.ld_unit_zero (S := S1x128x32) hz3]

set_option maxHeartbeats 1000000 in
/-- Away from a first tile: from the accumulator at `a`, it ends at `a` plus the point's contribution
    and the output block at the same with a leading unit axis; the input blocks are left as they were. -/
theorem sound_kernel0_B (c : Dev nD) (E : Set ℕ) (i : grid0.Coords) (arg2 : Memref sig .tc .vmem S1x8192x32 .f32) (harg2 : arg2.IsWhole) (arg3 : Memref sig .tc .vmem S1x128x32 .f32) (harg3 : arg3.IsWhole) (arg4 : Memref sig .tc .vmem S1x128x128 .f32) (harg4 : arg4.IsWhole) (arg5 : Memref sig .tc .vmem S128x128 .f32) (harg5 : arg5.IsWhole)
    (hc0 : ¬cond0_0 i) (x0 : Vec F S1x8192x32 .f32) (x1 : Vec F S1x128x32 .f32) (a : Vec F S128x128 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare a
        ∗ (iprop(owns (c : Thread nD τ) arg2 fullShare x0 ∗ owns (c : Thread nD τ) arg3 fullShare x1
            ∗ owns (c : Thread nD τ) arg4 fullShare (shapeCast S1x128x128 (k0_pay2 x0 x1 a) shapeCasts_S128x128_S1x128x128)
            ∗ owns (c : Thread nD τ) arg5 fullShare (k0_pay2 x0 x1 a)) -∗ K ⟨⟩))
      ⊢ wp frame (wpE (defs₀ (F := F)) Variants.none c none) E (cc0__masks_reduce_kernel i arg2 harg2 arg3 harg3 arg4 harg4 arg5 harg5) K := by
  simp only [cc0__masks_reduce_kernel_eq_skeleton]; unfold cc0__masks_reduce_kernel_skel
  unfold owns
  iintro ⟨⟨%f0, %hf0, H0⟩, ⟨%f1, %hf1, H1⟩, ⟨%d2, %f2, -, H2⟩, ⟨%fs0, %hfs0, HS0⟩, Hk⟩
  obtain rfl := harg2.eq_unread hf0; obtain rfl := harg3.eq_unread hf1; obtain rfl := harg5.eq_unread hfs0
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (fun y => ⟨_, List.Mem.head _, View.mem_set_unit_zero hz3 inb_S1x128x128_S1x128x128_0_0_0 y⟩), View.canon_unit_zero hz3]
    simp only [View.readCov_cons_toLoadRect, View.readAt_eq_ld, harg2.read_unread, harg3.read_unread, harg5.read_unread, View.ld_unit_zero (S := S128x128) hz2, View.ld_unit_zero (S := S1x8192x32) hz3, View.ld_unit_zero (S := S1x128x32) hz3]
    rfl
  iexists _; isplitr
  swap; · iexact HS0
  ipureintro
  sl_unfold_run_names
  rw [View.read_writes_eq_canon _ _ _ (fun y => ⟨_, List.Mem.head _, View.mem_set_unit_zero hz2 inb_S128x128_S128x128_0_0 y⟩), View.canon_cons_unit_zero hz2]
  simp only [View.readCov_cons_toLoadRect, View.readAt_eq_ld, harg2.read_unread, harg3.read_unread, harg5.read_unread, View.ld_unit_zero (S := S128x128) hz2, View.ld_unit_zero (S := S1x8192x32) hz3, View.ld_unit_zero (S := S1x128x32) hz3]

end Cert.KernelIdeal.Hand

end
-- ==== Proof.HandKernelIdeal.Reg0.lean ====
/-
  The first kernel region (the intersection counts) at a parameter `V`, the buffer contents of a core
  when the region is entered: each window's block at a grid point, the accumulator after each point
  (one recursion over the points: at a first tile the zeros plus the point's contribution, elsewhere
  what the point before left plus the point's contribution), the region's invariant (before the first
  point whatever the launch hands over; afterwards the scratch at the accumulator of the point before,
  every other scoped buffer at anything), the proof data of the pipeline, and the body's obligation at
  every point, by cases on the tile.
-/
import proofs.«134385_j4260607558106_2_alg».proof.Proof.HandKernelIdeal.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1, fetched only at a first tile: elsewhere its block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The point's contribution and the accumulator -/

/-- What a point adds to the accumulator, from its two input blocks: with `q` the rows of the first
    block divided by the larger of their norm and a small constant, and `raw = q · kᵀ` against the rows
    `k` of the second block, the [128,128] matrix `mbᵀ · mb` of the 0/1 matrix `mb = (raw > 1/2)`. -/
def contrib0 (x0 : Vec F S1x8192x32 .f32) (x1 : Vec F S1x128x32 .f32) : Vec F S128x128 .f32 :=
  have v4 : FVec F S8192x32 .f32 := shapeCast S8192x32 x0 shapeCasts_S1x8192x32_S8192x32
  have v5 : FVec F S8192x32 .f32 := mulf v4 v4
  have v6 : FVec F S8192 .f32 := multiReduction .add [1] S8192 v5 0x00000000#32 reduces_S8192x32_S8192 (.inl rfl) rfl
  have v7 : FVec F S8192x1 .f32 := shapeCast S8192x1 v6 shapeCasts_S8192_S8192x1
  have v8 : FVec F S8192x1 .f32 := sqrt v7
  have cst_3 : F .f32 := Scalar.ofBits .f32 0x358637BD#32
  have v9 : FVec F S8192x1 .f32 := broadcast S8192x1 cst_3
  have v10 : FVec F S8192x1 .f32 := maximumf v8 v9
  have v11 : FVec F S8192x32 .f32 := broadcastTo S8192x32 v10 broadcasts_S8192x1_S8192x32
  have v12 : FVec F S8192x32 .f32 := divf v4 v11
  have v14 : FVec F S128x32 .f32 := shapeCast S128x32 x1 shapeCasts_S1x128x32_S128x32
  have v15 : FVec F S32x128 .f32 := transpose S32x128 [1, 0] v14 transposes_S128x32_p1_0_S32x128
  have cst_7 : FVec F S8192x128 .f32 := constant S8192x128 .f32 0x00000000#32
  have v16 : FVec F S8192x128 .f32 := matmul dot_S8192x32_S32x128_S8192x128_1_0_0_1_n_n (some .fp32) v12 v15 cst_7
  have cst_8 : F .f32 := Scalar.ofBits .f32 0x3F000000#32
  have v17 : FVec F S8192x128 .f32 := broadcast S8192x128 cst_8
  have v18 : IVec S8192x128 1 := cmpf .ogt v16 v17
  have v19 : IVec S8192x128 32 := extui 32 v18 natLt_1_32
  have v20 : FVec F S8192x128 .f32 := sitofp .f32 v19
  have v21 : FVec F S8192x128 .bf16 := truncf .bf16 v20 bitsLt_bf16_f32
  have cst_9 : FVec F S128x128 .f32 := constant S128x128 .f32 0x00000000#32
  have v22 : FVec F S128x128 .f32 := matmul dot_S8192x128_S8192x128_S128x128_0_0_1_1_n_n none v21 v21 cst_9
  v22

/-- The accumulator's update is "add the contribution" (up to a reshape to its own shape). -/
theorem k0_pay2_eq (x0 : Vec F S1x8192x32 .f32) (x1 : Vec F S1x128x32 .f32) (a : Vec F S128x128 .f32) :
    k0_pay2 x0 x1 a = shapeCast S128x128 (addf a (contrib0 x0 x1)) shapeCasts_S128x128_S128x128 := rfl

/-- The zeros a first tile starts from. -/
theorem k0_pay1_eq : (k0_pay1 (F := F)) = shapeCast S128x128 (broadcast S128x128 (Scalar.ofBits .f32 0x00000000#32)) shapeCasts_S128x128_S128x128 := rfl

/-- THE ACCUMULATION. The scratch after the body at position `n`: at a first tile (`n % 8 = 0`) the
    zeros plus the point's contribution, elsewhere what the point before left plus the point's
    contribution. -/
def acc0 (c : Dev nD) : (n : ℕ) → n < cfg0.N → Vec F S128x128 .f32
  | 0, hn => k0_pay2 (iblk0 V c 0 ⟨0, hn⟩) (iblk0 V c 1 ⟨0, hn⟩) (k0_pay1 (F := F))
  | n + 1, hn =>
    if (n + 1) % 8 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At a first tile. -/
theorem acc0_A (c : Dev nD) (t : Fin cfg0.N) (h0 : t.val % 8 = 0) :
    acc0 V c t.val t.isLt = k0_pay2 (iblk0 V c 0 t) (iblk0 V c 1 t) (k0_pay1 (F := F)) := by
  obtain ⟨n, hn⟩ := t
  cases n with
  | zero => exact rfl
  | succ n => exact if_pos h0

/-- Elsewhere: over what the point before left. -/
theorem acc0_B (c : Dev nD) (t : Fin cfg0.N) (h0 : ¬t.val % 8 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant -/

/-- The scratch operand: the accumulator, a whole scoped buffer of the kernel's own. -/
abbrev scM0_0 : Memref sig .tc .vmem S128x128 .f32 := Memref.whole cc0_scratch0

/-- The core's other scoped buffers that are no staging buffer of this region, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the region, with the accumulator as a memref owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

/-- The invariant before position `n`: before the first point what the launch hands over (the
    accumulator at anything); afterwards the accumulator at what the point before left, every other
    scoped buffer at anything, and the generator register at some state. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)) ∗ rest0 (F := F) c) ∗ (∃ r, prngReg c r)) := by
  cases n with
  | zero => exact absurd rfl hz
  | succ n => rfl

/-! ## The pipeline's proof data -/

/-- The proof data of the region's pipeline on core `c`: the arrays as the region finds them; after the
    body at point `t` each input's buffer at its block and the output's at the accumulator with a leading
    unit axis; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => shapeCast S1x128x128 (acc0 V c t.val t.isLt) shapeCasts_S128x128_S1x128x128
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = shapeCast S1x128x128 (acc0 V c t.val t.isLt) shapeCasts_S128x128_S1x128x128 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 4800000 in
/-- The body at any point: the inputs' memrefs hold their blocks; the tile says which case the point is
    in; the invariant hands the body the accumulator at what the point before left (at anything at the
    first point) and takes it back at this point's; the other scoped buffers, the generator register and
    the core's debts pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, after0_0, after0_1, after0_2]
  by_cases h0 : t.val % 8 = 0
  · rw [acc0_A V c t h0]
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply (sound_kernel0_A c Set.univ (grid0.coords t) _ _ _ _ _ _ _ _ ((hcond0_0 t).mpr h0) (iblk0 V c 0 t) (iblk0 V c 1 t) _)
      isplitl [H0]; · iexact H0
      isplitl [H1]; · iexact H1
      isplitl [H2]; · iexists _; iexact H2
      isplitl [HS0]; · iexact HS0
      iintro ⟨H0, H1, H2, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply (sound_kernel0_A c Set.univ (grid0.coords t) _ _ _ _ _ _ _ _ ((hcond0_0 t).mpr h0) (iblk0 V c 0 t) (iblk0 V c 1 t) _)
      isplitl [H0]; · iexact H0
      isplitl [H1]; · iexact H1
      isplitl [H2]; · iexists _; iexact H2
      isplitl [HS0]; · iexists _; iexact HS0
      iintro ⟨H0, H1, H2, HS0⟩
      isplitl [HS0 Hrest Hg]
      · isplitl [HS0 Hrest]
        · isplitl [HS0]; · iexact HS0
          iexact Hrest
        iexact Hg
      isplitl [Ho]; · iexact Ho
      isplitl [H0]; · iexact H0
      isplitl [H1]; · iexact H1
      iexact H2
  · rw [acc0_B V c t h0]
    have hz : t.val ≠ 0 := fun e => h0 (by rw [e])
    rw [PhiS0_castSucc V c t, PhiS0_pos V c _ _ hz]
    iintro ⟨⟨⟨HS0, Hrest⟩, Hg⟩, Ho, ⟨%d0, H0⟩, ⟨%d1, H1⟩, ⟨%d2, H2⟩⟩
    iapply (sound_kernel0_B c Set.univ (grid0.coords t) _ _ _ _ _ _ _ _ (fun h => h0 ((hcond0_0 t).mp h)) (iblk0 V c 0 t) (iblk0 V c 1 t) _ _)
    isplitl [H0]; · iexact H0
    isplitl [H1]; · iexact H1
    isplitl [H2]; · iexists _; iexact H2
    isplitl [HS0]; · iexact HS0
    iintro ⟨H0, H1, H2, HS0⟩
    isplitl [HS0 Hrest Hg]
    · isplitl [HS0 Hrest]
      · isplitl [HS0]; · iexact HS0
        iexact Hrest
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives it back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]; · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Regions

end Cert.KernelIdeal.Hand

end
-- ==== Proof.HandKernelIdeal.Reg1.lean ====
/-
  The second kernel region (the masks): its class-A half at a parameter V, the TensorCore's buffer contents
  when the region is entered. Each window's block at a grid point read off its array; the output buffer after
  the body as the canonical contents of the body's one store over the payload of its three loads; the body's
  triple; the proof data of the pipeline; the body obligation at every point.
-/
import proofs.«134385_j4260607558106_2_alg».proof.Proof.Gen.KernelIdeal.Launch
import proofs.«134385_j4260607558106_2_alg».proof.Proof.Gen.KernelIdeal.Skeleton
import proofs.«134385_j4260607558106_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of extent 8192: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1 (its block index moves only with the batch: unfetched, the buffer still holds it). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same of input window 2. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev r1_0 : Rect S1x8192x32 := Rect.unit (s := S1x8192x32) ![0, 0, 0] S1x8192x32.size inb_S1x8192x32_S1x8192x32_0_0_0
abbrev r1_1 : Rect S1x128x32 := Rect.unit (s := S1x128x32) ![0, 0, 0] S1x128x32.size inb_S1x128x32_S1x128x32_0_0_0
abbrev r1_2 : Rect S1x1x128 := Rect.unit (s := S1x1x128) ![0, 0, 0] S1x1x128.size inb_S1x1x128_S1x1x128_0_0_0
abbrev r1_3 : Rect S1x8192x128 := Rect.unit (s := S1x8192x128) ![0, 0, 0] S1x8192x128.size inb_S1x8192x128_S1x8192x128_0_0_0

/-! ## What the body leaves in the output window's buffer -/

/-- Window 3's staging buffer after the body, from the input windows' blocks: the canonical contents of its one
    store, whose value is the payload over the three loads. -/
def out1_3 (x0 : Vec F S1x8192x32 .f32) (x1 : Vec F S1x128x32 .f32) (x2 : Vec F S1x1x128 .f32) : Vec F S1x8192x128 .f32 :=
  View.canon [⟨r1_3, k1_pay1 (View.ld x0 r1_0) (View.ld x1 r1_1) (View.ld x2 r1_2)⟩]

/-- The store is of the whole buffer, so it covers it. -/
theorem cover1_3 (p0 : Vec F S1x8192x128 .f32) (y : S1x8192x128.Idx) :
    ∃ pc ∈ ([⟨r1_3, p0⟩] : List (View.Piece (Elt F) S1x8192x128 .f32)), y ∈ pc.1.set :=
  View.cover_of_tiled [⟨r1_3, p0⟩] S1x8192x128.size (by rfl) y

/-! ## The body's triple -/

set_option maxHeartbeats 1000000 in
/-- The kernel body on whole staging memrefs, the inputs' at read contents x0 x1 x2 and the output's at anything,
    runs to the continuation holding the inputs' as they were and the output's at out1_3 of the inputs'. -/
theorem sound_kernel1 (c : Dev nD) (E : Set ℕ) (i : grid1.Coords)
    (arg2 : Memref sig .tc .vmem S1x8192x32 .f32) (harg2 : arg2.IsWhole) (arg3 : Memref sig .tc .vmem S1x128x32 .f32) (harg3 : arg3.IsWhole)
    (arg4 : Memref sig .tc .vmem S1x1x128 .f32) (harg4 : arg4.IsWhole) (arg5 : Memref sig .tc .vmem S1x8192x128 .f32) (harg5 : arg5.IsWhole)
    (x0 : Vec F S1x8192x32 .f32) (x1 : Vec F S1x128x32 .f32) (x2 : Vec F S1x1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__masks_final_kernel i arg2 harg2 arg3 harg3 arg4 harg4 arg5 harg5) K := by
  simp only [cc1__masks_final_kernel_eq_skeleton]; unfold cc1__masks_final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the region's pipeline on core c: the arrays as the region finds them (V); after the body at
    point t each input's buffer at its block and the output's at out1_3 of the input blocks; the class-A invariant;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.HandKernelIdeal.Run.lean ====
import proofs.«134385_j4260607558106_2_alg».proof.Proof.HandKernelIdeal.Fold
import proofs.«134385_j4260607558106_2_alg».proof.Proof.HandKernelIdeal.Reg0
import proofs.«134385_j4260607558106_2_alg».proof.Proof.HandKernelIdeal.Reg1
import proofs.«134385_j4260607558106_2_alg».proof.Proof.Gen.KernelIdeal.Launch
import proofs.«134385_j4260607558106_2_alg».proof.Proof.Gen.KernelIdeal.Skeleton
import proofs.«134385_j4260607558106_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the two regions' boundaries -/

/-- The buffers as the first region finds them, read at the TensorCore's references. -/
abbrev V8 : (c : Dev nD) → (b : Ref sig .tc) → Buf (Elt F) ((c : Thread nD τ).loc b) := fun c b => W8 m c b
/-- What the first region's write-backs leave in its windows' arrays. -/
def a0 (c : Dev nD) : Arrs0 (F := F) c := fun w => (dat0 (V8 m) c).arrAt w cfg0.N
/-- The buffers as the second region finds them. -/
abbrev V11 : (c : Dev nD) → (b : Ref sig .tc) → Buf (Elt F) ((c : Thread nD τ).loc b) := fun c b => W11 m (a0 m) c b
/-- What the second region's write-backs leave in its windows' arrays. -/
def a1 (c : Dev nD) : Arrs1 (F := F) c := fun w => (dat1 (V11 m) c).arrAt w cfg1.N
/-- The buffers at the first region's exit and at the end of @main. -/
abbrev V9 : (c : Dev nD) → (b : Ref sig .tc) → Buf (Elt F) ((c : Thread nD τ).loc b) := fun c b => W9 m (a0 m) c b
abbrev V12 : (c : Dev nD) → (b : Ref sig .tc) → Buf (Elt F) ((c : Thread nD τ).loc b) := fun c b => W12 m (a0 m) (a1 m) c b

theorem hF0 (c : Dev nD) (w : Fin cfg0.W) : (dat0 (V8 m) c).arrAt w cfg0.N = V9 m c (Pipeline.arrRef spec0 w) :=
  (W9_arr m (a0 m) c w).symm
theorem hrest0 (c : Dev nD) : ∀ b, b ∉ Finset.univ.image (Pipeline.arrRef spec0) → V9 m c b = V8 m c b :=
  fun b hb => W9_of_ne m (a0 m) c b fun w e => hb (Finset.mem_image.mpr ⟨w, Finset.mem_univ _, e⟩)
theorem hF1 (c : Dev nD) (w : Fin cfg1.W) : (dat1 (V11 m) c).arrAt w cfg1.N = V12 m c (Pipeline.arrRef spec1 w) :=
  (W12_arr m (a0 m) (a1 m) c w).symm
theorem hrest1 (c : Dev nD) : ∀ b, b ∉ Finset.univ.image (Pipeline.arrRef spec1) → V12 m c b = V11 m c b :=
  fun b hb => W12_of_ne m (a0 m) (a1 m) c b fun w e => hb (Finset.mem_image.mpr ⟨w, Finset.mem_univ _, e⟩)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V8 m) c
  | ⟨1, _⟩ => fun c => dat1 (V11 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item of @main. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end's contents, the generator register at some state. -/
abbrev Tₙ (c : Dev nD) : sProp 𝕄 := iprop(StableHlo.held (c : Thread nD τ) (Pipeline.ucRefs τ sig) (W12 m (a0 m) (a1 m) c) ∗ ∃ r, prngReg c r)

/-! ## The regions as items -/

set_option backward.isDefEq.respectTransparency.types false in
/-- The first region: entered from every unscoped buffer at `W8`, left at `W9`. Its windows' arrays are split out of the
    unscoped buffers and put back at the exit contents; the generator register and the scoped buffers (the carried
    accumulator among them) pass into the region's invariant and come back out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V8 m) c).loose
  hwaits := Pipeline.hwaits_of_owed_zero _ _ _ _ L lv 0 fun _ _ => rfl
  pre c := iprop(StableHlo.held (c : Thread nD τ) (Pipeline.ucRefs τ sig) (W8 m c) ∗ R c)
  post c := iprop(StableHlo.held (c : Thread nD τ) (Pipeline.ucRefs τ sig) (W9 m (a0 m) c) ∗ R c)
  X c := iprop(∃ r, prngReg c r)
  Y c := iprop(∃ r, prngReg c r)
  Z c := Pipeline.unscopedRest (Ix := Unit) (Name := ℕ) (U := UR sig nD τ) (Lvl := ℕ) spec0 c (V8 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans ?_ (hin0 (V8 m) c)
    show iprop((∃ r, prngReg c r) ∗ Pipeline.prefHeld (pcfgs (F := F) 0).pre c (fun _ => fullShare) (adm (F := F) 0).1
      ∗ Pipeline.scopedRest (Ix := Unit) (Name := ℕ) (U := UR sig nD τ) (Lvl := ℕ) spec0 c) ⊢ (iprop(Pipeline.scopedRest spec0 c ∗ ∃ r, prngReg c r) : sProp 𝕄)
    iintro ⟨Hp, -, Hr⟩
    isplitl [Hr]; · iexact Hr
    iexact Hp
  hout c := by
    rw [Pipeline.ownSems0_none]
    refine BI.Entails.trans (hout0 (V8 m) c) ?_
    show (iprop(Pipeline.scopedRest spec0 c ∗ ∃ r, prngReg c r) : sProp 𝕄) ⊢ iprop((∃ r, prngReg c r) ∗ BI.emp
      ∗ Pipeline.scopedRest (Ix := Unit) (Name := ℕ) (U := UR sig nD τ) (Lvl := ℕ) spec0 c)
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V8 m c) (V9 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W11`, left at `W12`, the end of @main. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m) c).loose
  hwaits := Pipeline.hwaits_of_owed_zero _ _ _ _ L lv 1 fun _ _ => rfl
  pre c := iprop(StableHlo.held (c : Thread nD τ) (Pipeline.ucRefs τ sig) (W11 m (a0 m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V11 m c) (V12 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

/-- @main's twelve items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .region (reg0 m),
    .host (hseg hostOps1 hostOps1_sub hostOps1_fresh (W9 m (a0 m))),
    .host (hseg hostOps1_1 hostOps1_1_sub hostOps1_1_fresh (W10 m (a0 m))),
    .region (reg1 m) ]

theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting, and in every final state each unscoped buffer of each core holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m (a0 m) (a1 m) c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m (a0 m) (a1 m) c b)
    (hfin := fun c s' => by
      iintro ⟨⟨Hh, -⟩, HSI⟩
      unfold StableHlo.held
      imodintro
      iapply (pointsTo_read_all (Pipeline.ucRefs τ sig) (fun b => (((c : Thread nD τ)).1, b)) (W12 m (a0 m) (a1 m) c) s')
      isplitl [Hh] <;> iassumption)
    (hQ := fun s h c => h c)

end Cert.KernelIdeal.Hand

end
-- ==== Proof.HandKernelIdeal.Frame.lean ====
import proofs.«134385_j4260607558106_2_alg».proof.Proof.HandKernelIdeal.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No item of @main writes an argument

No host operation writes an argument's buffer and no window of either region has an argument as its array, so the
fold of the boundaries' contents at an argument walks back to the launch memory. -/

/-- `r` is one of @main's four arguments. -/
abbrev IsArg (r : Ref sig .tc) : Prop := r = main_arg0 ∨ r = main_arg1 ∨ r = main_arg2 ∨ r = main_arg3

/-- A stretch of host operations none of which writes `r` leaves `r`'s contents. -/
theorem after_keep {r : Ref sig .tc} (ops : List (HloOp τ sig (Elt F))) (V : Valuation τ sig (Elt F))
    (h : ops.Forall fun op => (Proc.devRef .tc r : DevRef τ sig) ∉ op.writes) :
    StableHlo.after ops V (Proc.devRef .tc r) = V (Proc.devRef .tc r) :=
  StableHlo.after_of_forall_not_mem (b := Proc.devRef .tc r) ops V (List.forall_iff_forall_mem.mp h)

theorem keep_hostOps0 {r : Ref sig .tc} (hr : IsArg r) :
    (hostOps0 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps0_1 {r : Ref sig .tc} (hr : IsArg r) :
    (hostOps0_1 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps0_2 {r : Ref sig .tc} (hr : IsArg r) :
    (hostOps0_2 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps0_3 {r : Ref sig .tc} (hr : IsArg r) :
    (hostOps0_3 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps0_4 {r : Ref sig .tc} (hr : IsArg r) :
    (hostOps0_4 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
set_option maxHeartbeats 8000000 in
theorem keep_hostOps0_5 {r : Ref sig .tc} (hr : IsArg r) :
    (hostOps0_5 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps0_6 {r : Ref sig .tc} (hr : IsArg r) :
    (hostOps0_6 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps0_7 {r : Ref sig .tc} (hr : IsArg r) :
    (hostOps0_7 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps1 {r : Ref sig .tc} (hr : IsArg r) :
    (hostOps1 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keep_hostOps1_1 {r : Ref sig .tc} (hr : IsArg r) :
    (hostOps1_1 : List (HloOp τ sig (Elt F))).Forall fun op => (Proc.devRef .tc r : DevRef τ sig) ∉ op.writes := by
  rcases hr with rfl | rfl | rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)

/-- An argument's buffer holds its launch contents at the end of @main. -/
theorem W12_arg {r : Ref sig .tc} (hr : IsArg r) (c : Dev nD) :
    W12 m (a0 m) (a1 m) c (Proc.devRef .tc r) = m ((c : Thread nD τ).loc r) :=
  calc W12 m (a0 m) (a1 m) c (Proc.devRef .tc r)
    _ = W11 m (a0 m) c (Proc.devRef .tc r) := W12_of_ne m (a0 m) (a1 m) c r (by rcases hr with rfl | rfl | rfl | rfl <;> decide)
    _ = W10 m (a0 m) c (Proc.devRef .tc r) := after_keep hostOps1_1 _ (keep_hostOps1_1 hr)
    _ = W9 m (a0 m) c (Proc.devRef .tc r) := after_keep hostOps1 _ (keep_hostOps1 hr)
    _ = W8 m c (Proc.devRef .tc r) := W9_of_ne m (a0 m) c r (by rcases hr with rfl | rfl | rfl | rfl <;> decide)
    _ = W7 m c (Proc.devRef .tc r) := after_keep hostOps0_7 _ (keep_hostOps0_7 hr)
    _ = W6 m c (Proc.devRef .tc r) := after_keep hostOps0_6 _ (keep_hostOps0_6 hr)
    _ = W5 m c (Proc.devRef .tc r) := after_keep hostOps0_5 _ (keep_hostOps0_5 hr)
    _ = W4 m c (Proc.devRef .tc r) := after_keep hostOps0_4 _ (keep_hostOps0_4 hr)
    _ = W3 m c (Proc.devRef .tc r) := after_keep hostOps0_3 _ (keep_hostOps0_3 hr)
    _ = W2 m c (Proc.devRef .tc r) := after_keep hostOps0_2 _ (keep_hostOps0_2 hr)
    _ = W1 m c (Proc.devRef .tc r) := after_keep hostOps0_1 _ (keep_hostOps0_1 hr)
    _ = W0 m c (Proc.devRef .tc r) := after_keep hostOps0 _ (keep_hostOps0 hr)
    _ = m ((c : Thread nD τ).loc r) := rfl

/-- The result's buffer is the output window's array of the second region: it ends at what that region's write-backs leave. -/
theorem W12_result (c : Dev nD) : W12 m (a0 m) (a1 m) c (Proc.devRef .tc main_v204) = a1 m c 3 :=
  W12_arr m (a0 m) (a1 m) c 3

/-- THE FRAME AND THE RESULT, at any `F`: every weakly fair execution of @main from `m` with zero counters terminates, nothing
    faulting; the result's buffer ends at what the second region's write-backs leave in its output window's array, and every
    argument ends as launched. -/
theorem run_result : θ_run defs (onTc (τ := τ) (main (F := F))) ⟨m, fun _ => 0, ρ⟩ (fun r => ∀ c : Dev nD,
      r.2.mem ((c.tc : Thread nD τ).loc main_v204) = a1 m c 3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_v204 (by decide))).trans (W12_result m c),
     (h c _ (mem_uc main_arg0 (by decide))).trans (W12_arg m (Or.inl rfl) c),
     (h c _ (mem_uc main_arg1 (by decide))).trans (W12_arg m (Or.inr (Or.inl rfl)) c),
     (h c _ (mem_uc main_arg2 (by decide))).trans (W12_arg m (Or.inr (Or.inr (Or.inl rfl))) c),
     (h c _ (mem_uc main_arg3 (by decide))).trans (W12_arg m (Or.inr (Or.inr (Or.inr rfl))) c)⟩) (run m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.KernelIdeal.Hand

end
-- ==== Proof.RefRunEq.lean ====
/-
  The reference's run names its result by one long term of the arguments, `res_main_v222`; the stages of the reference,
  one definition per operation, end in `val_main_v222`. The two are the same composition of the same operations.
-/
import proofs.«134385_j4260607558106_2_alg».proof.Proof.RefRunP
import proofs.«134385_j4260607558106_2_alg».proof.Proof.RefReadP

set_option maxRecDepth 16384

noncomputable section

namespace Cert.RefValue

open Cert.ReferenceIdeal Cert.ReferenceIdeal.Gen Idealize.ShloMosaic Idealize.ShloMosaic.TcCoe Idealize.SL.Sem

variable {F : FTy → Type} [FloatOps F]

/-- The term the run names `res_main_v222` is the last stage, at the arguments' launch contents. -/
theorem res_eq (m : (ℓ : Loc nD τ sig) → Buf (Elt F) ℓ) (c : Dev nD) :
    Cert.ReferenceIdeal.ValueP.res_main_v222 m c
      = Cert.ReferenceIdeal.ReadP.val_main_v222 (F := F) (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.ValueP.res_main_v222; rfl

end Cert.RefValue

end
-- ==== Proof.HandKernelIdeal.Passage.lean ====
import proofs.«134385_j4260607558106_2_alg».proof.Proof.HandKernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The second region's operands, as the first region's entry left them

The pixel rows (`main_v156`) and the normalised phenotypes (`main_v4`) are input windows of BOTH regions: the first region
hands them back unchanged and no host operation between the regions writes them, so the second region finds what the
first found. The intersection counts (`main_v157`) are the first region's output. -/

/-- `r` is one of the two operands both regions read. -/
abbrev IsShared (r : Ref sig .tc) : Prop := r = main_v156 ∨ r = main_v4

theorem keepS_hostOps1 {r : Ref sig .tc} (hr : IsShared r) :
    (hostOps1 : List (HloOp τ sig (Elt F))).Forall fun op => (Proc.devRef .tc r : DevRef τ sig) ∉ op.writes := by
  rcases hr with rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)
theorem keepS_hostOps1_1 {r : Ref sig .tc} (hr : IsShared r) :
    (hostOps1_1 : List (HloOp τ sig (Elt F))).Forall fun op => (Proc.devRef .tc r : DevRef τ sig) ∉ op.writes := by
  rcases hr with rfl | rfl <;>
  · simp only [List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)

/-- The second region finds the pixel rows as the first did. -/
theorem W11_v156 (c : Dev nD) : W11 m (a0 m) c (Proc.devRef .tc main_v156) = W8 m c (Proc.devRef .tc main_v156) :=
  calc W11 m (a0 m) c (Proc.devRef .tc main_v156)
    _ = W10 m (a0 m) c (Proc.devRef .tc main_v156) := after_keep hostOps1_1 _ (keepS_hostOps1_1 (Or.inl rfl))
    _ = W9 m (a0 m) c (Proc.devRef .tc main_v156) := after_keep hostOps1 _ (keepS_hostOps1 (Or.inl rfl))
    _ = W8 m c (Proc.devRef .tc main_v156) :=
        (W9_arr m (a0 m) c 0).trans (((dat0 (V8 m) c).arrAt_in 0 rfl _).trans (A_eq0 (V8 m) c 0))

/-- The second region finds the normalised phenotypes as the first did. -/
theorem W11_v4 (c : Dev nD) : W11 m (a0 m) c (Proc.devRef .tc main_v4) = W8 m c (Proc.devRef .tc main_v4) :=
  calc W11 m (a0 m) c (Proc.devRef .tc main_v4)
    _ = W10 m (a0 m) c (Proc.devRef .tc main_v4) := after_keep hostOps1_1 _ (keepS_hostOps1_1 (Or.inr rfl))
    _ = W9 m (a0 m) c (Proc.devRef .tc main_v4) := after_keep hostOps1 _ (keepS_hostOps1 (Or.inr rfl))
    _ = W8 m c (Proc.devRef .tc main_v4) :=
        (W9_arr m (a0 m) c 1).trans (((dat0 (V8 m) c).arrAt_in 1 rfl _).trans (A_eq0 (V8 m) c 1))

/-- The intersection counts after the first region: what its write-backs leave in its output window's array. -/
theorem W9_v157 (c : Dev nD) : W9 m (a0 m) c (Proc.devRef .tc main_v157) = (dat0 (V8 m) c).arrAt 2 cfg0.N :=
  W9_arr m (a0 m) c 2

/-- The result: what the second region's write-backs leave in its output window's array. -/
theorem a1_result (c : Dev nD) : a1 m c 3 = (dat1 (V11 m) c).arrAt 3 cfg1.N := rfl

end Cert.KernelIdeal.Hand

end
-- ==== Proof.Spec.lean ====
/-
  The scalar quantities both programs compute, on the extended reals.
  A pixel's feature row `x` (32 numbers) is scored against an agent's normalised phenotype row `k`
  by the cosine-like sum  ∑_q (x_q / ‖x‖_g) · k_q,  where ‖x‖_g = max(√(∑_q x_q²), ε) is the
  Euclidean norm guarded from below by ε; a pixel belongs to an agent's binary mask when its score
  exceeds one half.
-/
import Idealize.ShloMosaic.PureOps.Ideal
import Idealize.ShloMosaic.Lib.ValueIdx

noncomputable section

namespace Cert.Spec

open Idealize.ShloMosaic

/-- The guard ε of a norm (the single-precision number nearest to 10⁻⁶). -/
abbrev eps : EReal := Ideal.ofBits .f32 0x358637BD#32
/-- The membership threshold, one half. -/
abbrev half : EReal := Ideal.ofBits .f32 0x3F000000#32

/-- The guarded Euclidean norm of a row: max(√(∑ x_q²), ε). -/
def gnorm (x : Fin 32 → EReal) : EReal := max (Ideal.sqrt (∑ q, x q * x q)) eps

/-- The score of a feature row against a phenotype row: ∑_q (x_q / ‖x‖_g) · k_q. -/
def score (x k : Fin 32 → EReal) : EReal := ∑ q, Ideal.div (x q) (gnorm x) * k q

/-- The indicator of a score above one half, as the number 0 or 1. -/
def ind (r : EReal) : EReal := if half < r then 1 else 0

end Cert.Spec

end
-- ==== Proof.HandKernelIdeal.Reg1Value.lean ====
/-
  The second kernel region's output buffer, read at an index, at the ideal values: the body's one store leaves
  its payload; the payload at row n and column p is the rectified score of feature row n against phenotype row p,
  times the alive flag of column p.
-/
import proofs.«134385_j4260607558106_2_alg».proof.Proof.HandKernelIdeal.Reg1
import proofs.«134385_j4260607558106_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx
open Idealize.SL.Sem

/-! ## The keepdims column forms of the layout operations -/

section Layout
variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The store leaves the payload -/

theorem zeros3 : (![0, 0, 0] : Fin 3 → Nat) = fun _ => 0 := funext fun a => by fin_cases a <;> rfl

section AnyF
variable {F : FTy → Type} [FloatOps F]

/-- The output buffer after the body is the payload of the three input blocks. -/
theorem out1_3_eq_pay (x0 : Vec F S1x8192x32 .f32) (x1 : Vec F S1x128x32 .f32) (x2 : Vec F S1x1x128 .f32) :
    out1_3 x0 x1 x2 = k1_pay1 x0 x1 x2 := by
  unfold out1_3
  rw [View.canon_unit_zero zeros3]
  simp only [View.ld_unit_zero (S := S1x8192x32) zeros3, View.ld_unit_zero (S := S1x128x32) zeros3,
    View.ld_unit_zero (S := S1x1x128) zeros3]

/-! ## The payload's stages, named -/

/-- The feature rows of the block. -/
def rows1 (x0 : Vec F S1x8192x32 .f32) : FVec F S8192x32 .f32 := shapeCast S8192x32 x0 shapeCasts_S1x8192x32_S8192x32
/-- Each row's sum of squares. -/
def sumsq1 (x0 : Vec F S1x8192x32 .f32) : FVec F S8192 .f32 :=
  multiReduction .add [1] S8192 (mulf (rows1 x0) (rows1 x0)) 0x00000000#32 reduces_S8192x32_S8192 (.inl rfl) rfl
/-- Each row's guarded norm, as a column. -/
def norm1 (x0 : Vec F S1x8192x32 .f32) : FVec F S8192x1 .f32 :=
  maximumf (sqrt (shapeCast S8192x1 (sumsq1 x0) shapeCasts_S8192_S8192x1)) (broadcast S8192x1 (Scalar.ofBits .f32 0x358637BD#32))
/-- The rows divided by their norms. -/
def unit1 (x0 : Vec F S1x8192x32 .f32) : FVec F S8192x32 .f32 :=
  divf (rows1 x0) (broadcastTo S8192x32 (norm1 x0) broadcasts_S8192x1_S8192x32)
/-- The phenotype rows, transposed. -/
def phenT1 (x1 : Vec F S1x128x32 .f32) : FVec F S32x128 .f32 :=
  transpose S32x128 [1, 0] (shapeCast S128x32 x1 shapeCasts_S1x128x32_S128x32) transposes_S128x32_p1_0_S32x128
/-- The scores: the matrix product of the two. -/
def raw1 (x0 : Vec F S1x8192x32 .f32) (x1 : Vec F S1x128x32 .f32) : FVec F S8192x128 .f32 :=
  matmul dot_S8192x32_S32x128_S8192x128_1_0_0_1_n_n (some .fp32) (unit1 x0) (phenT1 x1) (constant S8192x128 .f32 0x00000000#32)
/-- The alive flags, one row laid along every row. -/
def alive1 (x2 : Vec F S1x1x128 .f32) : FVec F S8192x128 .f32 :=
  broadcastTo S8192x128 (shapeCast S1x128 x2 shapeCasts_S1x1x128_S1x128) broadcasts_S1x128_S8192x128

/-- The payload is the rectified scores times the alive flags, with a leading unit axis. -/
theorem pay_eq_stages (x0 : Vec F S1x8192x32 .f32) (x1 : Vec F S1x128x32 .f32) (x2 : Vec F S1x1x128 .f32) :
    k1_pay1 x0 x1 x2 = shapeCast S1x8192x128
      (mulf (maximumf (raw1 x0 x1) (broadcast S8192x128 (Scalar.ofBits .f32 0x00000000#32))) (alive1 x2))
      shapeCasts_S8192x128_S1x8192x128 := rfl

end AnyF

/-! ## Each stage at an index, at the ideal values -/

theorem rows1_apply (x0 : Vec Ideal S1x8192x32 .f32) (n : Fin 8192) (q : Fin 32) :
    rows1 (F := Ideal) x0 (ix2 n q) = x0 (ix3 (0 : Fin 1) n q) :=
  shapeCast_1ab_ab_apply x0 shapeCasts_S1x8192x32_S8192x32 n q

/-- A lane sum over the 32 features of row n, the accumulator's proof typed as the printed one is. -/
theorem laneSum_apply (src : FVec Ideal S8192x32 .f32) (h : S8192x32.Reduces [1] S8192) (hφ : FKind.Formats .f32)
    (hacc : (0x00000000#32 : BitVec 32) = 0x00000000#32) (n : Fin 8192) :
    multiReduction .add [1] S8192 src 0x00000000#32 h hφ hacc (ix1 n) = ∑ q : Fin 32, src (ix2 n q) := by
  refine (Ideal.multiReduction_add_single src 0x00000000#32 h hφ hacc (ix1 n)).trans ?_
  refine Finset.sum_congr rfl fun q _ => congrArg src ?_
  funext a
  match a with
  | ⟨0, _⟩ => rfl
  | ⟨1, _⟩ => rfl

theorem sumsq1_apply (x0 : Vec Ideal S1x8192x32 .f32) (n : Fin 8192) :
    sumsq1 (F := Ideal) x0 (ix1 n) = ∑ q : Fin 32, x0 (ix3 (0 : Fin 1) n q) * x0 (ix3 (0 : Fin 1) n q) := by
  unfold sumsq1
  refine (laneSum_apply _ _ _ _ n).trans ?_
  refine Finset.sum_congr rfl fun q _ => ?_
  rw [mulf_apply, rows1_apply]

theorem norm1_apply (x0 : Vec Ideal S1x8192x32 .f32) (n : Fin 8192) (u : Fin 1) :
    norm1 (F := Ideal) x0 (ix2 n u) = Cert.Spec.gnorm (fun q => x0 (ix3 (0 : Fin 1) n q)) := by
  unfold norm1 Cert.Spec.gnorm
  rw [maximumf_apply]
  show max (Ideal.sqrt (shapeCast S8192x1 (sumsq1 (F := Ideal) x0) shapeCasts_S8192_S8192x1 (ix2 n u))) _ = _
  rw [shapeCast_a_a1_apply, sumsq1_apply]
  rfl

theorem unit1_apply (x0 : Vec Ideal S1x8192x32 .f32) (n : Fin 8192) (q : Fin 32) :
    unit1 (F := Ideal) x0 (ix2 n q) = Ideal.div (x0 (ix3 (0 : Fin 1) n q)) (Cert.Spec.gnorm (fun q => x0 (ix3 (0 : Fin 1) n q))) := by
  unfold unit1
  rw [divf_apply, rows1_apply, broadcastTo_a1_ab_apply, norm1_apply]

theorem phenT1_apply (x1 : Vec Ideal S1x128x32 .f32) (q : Fin 32) (p : Fin 128) :
    phenT1 (F := Ideal) x1 (ix2 q p) = x1 (ix3 (0 : Fin 1) p q) := by
  unfold phenT1
  rw [transpose_ix2_apply, shapeCast_1ab_ab_apply]

theorem alive1_apply (x2 : Vec Ideal S1x1x128 .f32) (n : Fin 8192) (p : Fin 128) :
    alive1 (F := Ideal) x2 (ix2 n p) = x2 (ix3 (0 : Fin 1) (0 : Fin 1) p) := by
  unfold alive1
  rw [broadcastTo_1b_ab_apply, shapeCast_1ab_ab_apply]

/-! ## The matrix product at an index -/

theorem lhs1_0 (i : S8192x128.Idx) (k : dot_S8192x32_S32x128_S8192x128_1_0_0_1_n_n.contr.Idx) :
    (dot_S8192x32_S32x128_S8192x128_1_0_0_1_n_n.lhsIdx i k 0).val = (i 0).val := by
  unfold DotDims.lhsIdx
  rw [dif_neg (show ¬(0 : Fin S8192x32.rank) ∈ dot_S8192x32_S32x128_S8192x128_1_0_0_1_n_n.lhsBatch by decide),
    dif_pos (show (0 : Fin S8192x32.rank) ∈ dot_S8192x32_S32x128_S8192x128_1_0_0_1_n_n.lhsNonContracting by decide)]
  rfl
theorem lhs1_1 (i : S8192x128.Idx) (k : dot_S8192x32_S32x128_S8192x128_1_0_0_1_n_n.contr.Idx) :
    (dot_S8192x32_S32x128_S8192x128_1_0_0_1_n_n.lhsIdx i k 1).val = (k ⟨0, by decide⟩).val :=
  dot_S8192x32_S32x128_S8192x128_1_0_0_1_n_n.lhsIdx_val_of_single rfl i k
theorem rhs1_0 (i : S8192x128.Idx) (k : dot_S8192x32_S32x128_S8192x128_1_0_0_1_n_n.contr.Idx) :
    (dot_S8192x32_S32x128_S8192x128_1_0_0_1_n_n.rhsIdx i k 0).val = (k ⟨0, by decide⟩).val :=
  dot_S8192x32_S32x128_S8192x128_1_0_0_1_n_n.rhsIdx_val_of_single rfl i k
theorem rhs1_1 (i : S8192x128.Idx) (k : dot_S8192x32_S32x128_S8192x128_1_0_0_1_n_n.contr.Idx) :
    (dot_S8192x32_S32x128_S8192x128_1_0_0_1_n_n.rhsIdx i k 1).val = (i 1).val := by
  unfold DotDims.rhsIdx
  rw [dif_neg (show ¬(1 : Fin S32x128.rank) ∈ dot_S8192x32_S32x128_S8192x128_1_0_0_1_n_n.rhsBatch by decide),
    dif_pos (show (1 : Fin S32x128.rank) ∈ dot_S8192x32_S32x128_S8192x128_1_0_0_1_n_n.rhsNonContracting by decide)]
  rfl

/-- The product of a [8192, 32] by a [32, 128] matrix into the zero splat, at (n, p): the sum over the 32 shared
    coordinates. -/
theorem matmul1_apply (A : FVec Ideal S8192x32 .f32) (B : FVec Ideal S32x128 .f32) (n : Fin 8192) (p : Fin 128) :
    matmul (F := Ideal) dot_S8192x32_S32x128_S8192x128_1_0_0_1_n_n (some .fp32) A B (constant S8192x128 .f32 0x00000000#32) (ix2 n p)
      = ∑ q : Fin 32, A (ix2 n q) * B (ix2 q p) := by
  simp only [matmul]
  rw [Ideal.matmul_constant_zero_apply, ← Equiv.sum_comp (contrEquiv1 dot_S8192x32_S32x128_S8192x128_1_0_0_1_n_n 32 rfl rfl).symm]
  refine Finset.sum_congr rfl fun q _ => ?_
  have hq := contrEquiv1_symm_val dot_S8192x32_S32x128_S8192x128_1_0_0_1_n_n 32 rfl rfl q
  have el : dot_S8192x32_S32x128_S8192x128_1_0_0_1_n_n.lhsIdx (ix2 n p) ((contrEquiv1 dot_S8192x32_S32x128_S8192x128_1_0_0_1_n_n 32 rfl rfl).symm q) = ix2 n q :=
    funext fun a => Fin.ext (by
      match a with
      | ⟨0, _⟩ => exact lhs1_0 _ _
      | ⟨1, _⟩ => exact (lhs1_1 _ _).trans hq)
  have er : dot_S8192x32_S32x128_S8192x128_1_0_0_1_n_n.rhsIdx (ix2 n p) ((contrEquiv1 dot_S8192x32_S32x128_S8192x128_1_0_0_1_n_n 32 rfl rfl).symm q) = ix2 q p :=
    funext fun a => Fin.ext (by
      match a with
      | ⟨0, _⟩ => exact (rhs1_0 _ _).trans hq
      | ⟨1, _⟩ => exact rhs1_1 _ _)
  rw [el, er]

theorem raw1_apply (x0 : Vec Ideal S1x8192x32 .f32) (x1 : Vec Ideal S1x128x32 .f32) (n : Fin 8192) (p : Fin 128) :
    raw1 (F := Ideal) x0 x1 (ix2 n p)
      = Cert.Spec.score (fun q => x0 (ix3 (0 : Fin 1) n q)) (fun q => x1 (ix3 (0 : Fin 1) p q)) := by
  unfold raw1 Cert.Spec.score
  refine (matmul1_apply _ _ n p).trans ?_
  refine Finset.sum_congr rfl fun q _ => ?_
  rw [unit1_apply, phenT1_apply]

/-! ## The output buffer at an index -/

/-- The output buffer after the body, at row n and column p: the rectified score of feature row n against phenotype
    row p, times the alive flag of column p. -/
theorem out1_3_apply (x0 : Vec Ideal S1x8192x32 .f32) (x1 : Vec Ideal S1x128x32 .f32) (x2 : Vec Ideal S1x1x128 .f32)
    (n : Fin 8192) (p : Fin 128) :
    out1_3 (F := Ideal) x0 x1 x2 (ix3 (0 : Fin 1) n p)
      = max (Cert.Spec.score (fun q => x0 (ix3 (0 : Fin 1) n q)) (fun q => x1 (ix3 (0 : Fin 1) p q))) 0
        * x2 (ix3 (0 : Fin 1) (0 : Fin 1) p) := by
  rw [out1_3_eq_pay, pay_eq_stages, shapeCast_ab_1ab_apply, mulf_apply, maximumf_apply, alive1_apply, raw1_apply]
  show max _ (Ideal.ofBits .f32 0x00000000#32) * _ = _
  rw [Ideal.ofBits_zero_f32]

end Cert.KernelIdeal.Hand

end
-- ==== Proof.HandKernelIdeal.Reg1Final.lean ====
/-
  The second kernel region's output array after the run, read at an index: the grid's sixteen output blocks tile
  the array f32[2, 65536, 128] (entry (b, n, p) is in the block of point 8 b + n / 8192, at row n mod 8192), every
  point writes its block back, so the array ends, entry by entry, at what that point's body left in its buffer.
-/
import proofs.«134385_j4260607558106_2_alg».proof.Proof.HandKernelIdeal.Reg1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

variable (V : (c : Dev nD) → (b : Ref sig .tc) → Buf (Elt F) ((c : Thread nD τ).loc b))

/-- The output window's block index at point t, decided over the grid: the batch t / 8, the row tile t mod 8. -/
theorem out_index1 : ∀ t : Fin cfg1.N, win1_3.index t (0 : Fin 3) = t.val / 8 ∧ win1_3.index t (1 : Fin 3) = t.val % 8
    ∧ win1_3.index t (2 : Fin 3) = 0 :=
  (by decide +kernel : ∀ t : Fin grid1.N, _)

/-- The grid point whose output block holds row n of batch b. -/
def pointOf (b : Fin 2) (n : Fin 65536) : Fin cfg1.N :=
  ⟨8 * b.val + n.val / 8192, by have h : cfg1.N = 16 := N_1; rw [h]; have := b.isLt; have := n.isLt; omega⟩

theorem pointOf_val (b : Fin 2) (n : Fin 65536) : (pointOf b n).val = 8 * b.val + n.val / 8192 := rfl

/-- The whole output array as one function of its index: what the point holding the entry leaves in its buffer,
    at the entry's place inside the block. -/
def arr1 (c : Dev nD) : S2x65536x128.Idx → Elt F .f32 := fun i =>
  out1_3 (iblk1 V c 0 (pointOf (i 0) (i 1))) (iblk1 V c 1 (pointOf (i 0) (i 1))) (iblk1 V c 2 (pointOf (i 0) (i 1)))
    (ix3 (0 : Fin 1) (⟨(i 1).val % 8192, Nat.mod_lt _ (by decide)⟩ : Fin 8192) (i 2 : Fin 128))

/-- That function at an entry of point t's block is what point t's body left at the entry's place. -/
theorem arr1_at (c : Dev nD) (t : Fin cfg1.N) (y : S1x8192x128.Idx) (i : S2x65536x128.Idx)
    (h0 : (i 0).val = t.val / 8) (h1 : (i 1).val = t.val % 8 * 8192 + (y 1).val) (h2 : (i 2).val = (y 2).val) :
    arr1 V c i = out1_3 (iblk1 V c 0 t) (iblk1 V c 1 t) (iblk1 V c 2 t) y := by
  have hy0 : (y 0).val < 1 := (y 0).isLt
  have hy1 : (y 1).val < 8192 := (y 1).isLt
  have ht : pointOf (i 0) (i 1) = t := Fin.ext (by
    show 8 * (i 0).val + (i 1).val / 8192 = t.val
    omega)
  unfold arr1
  rw [ht]
  refine congrArg _ (funext fun a => Fin.ext ?_)
  match a with
  | ⟨0, _⟩ => show 0 = (y 0).val; omega
  | ⟨1, _⟩ => show (i 1).val % 8192 = (y 1).val; omega
  | ⟨2, _⟩ => exact h2

/-- A block of a function of the array's index, read back, entry by entry. -/
theorem read_blk1_3 (G : S2x65536x128.Idx → Elt F .f32) (t : Fin cfg1.N) (y : S1x8192x128.Idx) :
    ((cfg1.win 3).blk t).view.read (Elt F) G y = G (((cfg1.win 3).blk t).view.emb y) := rfl

/-- What point t writes back is block t of that function. -/
theorem flushed1_3 (c : Dev nD) (t : Fin cfg1.N) :
    (dat1 V c).flushed 3 t = ((cfg1.win 3).blk t).view.read (Elt F) (arr1 V c) := by
  show (cfg1.win 3).cut (grid1.coords t) ((dat1 V c).after 3 t) = _
  rw [after1_3]
  obtain ⟨e0, e1, e2⟩ := out_index1 t
  funext y
  show out1_3 (iblk1 V c 0 t) (iblk1 V c 1 t) (iblk1 V c 2 t) y = _
  rw [read_blk1_3]
  have hy0 : (y 0).val < 1 := (y 0).isLt
  refine (arr1_at V c t y _ ?_ ?_ ?_).symm
  · show win1_3.index t (0 : Fin 3) * 1 + 1 * (y 0).val = t.val / 8
    omega
  · show win1_3.index t (1 : Fin 3) * 8192 + 1 * (y 1).val = t.val % 8 * 8192 + (y 1).val
    omega
  · show win1_3.index t (2 : Fin 3) * 128 + 1 * (y 2).val = (y 2).val
    omega

/-- An index of the array is in point t's block iff each coordinate is in the block's range on its axis. -/
theorem mem_blk1_3 (t : Fin cfg1.N) (i : S2x65536x128.Idx) :
    i ∈ ((cfg1.win 3).blk t).view.set ↔ ∀ a : Fin 3, win1_3.index t a * S1x8192x128.size a ≤ (i a).val
      ∧ (i a).val < win1_3.index t a * S1x8192x128.size a + S1x8192x128.size a := by
  show i ∈ ((View.whole main_v204).slice (win1_3.rect t)).set ↔ _
  rw [View.set_slice_whole, Rect.mem_set_unit]
  exact Iff.rfl

/-- Every entry of the array is in the block of the point holding it, and every point writes back. -/
theorem cover_arr1 (i : S2x65536x128.Idx) :
    ∃ t : Fin cfg1.N, (cfg1.win 3).flush t = true ∧ i ∈ ((cfg1.win 3).blk t).view.set := by
  have hi0 : (i 0).val < 2 := (i 0).isLt
  have hi1 : (i 1).val < 65536 := (i 1).isLt
  have hi2 : (i 2).val < 128 := (i 2).isLt
  refine ⟨pointOf (i 0) (i 1), flush1_3 _, ?_⟩
  obtain ⟨e0, e1, e2⟩ := out_index1 (pointOf (i 0) (i 1))
  have hv : (pointOf (i 0) (i 1)).val = 8 * (i 0).val + (i 1).val / 8192 := rfl
  rw [mem_blk1_3]
  intro a
  match a with
  | ⟨0, _⟩ =>
    show win1_3.index (pointOf (i 0) (i 1)) (0 : Fin 3) * 1 ≤ (i 0).val
      ∧ (i 0).val < win1_3.index (pointOf (i 0) (i 1)) (0 : Fin 3) * 1 + 1
    omega
  | ⟨1, _⟩ =>
    show win1_3.index (pointOf (i 0) (i 1)) (1 : Fin 3) * 8192 ≤ (i 1).val
      ∧ (i 1).val < win1_3.index (pointOf (i 0) (i 1)) (1 : Fin 3) * 8192 + 8192
    omega
  | ⟨2, _⟩ =>
    show win1_3.index (pointOf (i 0) (i 1)) (2 : Fin 3) * 128 ≤ (i 2).val
      ∧ (i 2).val < win1_3.index (pointOf (i 0) (i 1)) (2 : Fin 3) * 128 + 128
    omega

/-- The output array after the run is that function. -/
theorem final1_eq (c : Dev nD) : (dat1 V c).arrAt 3 cfg1.N = arr1 V c :=
  (dat1 V c).arrAt_eq_of_cover 3 (arr1 V c) (fun t _ => flushed1_3 V c t) cover_arr1

/-- The output array after the run at entry (b, n, p): what the body at the point 8 b + n / 8192 left in its output
    buffer at row n mod 8192 and column p. -/
theorem final1 (c : Dev nD) (b : Fin 2) (n : Fin 65536) (p : Fin 128) :
    (dat1 V c).arrAt 3 cfg1.N (ix3 b n p)
      = out1_3 (iblk1 V c 0 (pointOf b n)) (iblk1 V c 1 (pointOf b n)) (iblk1 V c 2 (pointOf b n))
          (ix3 (0 : Fin 1) (⟨n.val % 8192, Nat.mod_lt _ (by decide)⟩ : Fin 8192) p) := by
  rw [final1_eq]
  rfl

end Cert.KernelIdeal.Hand

end
-- ==== Proof.HandKernelIdeal.BlockReads1.lean ====
/-
  The second kernel region's input blocks, read at an index: the block of the features at a grid point is rows
  8192 (t mod 8) … of batch t / 8 of the feature array; the phenotypes' and the alive flags' blocks are batch t / 8
  of their arrays.
-/
import proofs.«134385_j4260607558106_2_alg».proof.Proof.HandKernelIdeal.Reg1Final

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

variable (V : (c : Dev nD) → (b : Ref sig .tc) → Buf (Elt F) ((c : Thread nD τ).loc b))

/-- The input windows' block indices at point t, decided over the grid. -/
theorem in_index1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0 :=
  (by decide +kernel : ∀ t : Fin grid1.N, _)

/-- A block of a function of an array's index, read back, entry by entry: the three input windows. -/
theorem read_blk1_0 (G : S2x65536x32.Idx → Elt F .f32) (t : Fin cfg1.N) (y : S1x8192x32.Idx) :
    ((cfg1.win 0).blk t).view.read (Elt F) G y = G (((cfg1.win 0).blk t).view.emb y) := rfl
theorem read_blk1_1 (G : S2x128x32.Idx → Elt F .f32) (t : Fin cfg1.N) (y : S1x128x32.Idx) :
    ((cfg1.win 1).blk t).view.read (Elt F) G y = G (((cfg1.win 1).blk t).view.emb y) := rfl
theorem read_blk1_2 (G : S2x1x128.Idx → Elt F .f32) (t : Fin cfg1.N) (y : S1x1x128.Idx) :
    ((cfg1.win 2).blk t).view.read (Elt F) G y = G (((cfg1.win 2).blk t).view.emb y) := rfl

/-- The features' block at point t, at (0, r, q): the array at batch t / 8, row 8192 (t mod 8) + r, feature q. -/
theorem iblk1_0_at (c : Dev nD) (t : Fin cfg1.N) (x : S1x8192x32.Idx) (k : S2x65536x32.Idx)
    (hk0 : (k 0).val = t.val / 8) (hk1 : (k 1).val = t.val % 8 * 8192 + (x 1).val) (hk2 : (k 2).val = (x 2).val) :
    (iblk1 V c 0 t : Vec F S1x8192x32 .f32) x = (V c main_v156 : S2x65536x32.Idx → Elt F .f32) k := by
  obtain ⟨e0, e1, e2, -⟩ := in_index1 t
  have hx0 : (x 0).val < 1 := (x 0).isLt
  unfold iblk1
  refine (read_blk1_0 _ t x).trans (congrArg _ (funext fun a => Fin.ext ?_))
  match a with
  | ⟨0, _⟩ => show win1_0.index t (0 : Fin 3) * 1 + 1 * (x 0).val = (k 0).val; omega
  | ⟨1, _⟩ => show win1_0.index t (1 : Fin 3) * 8192 + 1 * (x 1).val = (k 1).val; omega
  | ⟨2, _⟩ => show win1_0.index t (2 : Fin 3) * 32 + 1 * (x 2).val = (k 2).val; omega

/-- The phenotypes' block at point t, at (0, p, q): the array at batch t / 8, row p, feature q. -/
theorem iblk1_1_at (c : Dev nD) (t : Fin cfg1.N) (x : S1x128x32.Idx) (k : S2x128x32.Idx)
    (hk0 : (k 0).val = t.val / 8) (hk1 : (k 1).val = (x 1).val) (hk2 : (k 2).val = (x 2).val) :
    (iblk1 V c 1 t : Vec F S1x128x32 .f32) x = (V c main_v4 : S2x128x32.Idx → Elt F .f32) k := by
  obtain ⟨-, -, -, e0, e1, e2, -⟩ := in_index1 t
  have hx0 : (x 0).val < 1 := (x 0).isLt
  unfold iblk1
  refine (read_blk1_1 _ t x).trans (congrArg _ (funext fun a => Fin.ext ?_))
  match a with
  | ⟨0, _⟩ => show win1_1.index t (0 : Fin 3) * 1 + 1 * (x 0).val = (k 0).val; omega
  | ⟨1, _⟩ => show win1_1.index t (1 : Fin 3) * 128 + 1 * (x 1).val = (k 1).val; omega
  | ⟨2, _⟩ => show win1_1.index t (2 : Fin 3) * 32 + 1 * (x 2).val = (k 2).val; omega

/-- The alive flags' block at point t, at (0, 0, p): the array at batch t / 8, (0, p). -/
theorem iblk1_2_at (c : Dev nD) (t : Fin cfg1.N) (x : S1x1x128.Idx) (k : S2x1x128.Idx)
    (hk0 : (k 0).val = t.val / 8) (hk1 : (k 1).val = (x 1).val) (hk2 : (k 2).val = (x 2).val) :
    (iblk1 V c 2 t : Vec F S1x1x128 .f32) x = (V c main_v203 : S2x1x128.Idx → Elt F .f32) k := by
  obtain ⟨-, -, -, -, -, -, e0, e1, e2⟩ := in_index1 t
  have hx0 : (x 0).val < 1 := (x 0).isLt
  unfold iblk1
  refine (read_blk1_2 _ t x).trans (congrArg _ (funext fun a => Fin.ext ?_))
  match a with
  | ⟨0, _⟩ => show win1_2.index t (0 : Fin 3) * 1 + 1 * (x 0).val = (k 0).val; omega
  | ⟨1, _⟩ => show win1_2.index t (1 : Fin 3) * 1 + 1 * (x 1).val = (k 1).val; omega
  | ⟨2, _⟩ => show win1_2.index t (2 : Fin 3) * 128 + 1 * (x 2).val = (k 2).val; omega

/-! ## With the array's index written by coordinates -/

theorem point_div_lt (t : Fin cfg1.N) : t.val / 8 < 2 := by
  have h : cfg1.N = 16 := N_1
  have := t.isLt
  omega
theorem point_row_lt (t : Fin cfg1.N) (r : Fin 8192) : 8192 * (t.val % 8) + r.val < 65536 := by
  have := r.isLt
  omega

/-- The features' block at point t, at (0, r, j): the array at batch t / 8, row 8192 (t mod 8) + r, feature j. -/
theorem iblk1_0_apply (c : Dev nD) (t : Fin cfg1.N) (r : Fin 8192) (j : Fin 32) :
    (iblk1 V c 0 t : Vec F S1x8192x32 .f32) (ix3 (0 : Fin 1) r j)
      = (V c main_v156 : S2x65536x32.Idx → Elt F .f32)
          (ix3 (⟨t.val / 8, point_div_lt t⟩ : Fin 2) (⟨8192 * (t.val % 8) + r.val, point_row_lt t r⟩ : Fin 65536) j) :=
  iblk1_0_at V c t _ _ rfl (by show 8192 * (t.val % 8) + r.val = t.val % 8 * 8192 + r.val; omega) rfl

/-- The phenotypes' block at point t, at (0, p, j): the array at batch t / 8, row p, feature j. -/
theorem iblk1_1_apply (c : Dev nD) (t : Fin cfg1.N) (p : Fin 128) (j : Fin 32) :
    (iblk1 V c 1 t : Vec F S1x128x32 .f32) (ix3 (0 : Fin 1) p j)
      = (V c main_v4 : S2x128x32.Idx → Elt F .f32) (ix3 (⟨t.val / 8, point_div_lt t⟩ : Fin 2) p j) :=
  iblk1_1_at V c t _ _ rfl rfl rfl

/-- The alive flags' block at point t, at (0, 0, p): the array at batch t / 8, (0, p). -/
theorem iblk1_2_apply (c : Dev nD) (t : Fin cfg1.N) (p : Fin 128) :
    (iblk1 V c 2 t : Vec F S1x1x128 .f32) (ix3 (0 : Fin 1) (0 : Fin 1) p)
      = (V c main_v203 : S2x1x128.Idx → Elt F .f32) (ix3 (⟨t.val / 8, point_div_lt t⟩ : Fin 2) (0 : Fin 1) p) :=
  iblk1_2_at V c t _ _ rfl rfl rfl

/-! ## At the point holding row n of batch b -/

theorem pointOf_div (b : Fin 2) (n : Fin 65536) : (pointOf b n).val / 8 = b.val := by
  have hn := n.isLt
  show (8 * b.val + n.val / 8192) / 8 = b.val
  omega
theorem pointOf_mod (b : Fin 2) (n : Fin 65536) : (pointOf b n).val % 8 = n.val / 8192 := by
  have hn := n.isLt
  show (8 * b.val + n.val / 8192) % 8 = n.val / 8192
  omega

/-- Row n mod 8192 of the features' block at the point holding row n of batch b is row n of batch b. -/
theorem iblk1_0_row (c : Dev nD) (b : Fin 2) (n : Fin 65536) (j : Fin 32) :
    (iblk1 V c 0 (pointOf b n) : Vec F S1x8192x32 .f32) (ix3 (0 : Fin 1) (⟨n.val % 8192, Nat.mod_lt _ (by decide)⟩ : Fin 8192) j)
      = (V c main_v156 : S2x65536x32.Idx → Elt F .f32) (ix3 b n j) := by
  have hd := pointOf_div b n
  have hm := pointOf_mod b n
  refine iblk1_0_at V c (pointOf b n) _ _ ?_ ?_ rfl
  · show b.val = (pointOf b n).val / 8; omega
  · show n.val = (pointOf b n).val % 8 * 8192 + n.val % 8192; omega

/-- Row p of the phenotypes' block at that point is row p of batch b. -/
theorem iblk1_1_row (c : Dev nD) (b : Fin 2) (n : Fin 65536) (p : Fin 128) (j : Fin 32) :
    (iblk1 V c 1 (pointOf b n) : Vec F S1x128x32 .f32) (ix3 (0 : Fin 1) p j)
      = (V c main_v4 : S2x128x32.Idx → Elt F .f32) (ix3 b p j) :=
  iblk1_1_at V c (pointOf b n) _ _ (pointOf_div b n).symm rfl rfl

/-- The alive flag of column p in the block at that point is batch b's. -/
theorem iblk1_2_row (c : Dev nD) (b : Fin 2) (n : Fin 65536) (p : Fin 128) :
    (iblk1 V c 2 (pointOf b n) : Vec F S1x1x128 .f32) (ix3 (0 : Fin 1) (0 : Fin 1) p)
      = (V c main_v203 : S2x1x128.Idx → Elt F .f32) (ix3 b (0 : Fin 1) p) :=
  iblk1_2_at V c (pointOf b n) _ _ (pointOf_div b n).symm rfl rfl

end Cert.KernelIdeal.Hand

end
-- ==== Proof.LibTiles.lean ====
/-
  A sum over consecutive rows, tile by tile.

  When `n = a * b`, the indices below `n` are the numbers `b * k + r` with `k` below `a` (the tile) and `r` below
  `b` (the row inside the tile), each exactly once; so a sum over all of them, in any commutative monoid, is the sum over
  the tiles of the sums over each tile's rows. This is a general lemma: it mentions no program.
-/
import Mathlib.Algebra.BigOperators.Fin
import Mathlib.Logic.Equiv.Fin.Basic

namespace Cert.LibTiles

open scoped BigOperators

/-- Row `r` of tile `k`, as a number: it is below `n = a * b`. -/
theorem tile_lt {n a b : Nat} (h : a * b = n) (k : Fin a) (r : Fin b) : b * k.val + r.val < n := by
  have h1 : b * k.val + r.val < b * (k.val + 1) := by
    rw [Nat.mul_succ]; exact Nat.add_lt_add_left r.isLt _
  have h2 : b * (k.val + 1) ≤ b * a := Nat.mul_le_mul_left b k.isLt
  have h3 : b * a = n := by rw [Nat.mul_comm]; exact h
  omega

/-- A sum over the `n = a * b` indices is the sum over the `a` tiles of the sums over each tile's `b` rows, row `r` of
    tile `k` being the index `b * k + r`. -/
theorem sum_tiles {M : Type*} [AddCommMonoid M] {n : Nat} (a b : Nat) (h : a * b = n) (f : Fin n → M) :
    ∑ i : Fin n, f i = ∑ k : Fin a, ∑ r : Fin b, f ⟨b * k.val + r.val, tile_lt h k r⟩ := by
  subst h
  rw [← Equiv.sum_comp finProdFinEquiv f, Fintype.sum_prod_type]
  refine Finset.sum_congr rfl fun k _ => Finset.sum_congr rfl fun r _ => congrArg f (Fin.ext ?_)
  show r.val + b * k.val = b * k.val + r.val
  exact Nat.add_comm _ _

end Cert.LibTiles
-- ==== Proof.RefValue.lean ====
/-
  The reference program's intermediate arrays, element by element, in the vocabulary of the specification
  (the guarded norm of a row, the score of a feature row against a phenotype row, the indicator of a score above one half):
  the image layout round trip is the identity; the soft masks are the scores clipped below at zero; the binary masks are
  the indicators of the scores; the intersection counts and the mask areas are sums of (products of) indicators over the
  65536 pixels.
-/
import proofs.«134385_j4260607558106_2_alg».proof.Proof.RefReadP
import proofs.«134385_j4260607558106_2_alg».proof.Proof.Spec
import proofs.«134385_j4260607558106_2_alg».proof.Proof.LibTiles

noncomputable section

namespace Cert.RefValue

open Cert.ReferenceIdeal Cert.ReferenceIdeal.ReadP
open Idealize.ShloMosaic Idealize.ShloMosaic.ValueIdx
open Cert.Spec

/-! ## Layout -/

/-- Moving the feature axis to the front and then back to the end leaves the image as it was. -/
theorem im_eq {F : FTy → Type} [FloatOps F] (x0 : (⟨S2x256x256x32, .f32⟩ : BufTy).Contents (Elt F)) :
    val_main_v35 (F := F) x0 = x0 := by
  funext i
  rw [val_main_v35_apply, val_main_v0_apply]
  exact congrArg x0 (funext fun a => by
    match a with | ⟨0, _⟩ => rfl | ⟨1, _⟩ => rfl | ⟨2, _⟩ => rfl | ⟨3, _⟩ => rfl)

/-- The phenotypes are normalised twice by the same operations: the two results are one array. -/
theorem phen_twice {F : FTy → Type} [FloatOps F] (x1 : (⟨S2x128x32, .f32⟩ : BufTy).Contents (Elt F)) :
    val_main_v154 (F := F) x1 = val_main_v168 (F := F) x1 := by
  unfold val_main_v154 val_main_v153 val_main_v152 val_main_v151 val_main_cst_33 val_main_v150 val_main_call3_v2
    val_main_call3_v1 val_main_call3_cst val_main_call3_v0
  unfold val_main_v168 val_main_v167 val_main_v166 val_main_v165 val_main_cst_36 val_main_v164 val_main_call5_v2
    val_main_call5_v1 val_main_call5_cst val_main_call5_v0
  rfl

/-! ## The constants -/

/-- One half, as a real number. -/
theorem half_eq : half = (((1 : ℝ) / 2 : ℝ) : EReal) := by
  simp [Ideal.ofBits, Ideal.ieee, -EReal.coe_mul]; norm_num

theorem half_pos : (0 : EReal) < half := by
  rw [half_eq]; exact EReal.coe_pos.mpr (by norm_num)

/-! ## The pixels' rows, normalised -/

/-- The divisor of pixel `n`'s row is the row's guarded norm, whatever the feature. -/
theorem v162_apply (x0 : (⟨S2x256x256x32, .f32⟩ : BufTy).Contents (Elt Ideal)) (b : Fin 2) (n : Fin 65536) (k : Fin 32) :
    val_main_v162 (F := Ideal) x0 (ix3 b n k) = gnorm (fun j => val_main_v158 (F := Ideal) x0 (ix3 b n j)) := by
  rw [val_main_v162_apply, val_main_v161_apply, val_main_v159_apply, val_main_call4_v2_apply, val_main_call4_v1_apply,
    val_main_v160_apply, val_main_cst_35_apply, val_main_call4_cst_apply]
  simp only [val_main_call4_v0_apply, Ideal.maximumf_def, Ideal.hostUnary_sqrt_def, Ideal.mulf_def, Ideal.ofBits_def,
    Ideal.ofBits_zero_f32, zero_add]
  unfold gnorm
  refine congrArg (fun s => max (Ideal.sqrt s) eps) (Finset.sum_congr rfl fun q _ => ?_)
  have e : idx_main_call4_v1 (idx_main_call4_v2 (idx_main_v162 (ix3 b n k))) q = ix3 b n q :=
    funext fun a => by match a with | ⟨0, _⟩ => rfl | ⟨1, _⟩ => rfl | ⟨2, _⟩ => rfl
  rw [e]

/-- A normalised pixel row: the feature over the row's guarded norm. -/
theorem v163_apply (x0 : (⟨S2x256x256x32, .f32⟩ : BufTy).Contents (Elt Ideal)) (b : Fin 2) (n : Fin 65536) (k : Fin 32) :
    val_main_v163 (F := Ideal) x0 (ix3 b n k)
      = Ideal.div (val_main_v158 (F := Ideal) x0 (ix3 b n k)) (gnorm (fun j => val_main_v158 (F := Ideal) x0 (ix3 b n j))) := by
  rw [val_main_v163_apply, v162_apply]; rfl

/-! ## Scores, masks, indicators -/

/-- The contraction of a normalised pixel row with a normalised phenotype row is the score. -/
theorem v169_apply (x0 : (⟨S2x256x256x32, .f32⟩ : BufTy).Contents (Elt Ideal)) (x1 : (⟨S2x128x32, .f32⟩ : BufTy).Contents (Elt Ideal)) (b : Fin 2) (n : Fin 65536) (p : Fin 128) :
    val_main_v169 (F := Ideal) x0 x1 (ix3 b n p)
      = score (fun j => val_main_v158 (F := Ideal) x0 (ix3 b n j)) (fun j => val_main_v168 (F := Ideal) x1 (ix3 b p j)) := by
  rw [val_main_v169_apply]
  unfold score
  refine Finset.sum_congr rfl fun q _ => ?_
  have el : lidx_main_v169 (ix3 b n p) q = ix3 b n q :=
    funext fun a => by match a with | ⟨0, _⟩ => rfl | ⟨1, _⟩ => rfl | ⟨2, _⟩ => rfl
  have er : ridx_main_v169 (ix3 b n p) q = ix3 b p q :=
    funext fun a => by match a with | ⟨0, _⟩ => rfl | ⟨1, _⟩ => rfl | ⟨2, _⟩ => rfl
  rw [el, er, v163_apply]

/-- The soft mask of agent `p` at pixel `n`: the score, clipped below at zero. -/
theorem masks_apply (x0 : (⟨S2x256x256x32, .f32⟩ : BufTy).Contents (Elt Ideal)) (x1 : (⟨S2x128x32, .f32⟩ : BufTy).Contents (Elt Ideal)) (b : Fin 2) (n : Fin 65536) (p : Fin 128) :
    val_main_v170 (F := Ideal) x0 x1 (ix3 b n p)
      = max (score (fun j => val_main_v158 (F := Ideal) x0 (ix3 b n j)) (fun j => val_main_v168 (F := Ideal) x1 (ix3 b p j))) 0 := by
  rw [val_main_v170_apply, val_main_call6_v0_apply, val_main_call6_cst_apply, v169_apply]
  simp only [Ideal.maximumf_def, Ideal.ofBits_def, Ideal.ofBits_zero_f32]

/-- The binary mask of agent `p` at pixel `n`, as the number 0 or 1: whether the score exceeds one half. -/
def mbR (x0 : (⟨S2x256x256x32, .f32⟩ : BufTy).Contents (Elt Ideal)) (x1 : (⟨S2x128x32, .f32⟩ : BufTy).Contents (Elt Ideal)) (b : Fin 2) (n : Fin 65536) (p : Fin 128) : EReal :=
  ind (score (fun j => val_main_v158 (F := Ideal) x0 (ix3 b n j)) (fun j => val_main_v168 (F := Ideal) x1 (ix3 b p j)))

/-- Clipping a number below at zero does not change whether it exceeds one half, one half being positive. -/
theorem half_lt_max_zero (r : EReal) : half < max r 0 ↔ half < r := by
  rw [lt_max_iff]
  exact ⟨fun h => h.resolve_right (not_lt.mpr half_pos.le), Or.inl⟩

/-- The indicator is the number 0 or the number 1, so it is its own square. -/
theorem ind_mul_self (r : EReal) : ind r * ind r = ind r := by
  unfold ind
  split_ifs
  · exact one_mul 1
  · exact zero_mul 0

/-- The thresholded mask, converted to a number, is the indicator of the score. -/
theorem v173_apply (x0 : (⟨S2x256x256x32, .f32⟩ : BufTy).Contents (Elt Ideal)) (x1 : (⟨S2x128x32, .f32⟩ : BufTy).Contents (Elt Ideal)) (b : Fin 2) (n : Fin 65536) (p : Fin 128) :
    val_main_v173 (F := Ideal) x0 x1 (ix3 b n p) = mbR x0 x1 b n p := by
  rw [val_main_v173_apply, val_main_v172_apply, val_main_v171_apply, val_main_cst_37_apply, masks_apply]
  unfold mbR ind
  simp only [Ideal.cmpf_def, Ideal.ofBits_def, Ideal.cmp]
  show (((BitVec.ofBool (decide (half < max _ 0))).toNat : ℝ) : EReal) = _
  by_cases h : half < score (fun j => val_main_v158 (F := Ideal) x0 (ix3 b n j)) (fun j => val_main_v168 (F := Ideal) x1 (ix3 b p j))
  · rw [if_pos h, decide_eq_true ((half_lt_max_zero _).mpr h)]; simp
  · rw [if_neg h, decide_eq_false (fun h' => h ((half_lt_max_zero _).mp h'))]; simp

/-! ## Intersection counts and areas -/

/-- The intersection count of agents `p` and `q`: the sum over the pixels of the product of their indicators. -/
theorem I_apply (x0 : (⟨S2x256x256x32, .f32⟩ : BufTy).Contents (Elt Ideal)) (x1 : (⟨S2x128x32, .f32⟩ : BufTy).Contents (Elt Ideal)) (b : Fin 2) (p q : Fin 128) :
    val_main_v174 (F := Ideal) x0 x1 (ix3 b p q) = ∑ n : Fin 65536, mbR x0 x1 b n p * mbR x0 x1 b n q := by
  rw [val_main_v174_apply]
  refine Finset.sum_congr rfl fun n _ => ?_
  have el : lidx_main_v174 (ix3 b p q) n = ix3 b n p :=
    funext fun a => by match a with | ⟨0, _⟩ => rfl | ⟨1, _⟩ => rfl | ⟨2, _⟩ => rfl
  have er : ridx_main_v174 (ix3 b p q) n = ix3 b n q :=
    funext fun a => by match a with | ⟨0, _⟩ => rfl | ⟨1, _⟩ => rfl | ⟨2, _⟩ => rfl
  rw [el, er, v173_apply, v173_apply]

/-- The area of agent `p`'s binary mask: the sum over the pixels of its indicator. -/
theorem s_apply (x0 : (⟨S2x256x256x32, .f32⟩ : BufTy).Contents (Elt Ideal)) (x1 : (⟨S2x128x32, .f32⟩ : BufTy).Contents (Elt Ideal)) (b : Fin 2) (p : Fin 128) :
    val_main_v175 (F := Ideal) x0 x1 (ix2 b p) = ∑ n : Fin 65536, mbR x0 x1 b n p := by
  rw [val_main_v175_apply, val_main_cst_38_apply]
  simp only [Ideal.ofBits_def, Ideal.ofBits_zero_f32, zero_add]
  refine Finset.sum_congr rfl fun n _ => ?_
  have e : idx_main_v175 (ix2 b p) n = ix3 b n p :=
    funext fun a => by match a with | ⟨0, _⟩ => rfl | ⟨1, _⟩ => rfl | ⟨2, _⟩ => rfl
  rw [e, v173_apply]

/-- An agent's mask area is its intersection count with itself. -/
theorem s_eq_diag (x0 : (⟨S2x256x256x32, .f32⟩ : BufTy).Contents (Elt Ideal)) (x1 : (⟨S2x128x32, .f32⟩ : BufTy).Contents (Elt Ideal)) (b : Fin 2) (p : Fin 128) :
    val_main_v175 (F := Ideal) x0 x1 (ix2 b p) = val_main_v174 (F := Ideal) x0 x1 (ix3 b p p) := by
  rw [s_apply, I_apply]
  exact Finset.sum_congr rfl fun n _ => (ind_mul_self _).symm

/-! ## The pixels, tile by tile -/

/-- A sum over the 65536 pixels is the sum over 8 tiles of the sums over each tile's 8192 pixels. -/
theorem sum_tiles {M : Type*} [AddCommMonoid M] (f : Fin 65536 → M) :
    ∑ n : Fin 65536, f n = ∑ k : Fin 8, ∑ r : Fin 8192, f ⟨8192 * k.val + r.val, by omega⟩ :=
  Cert.LibTiles.sum_tiles 8 8192 rfl f

end Cert.RefValue

end
-- ==== Proof.RefValue2.lean ====
/-
  The reference program's result, element by element: the soft mask of agent `p` at pixel `n` (the score clipped below
  at zero) times agent `p`'s survival flag, which does not depend on the pixel.
-/
import proofs.«134385_j4260607558106_2_alg».proof.Proof.RefValue

noncomputable section

namespace Cert.RefValue

open Cert.ReferenceIdeal Cert.ReferenceIdeal.ReadP
open Idealize.ShloMosaic Idealize.ShloMosaic.ValueIdx
open Cert.Spec

/-- The result at pixel `n` and agent `p`: the clipped score times the agent's survival flag (row 0 of the flags laid
    along the agents' axis). -/
theorem out_apply (x0 : (⟨S2x256x256x32, .f32⟩ : BufTy).Contents (Elt Ideal)) (x1 : (⟨S2x128x32, .f32⟩ : BufTy).Contents (Elt Ideal)) (x2 : (⟨S2x128x2, .f32⟩ : BufTy).Contents (Elt Ideal)) (x3 : (⟨S2x128x1, .f32⟩ : BufTy).Contents (Elt Ideal)) (b : Fin 2) (n : Fin 65536) (p : Fin 128) :
    val_main_v222 (F := Ideal) x0 x1 x2 x3 (ix3 b n p)
      = max (score (fun j => val_main_v158 (F := Ideal) x0 (ix3 b n j)) (fun j => val_main_v168 (F := Ideal) x1 (ix3 b p j))) 0
        * val_main_v220 (F := Ideal) x0 x1 x2 x3 (ix3 b (0 : Fin 1) p) := by
  have e : idx_main_v221 (ix3 b n p) = ix3 b (0 : Fin 1) p :=
    funext fun a => by match a with | ⟨0, _⟩ => rfl | ⟨1, _⟩ => rfl | ⟨2, _⟩ => rfl
  rw [val_main_v222_apply, masks_apply, val_main_v221_apply, e]
  rfl

end Cert.RefValue

end
-- ==== Proof.BridgeOut.lean ====
/-
  The top of the bridge, at the ideal values: the array the second kernel region leaves is, entry by entry, the
  reference's result — the rectified score of pixel n's feature row against agent p's normalised phenotype row,
  times agent p's survival flag — provided the region's three operands hold the reference's corresponding arrays.
-/
import proofs.«134385_j4260607558106_2_alg».proof.Proof.HandKernelIdeal.Passage
import proofs.«134385_j4260607558106_2_alg».proof.Proof.HandKernelIdeal.Reg1Value
import proofs.«134385_j4260607558106_2_alg».proof.Proof.HandKernelIdeal.Reg1Final
import proofs.«134385_j4260607558106_2_alg».proof.Proof.HandKernelIdeal.BlockReads1
import proofs.«134385_j4260607558106_2_alg».proof.Proof.RefValue2

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL.Sem

/-- The output buffer after the body at row r and column p, from what the three input blocks hold along row r,
    along row p and at column p. -/
theorem entry_of_blocks (X0 : Vec Ideal S1x8192x32 .f32) (X1 : Vec Ideal S1x128x32 .f32) (X2 : Vec Ideal S1x1x128 .f32)
    (r : Fin 8192) (p : Fin 128) (A B : Fin 32 → EReal) (f : EReal)
    (h0 : ∀ j, X0 (ix3 (0 : Fin 1) r j) = A j) (h1 : ∀ j, X1 (ix3 (0 : Fin 1) p j) = B j)
    (h2 : X2 (ix3 (0 : Fin 1) (0 : Fin 1) p) = f) :
    out1_3 (F := Ideal) X0 X1 X2 (ix3 (0 : Fin 1) r p) = max (Cert.Spec.score A B) 0 * f := by
  rw [out1_3_apply, h2, show (fun q => X0 (ix3 (0 : Fin 1) r q)) = A from funext h0,
    show (fun q => X1 (ix3 (0 : Fin 1) p q)) = B from funext h1]

variable (m : (ℓ : Loc nD τ sig) → Buf (Elt Ideal) ℓ) (c : Dev nD)
variable (x0 : (⟨Cert.ReferenceIdeal.S2x256x256x32, .f32⟩ : BufTy).Contents (Elt Ideal))
  (x1 : (⟨Cert.ReferenceIdeal.S2x128x32, .f32⟩ : BufTy).Contents (Elt Ideal))
  (x2 : (⟨Cert.ReferenceIdeal.S2x128x2, .f32⟩ : BufTy).Contents (Elt Ideal))
  (x3 : (⟨Cert.ReferenceIdeal.S2x128x1, .f32⟩ : BufTy).Contents (Elt Ideal))

/-- Entry (b, n, p) of the array the second region leaves is the reference's result there. -/
theorem result_entry
    (h156 : (W8 m c (Proc.devRef .tc main_v156) : S2x65536x32.Idx → EReal) = Cert.ReferenceIdeal.ReadP.val_main_v158 (F := Ideal) x0)
    (h4 : (W8 m c (Proc.devRef .tc main_v4) : S2x128x32.Idx → EReal) = Cert.ReferenceIdeal.ReadP.val_main_v168 (F := Ideal) x1)
    (h203 : (W11 m (a0 m) c (Proc.devRef .tc main_v203) : S2x1x128.Idx → EReal)
      = Cert.ReferenceIdeal.ReadP.val_main_v220 (F := Ideal) x0 x1 x2 x3)
    (b : Fin 2) (n : Fin 65536) (p : Fin 128) :
    (a1 m c 3 : S2x65536x128.Idx → EReal) (ix3 b n p)
      = Cert.ReferenceIdeal.ReadP.val_main_v222 (F := Ideal) x0 x1 x2 x3 (ix3 b n p) := by
  -- the three input blocks at the point holding the entry, along the rows and at the column the entry reads
  have e0 : ∀ j : Fin 32, (iblk1 (V11 m) c 0 (pointOf b n) : Vec Ideal S1x8192x32 .f32)
        (ix3 (0 : Fin 1) (⟨n.val % 8192, Nat.mod_lt _ (by decide)⟩ : Fin 8192) j)
      = Cert.ReferenceIdeal.ReadP.val_main_v158 (F := Ideal) x0 (ix3 b n j) := fun j =>
    (iblk1_0_row (V11 m) c b n j).trans
      ((congrFun (W11_v156 m c) (ix3 b n j)).trans (congrFun h156 (ix3 b n j)))
  have e1 : ∀ j : Fin 32, (iblk1 (V11 m) c 1 (pointOf b n) : Vec Ideal S1x128x32 .f32) (ix3 (0 : Fin 1) p j)
      = Cert.ReferenceIdeal.ReadP.val_main_v168 (F := Ideal) x1 (ix3 b p j) := fun j =>
    (iblk1_1_row (V11 m) c b n p j).trans
      ((congrFun (W11_v4 m c) (ix3 b p j)).trans (congrFun h4 (ix3 b p j)))
  have e2 : (iblk1 (V11 m) c 2 (pointOf b n) : Vec Ideal S1x1x128 .f32) (ix3 (0 : Fin 1) (0 : Fin 1) p)
      = Cert.ReferenceIdeal.ReadP.val_main_v220 (F := Ideal) x0 x1 x2 x3 (ix3 b (0 : Fin 1) p) :=
    (iblk1_2_row (V11 m) c b n p).trans (congrFun h203 (ix3 b (0 : Fin 1) p))
  refine (congrFun (a1_result m c) (ix3 b n p)).trans ?_
  refine (final1 (V11 m) c b n p).trans ?_
  refine (entry_of_blocks _ _ _ _ p _ _ _ e0 e1 e2).trans ?_
  exact (Cert.RefValue.out_apply x0 x1 x2 x3 b n p).symm

/-- So the array the second region leaves is the reference's result. -/
theorem result_eq
    (h156 : (W8 m c (Proc.devRef .tc main_v156) : S2x65536x32.Idx → EReal) = Cert.ReferenceIdeal.ReadP.val_main_v158 (F := Ideal) x0)
    (h4 : (W8 m c (Proc.devRef .tc main_v4) : S2x128x32.Idx → EReal) = Cert.ReferenceIdeal.ReadP.val_main_v168 (F := Ideal) x1)
    (h203 : (W11 m (a0 m) c (Proc.devRef .tc main_v203) : S2x1x128.Idx → EReal)
      = Cert.ReferenceIdeal.ReadP.val_main_v220 (F := Ideal) x0 x1 x2 x3) :
    (a1 m c 3 : S2x65536x128.Idx → EReal) = Cert.ReferenceIdeal.ReadP.val_main_v222 (F := Ideal) x0 x1 x2 x3 := by
  funext i
  obtain ⟨b, n, p, rfl⟩ : ∃ (b : Fin 2) (n : Fin 65536) (p : Fin 128), i = ix3 b n p := ⟨i 0, i 1, i 2, eq_ix3 i⟩
  exact result_entry m c x0 x1 x2 x3 h156 h4 h203 b n p

end Cert.Bridge

end
-- ==== Proof.BridgeI.lean ====
/-
  The intersection counts and the mask areas: the kernel program's arrays are the reference's.

  The first kernel region leaves, at entry (b, p, q) of its output array, the sum over the 8 row tiles and the 8192 rows
  of each tile of the product of two indicators (the scores of the row against phenotypes p and q both above one half).
  The rows and the phenotypes it reads are the reference's flattened pixels and normalised phenotypes, so the summand at
  tile k, row r is the reference's at pixel 8192 k + r, and the sum over tiles and rows is the reference's sum over the
  65536 pixels. The mask areas are the diagonal of the counts on both sides (an indicator is its own square).
-/
import proofs.«134385_j4260607558106_2_alg».proof.Proof.HandKernelIdeal.Run
import proofs.«134385_j4260607558106_2_alg».proof.Proof.RefValue

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL.Sem
open Cert.Spec

variable (m : (ℓ : Loc nD τ sig) → Buf (Elt Ideal) ℓ)

/-- The intersection counts the first region leaves are the reference's. -/
theorem I_eq (c : Dev nD) (x0 : (⟨Cert.ReferenceIdeal.S2x256x256x32, .f32⟩ : BufTy).Contents (Elt Ideal)) (x1 : (⟨Cert.ReferenceIdeal.S2x128x32, .f32⟩ : BufTy).Contents (Elt Ideal))
    (h156 : (W8 m c (Proc.devRef .tc main_v156) : S2x65536x32.Idx → EReal) = Cert.ReferenceIdeal.ReadP.val_main_v158 (F := Ideal) x0)
    (h4 : (W8 m c (Proc.devRef .tc main_v4) : S2x128x32.Idx → EReal) = Cert.ReferenceIdeal.ReadP.val_main_v168 (F := Ideal) x1)
    (hI : ∀ (b : Fin 2) (p q : Fin 128), ((dat0 (F := Ideal) (V8 m) c).arrAt 2 cfg0.N : S2x128x128.Idx → EReal) (ix3 b p q)
      = ∑ k : Fin 8, ∑ r : Fin 8192,
          ind (score (fun j => (V8 m c main_v156 : S2x65536x32.Idx → EReal) (ix3 b (⟨8192 * k.val + r.val, by omega⟩ : Fin 65536) j)) (fun j => (V8 m c main_v4 : S2x128x32.Idx → EReal) (ix3 b p j)))
            * ind (score (fun j => (V8 m c main_v156 : S2x65536x32.Idx → EReal) (ix3 b (⟨8192 * k.val + r.val, by omega⟩ : Fin 65536) j)) (fun j => (V8 m c main_v4 : S2x128x32.Idx → EReal) (ix3 b q j)))) :
    (W9 m (a0 m) c (Proc.devRef .tc main_v157) : S2x128x128.Idx → EReal)
      = Cert.ReferenceIdeal.ReadP.val_main_v174 (F := Ideal) x0 x1 := by
  funext i
  obtain ⟨b, p, q, rfl⟩ : ∃ (b : Fin 2) (p q : Fin 128), i = ix3 b p q := ⟨i 0, i 1, i 2, eq_ix3 i⟩
  have e9 : (W9 m (a0 m) c (Proc.devRef .tc main_v157) : S2x128x128.Idx → EReal)
      = ((dat0 (F := Ideal) (V8 m) c).arrAt 2 cfg0.N : S2x128x128.Idx → EReal) := W9_arr m (a0 m) c 2
  have h156' : (V8 m c main_v156 : S2x65536x32.Idx → EReal) = Cert.ReferenceIdeal.ReadP.val_main_v158 (F := Ideal) x0 := h156
  have h4' : (V8 m c main_v4 : S2x128x32.Idx → EReal) = Cert.ReferenceIdeal.ReadP.val_main_v168 (F := Ideal) x1 := h4
  refine (congrFun e9 (ix3 b p q)).trans ?_
  refine (hI b p q).trans ?_
  rw [h156', h4', Cert.RefValue.I_apply, Cert.RefValue.sum_tiles]
  rfl

/-- The mask areas the kernel program reads off the counts' diagonal are the reference's. -/
theorem s_eq (c : Dev nD) (x0 : (⟨Cert.ReferenceIdeal.S2x256x256x32, .f32⟩ : BufTy).Contents (Elt Ideal)) (x1 : (⟨Cert.ReferenceIdeal.S2x128x32, .f32⟩ : BufTy).Contents (Elt Ideal))
    (h156 : (W8 m c (Proc.devRef .tc main_v156) : S2x65536x32.Idx → EReal) = Cert.ReferenceIdeal.ReadP.val_main_v158 (F := Ideal) x0)
    (h4 : (W8 m c (Proc.devRef .tc main_v4) : S2x128x32.Idx → EReal) = Cert.ReferenceIdeal.ReadP.val_main_v168 (F := Ideal) x1)
    (hI : ∀ (b : Fin 2) (p q : Fin 128), ((dat0 (F := Ideal) (V8 m) c).arrAt 2 cfg0.N : S2x128x128.Idx → EReal) (ix3 b p q)
      = ∑ k : Fin 8, ∑ r : Fin 8192,
          ind (score (fun j => (V8 m c main_v156 : S2x65536x32.Idx → EReal) (ix3 b (⟨8192 * k.val + r.val, by omega⟩ : Fin 65536) j)) (fun j => (V8 m c main_v4 : S2x128x32.Idx → EReal) (ix3 b p j)))
            * ind (score (fun j => (V8 m c main_v156 : S2x65536x32.Idx → EReal) (ix3 b (⟨8192 * k.val + r.val, by omega⟩ : Fin 65536) j)) (fun j => (V8 m c main_v4 : S2x128x32.Idx → EReal) (ix3 b q j))))
    (hdiag : ∀ (b : Fin 2) (p : Fin 128), (W10 m (a0 m) c (Proc.devRef .tc main_v158) : S2x128.Idx → EReal) (ix2 b p)
      = (W9 m (a0 m) c (Proc.devRef .tc main_v157) : S2x128x128.Idx → EReal) (ix3 b p p)) :
    (W10 m (a0 m) c (Proc.devRef .tc main_v158) : S2x128.Idx → EReal)
      = Cert.ReferenceIdeal.ReadP.val_main_v175 (F := Ideal) x0 x1 := by
  funext i
  obtain ⟨b, p, rfl⟩ : ∃ (b : Fin 2) (p : Fin 128), i = ix2 b p := ⟨i 0, i 1, eq_ix2 i⟩
  exact (hdiag b p).trans ((congrFun (I_eq m c x0 x1 h156 h4 hI) (ix3 b p p)).trans
    (Cert.RefValue.s_eq_diag x0 x1 b p).symm)

end Cert.Bridge

end
-- ==== Proof.HostRead1.lean ====
/-
  The host operations before the first kernel region, read back at the two buffers the regions stream:
  the feature array reshaped to rows, and the phenotype rows divided by their guarded norms.  Each is the
  same composition of array operations as the corresponding stage of the reference program.
-/
import proofs.«134385_j4260607558106_2_alg».proof.Proof.HandKernelIdeal.Fold
import proofs.«134385_j4260607558106_2_alg».proof.Proof.RefReadP

set_option maxRecDepth 8192

noncomputable section

namespace Cert.Bridge

open Cert.KernelIdeal Cert.KernelIdeal.Gen Cert.KernelIdeal.Hand
open Idealize.ShloMosaic Idealize.ShloMosaic.TcCoe Idealize.ShloMosaic.StableHlo
open Idealize.SL.Sem

variable {F : FTy → Type} [FloatOps F]
variable (m : (ℓ : Loc nD τ sig) → Buf (Elt F) ℓ)

set_option maxHeartbeats 4000000 in
/-- The feature array reshaped to [2, 65536, 32]: the last host operation before the first region. -/
theorem v156_eq (c : Dev nD) :
    (W8 m c (Proc.devRef .tc main_v156) : S2x65536x32.Idx → Elt F .f32)
      = Cert.ReferenceIdeal.ReadP.val_main_v158 (F := F) (m ((c.tc : Thread nD τ).loc main_arg0)) := by
  show StableHlo.after hostOps0_7 (W7 m c) (Proc.devRef .tc main_v156) = _
  simp only [hostOps0_7]
  after_results_simp
  rfl

set_option maxHeartbeats 4000000 in
/-- The phenotype rows divided by their guarded norms. -/
theorem v4_eq (c : Dev nD) :
    (W8 m c (Proc.devRef .tc main_v4) : S2x128x32.Idx → Elt F .f32)
      = Cert.ReferenceIdeal.ReadP.val_main_v168 (F := F) (m ((c.tc : Thread nD τ).loc main_arg1)) := by
  show StableHlo.after hostOps0_7 (W7 m c) (Proc.devRef .tc main_v4) = _
  simp only [hostOps0_7]
  after_results_simp
  simp only [cast_eq]
  unfold Cert.ReferenceIdeal.ReadP.val_main_v168 Cert.ReferenceIdeal.ReadP.val_main_v167
    Cert.ReferenceIdeal.ReadP.val_main_v166 Cert.ReferenceIdeal.ReadP.val_main_v165
    Cert.ReferenceIdeal.ReadP.val_main_v164 Cert.ReferenceIdeal.ReadP.val_main_cst_36
    Cert.ReferenceIdeal.ReadP.val_main_call5_v2 Cert.ReferenceIdeal.ReadP.val_main_call5_v1
    Cert.ReferenceIdeal.ReadP.val_main_call5_v0 Cert.ReferenceIdeal.ReadP.val_main_call5_cst
  rfl

end Cert.Bridge

end
-- ==== Proof.HostRead2.lean ====
/-
  The host operations between the two kernel regions, read back: from the intersection counts I, their
  diagonal s and the fit column, the fifty operations compute the row of surviving-agent flags; they are the
  reference program's stages from the union counts to that row, operation for operation.
-/
import proofs.«134385_j4260607558106_2_alg».proof.Proof.HandKernelIdeal.Fold
import proofs.«134385_j4260607558106_2_alg».proof.Proof.RefReadP

set_option maxRecDepth 8192

noncomputable section

namespace Cert.Bridge

open Cert.KernelIdeal Cert.KernelIdeal.Gen Cert.KernelIdeal.Hand
open Idealize.ShloMosaic Idealize.ShloMosaic.TcCoe Idealize.ShloMosaic.StableHlo
open Idealize.SL.Sem

variable {F : FTy → Type} [FloatOps F]
variable (m : (ℓ : Loc nD τ sig) → Buf (Elt F) ℓ)
variable (a0 : (c : Dev nD) → Arrs0 (F := F) c)

set_option maxHeartbeats 4000000 in
/-- The diagonal's operations leave the intersection counts where they are. -/
theorem W10_v157 (c : Dev nD) :
    W10 m a0 c (Proc.devRef .tc main_v157) = W9 m a0 c (Proc.devRef .tc main_v157) := by
  show StableHlo.after hostOps1 (W9 m a0 c) (Proc.devRef .tc main_v157) = _
  simp only [hostOps1]
  after_results_simp

set_option maxHeartbeats 4000000 in
/-- The fit column is not written after the first region's entry. -/
theorem W10_v155 (c : Dev nD) :
    W10 m a0 c (Proc.devRef .tc main_v155) = W8 m c (Proc.devRef .tc main_v155) := by
  have h : W10 m a0 c (Proc.devRef .tc main_v155) = W9 m a0 c (Proc.devRef .tc main_v155) := by
    show StableHlo.after hostOps1 (W9 m a0 c) (Proc.devRef .tc main_v155) = _
    simp only [hostOps1]
    after_results_simp
  rw [h]
  exact W9_of_ne m a0 c main_v155 (by decide)

set_option maxHeartbeats 4000000 in
/-- The alive argument is never written. -/
theorem W10_arg3 (c : Dev nD) :
    W10 m a0 c (Proc.devRef .tc main_arg3) = W0 m c (Proc.devRef .tc main_arg3) := by
  have h : W10 m a0 c (Proc.devRef .tc main_arg3) = W9 m a0 c (Proc.devRef .tc main_arg3) := by
    show StableHlo.after hostOps1 (W9 m a0 c) (Proc.devRef .tc main_arg3) = _
    simp only [hostOps1]
    after_results_simp
  rw [h, W9_of_ne m a0 c main_arg3 (by decide)]
  show StableHlo.after hostOps0_7 (W7 m c) (Proc.devRef .tc main_arg3) = _
  simp only [hostOps0_7]
  after_results_simp

set_option maxHeartbeats 16000000 in
/-- From the intersection counts, their diagonal and the fit column at the reference's values, the row of
    surviving-agent flags is the reference's: the same fifty operations, in the same order. -/
theorem tail_eq_of (c : Dev nD)
    (hI : (W9 m a0 c (Proc.devRef .tc main_v157) : S2x128x128.Idx → Elt F .f32)
      = Cert.ReferenceIdeal.ReadP.val_main_v174 (F := F) (m ((c.tc : Thread nD τ).loc main_arg0))
          (m ((c.tc : Thread nD τ).loc main_arg1)))
    (hs : (W10 m a0 c (Proc.devRef .tc main_v158) : S2x128.Idx → Elt F .f32)
      = Cert.ReferenceIdeal.ReadP.val_main_v175 (F := F) (m ((c.tc : Thread nD τ).loc main_arg0))
          (m ((c.tc : Thread nD τ).loc main_arg1)))
    (hfit : (W8 m c (Proc.devRef .tc main_v155) : S2x128x1.Idx → Elt F .f32)
      = Cert.ReferenceIdeal.ReadP.val_main_v157 (F := F) (m ((c.tc : Thread nD τ).loc main_arg0))
          (m ((c.tc : Thread nD τ).loc main_arg1)) (m ((c.tc : Thread nD τ).loc main_arg2))) :
    (W11 m a0 c (Proc.devRef .tc main_v203) : S2x1x128.Idx → Elt F .f32)
      = Cert.ReferenceIdeal.ReadP.val_main_v220 (F := F) (m ((c.tc : Thread nD τ).loc main_arg0))
          (m ((c.tc : Thread nD τ).loc main_arg1)) (m ((c.tc : Thread nD τ).loc main_arg2))
          (m ((c.tc : Thread nD τ).loc main_arg3)) := by
  have h157 := (W10_v157 m a0 c).trans hI
  have h155 := (W10_v155 m a0 c).trans hfit
  have harg3 := W10_arg3 m a0 c
  show StableHlo.after hostOps1_1 (W10 m a0 c) (Proc.devRef .tc main_v203) = _
  generalize W10 m a0 c = V at hs h157 h155 harg3 ⊢
  simp only [hostOps1_1]
  after_results_simp
  rw [hs, h157, h155, harg3]
  unfold
    Cert.ReferenceIdeal.ReadP.val_main_v220 Cert.ReferenceIdeal.ReadP.val_main_v219 Cert.ReferenceIdeal.ReadP.val_main_v218
    Cert.ReferenceIdeal.ReadP.val_main_v217 Cert.ReferenceIdeal.ReadP.val_main_v216 Cert.ReferenceIdeal.ReadP.val_main_v215
    Cert.ReferenceIdeal.ReadP.val_main_v214 Cert.ReferenceIdeal.ReadP.val_main_v213 Cert.ReferenceIdeal.ReadP.val_main_v212
    Cert.ReferenceIdeal.ReadP.val_main_v211 Cert.ReferenceIdeal.ReadP.val_main_v210 Cert.ReferenceIdeal.ReadP.val_main_v209
    Cert.ReferenceIdeal.ReadP.val_main_v208 Cert.ReferenceIdeal.ReadP.val_main_v207 Cert.ReferenceIdeal.ReadP.val_main_v206
    Cert.ReferenceIdeal.ReadP.val_main_v205 Cert.ReferenceIdeal.ReadP.val_main_v204 Cert.ReferenceIdeal.ReadP.val_main_v203
    Cert.ReferenceIdeal.ReadP.val_main_v202 Cert.ReferenceIdeal.ReadP.val_main_v201 Cert.ReferenceIdeal.ReadP.val_main_v200
    Cert.ReferenceIdeal.ReadP.val_main_v199 Cert.ReferenceIdeal.ReadP.val_main_v198 Cert.ReferenceIdeal.ReadP.val_main_v197
    Cert.ReferenceIdeal.ReadP.val_main_v196 Cert.ReferenceIdeal.ReadP.val_main_v195 Cert.ReferenceIdeal.ReadP.val_main_v194
    Cert.ReferenceIdeal.ReadP.val_main_v193 Cert.ReferenceIdeal.ReadP.val_main_v192 Cert.ReferenceIdeal.ReadP.val_main_v191
    Cert.ReferenceIdeal.ReadP.val_main_v190 Cert.ReferenceIdeal.ReadP.val_main_v189 Cert.ReferenceIdeal.ReadP.val_main_v188
    Cert.ReferenceIdeal.ReadP.val_main_v187 Cert.ReferenceIdeal.ReadP.val_main_v186 Cert.ReferenceIdeal.ReadP.val_main_v185
    Cert.ReferenceIdeal.ReadP.val_main_v184 Cert.ReferenceIdeal.ReadP.val_main_v183 Cert.ReferenceIdeal.ReadP.val_main_v182
    Cert.ReferenceIdeal.ReadP.val_main_v181 Cert.ReferenceIdeal.ReadP.val_main_v180 Cert.ReferenceIdeal.ReadP.val_main_v179
    Cert.ReferenceIdeal.ReadP.val_main_v178 Cert.ReferenceIdeal.ReadP.val_main_v177 Cert.ReferenceIdeal.ReadP.val_main_v176
    Cert.ReferenceIdeal.ReadP.val_main_cst_39 Cert.ReferenceIdeal.ReadP.val_main_c_40 Cert.ReferenceIdeal.ReadP.val_main_cst_41
    Cert.ReferenceIdeal.ReadP.val_main_cst_42 Cert.ReferenceIdeal.ReadP.val_main_c_43
  rfl

end Cert.Bridge

end
-- ==== Proof.HostDiag.lean ====
/-
  The diagonal of the intersection counts, as the host operations between the two kernel regions compute it:
  a gather of the counts at the index pairs (p, p), each index the position p itself (the wrap of a negative index
  never applies: a position is not negative).
-/
import proofs.«134385_j4260607558106_2_alg».proof.Proof.HandKernelIdeal.Fold
import Idealize.ShloMosaic.Lib.StableHlo.Run
import Idealize.ShloMosaic.Lib.Pipeline.Value
import Idealize.ShloMosaic.Lib.ValueIdx
import Idealize.ShloMosaic.Lib.IdealHost

set_option maxRecDepth 8192

noncomputable section

namespace Cert.Bridge

open Cert.KernelIdeal Cert.KernelIdeal.Gen Cert.KernelIdeal.Hand
open Idealize.ShloMosaic Idealize.ShloMosaic.TcCoe Idealize.ShloMosaic.StableHlo Idealize.ShloMosaic.ValueIdx
open Idealize.SL.Sem

/-! ## The gather at an index -/

section Gather
variable {α : Type} {w : Nat} (idx : IVec S128x2 w) (b : Fin 2) (p : Fin 128)

/-- On the batch axis the gather reads the result's own batch coordinate. -/
theorem gather_pairs_axis0 :
    (gather_S2x128x128_S128x2_S2x128_0_12_n_n_12_1_211.operandIdx (ix2 b p) idx (0 : Fin 3)).val = b.val := by
  show gather_S2x128x128_S128x2_S2x128_0_12_n_n_12_1_211.start (ix2 b p) idx (0 : Fin 3) + gather_S2x128x128_S128x2_S2x128_0_12_n_n_12_1_211.batchCoord (ix2 b p) (0 : Fin 3) + gather_S2x128x128_S128x2_S2x128_0_12_n_n_12_1_211.offCoord (ix2 b p) (0 : Fin 3) = _
  rw [GatherDims.batchCoord_eq_zero _ _ _ List.not_mem_nil]
  unfold GatherDims.start GatherDims.offCoord
  rw [dif_neg (by decide), dif_pos (by decide)]
  have hk : ∀ (i : Nat) (hi : i < gather_S2x128x128_S128x2_S2x128_0_12_n_n_12_1_211.offsetDims.length), gather_S2x128x128_S128x2_S2x128_0_12_n_n_12_1_211.offsetDims[i] = (0 : Fin 2) := by
    intro i hi
    have hl : gather_S2x128x128_S128x2_S2x128_0_12_n_n_12_1_211.offsetDims.length = 1 := rfl
    have hi0 : i = 0 := by omega
    subst hi0
    rfl
  simp only [Nat.zero_add]
  exact congrArg (fun a : Fin 2 => (ix2 b p a).val) (hk _ _)

/-- On the first collapsed axis it reads the pair's first word, signed and clamped. -/
theorem gather_pairs_axis1 :
    (gather_S2x128x128_S128x2_S2x128_0_12_n_n_12_1_211.operandIdx (ix2 b p) idx (1 : Fin 3)).val = min (idx (ix2 p (0 : Fin 2))).toInt.toNat 127 := by
  show gather_S2x128x128_S128x2_S2x128_0_12_n_n_12_1_211.start (ix2 b p) idx (1 : Fin 3) + gather_S2x128x128_S128x2_S2x128_0_12_n_n_12_1_211.batchCoord (ix2 b p) (1 : Fin 3) + gather_S2x128x128_S128x2_S2x128_0_12_n_n_12_1_211.offCoord (ix2 b p) (1 : Fin 3) = _
  rw [GatherDims.batchCoord_eq_zero _ _ _ List.not_mem_nil,
    GatherDims.offCoord_eq_zero _ _ _ (fun h => ((GatherDims.mem_sKept _ _).mp h).1 (by decide))]
  unfold GatherDims.start
  rw [dif_pos (show (1 : Fin 3) ∈ gather_S2x128x128_S128x2_S2x128_0_12_n_n_12_1_211.startIndexMap from by decide)]
  have hsi : gather_S2x128x128_S128x2_S2x128_0_12_n_n_12_1_211.siIdx (ix2 b p) ⟨List.idxOf (1 : Fin 3) gather_S2x128x128_S128x2_S2x128_0_12_n_n_12_1_211.startIndexMap, List.idxOf_lt_length_iff.2 (by decide)⟩
      = ix2 p (0 : Fin 2) := by
    funext b'; refine Fin.ext ?_
    match b' with
    | ⟨0, _⟩ => rfl
    | ⟨1, _⟩ => rfl
  rw [hsi]
  rfl

/-- On the second collapsed axis it reads the pair's second word, signed and clamped. -/
theorem gather_pairs_axis2 :
    (gather_S2x128x128_S128x2_S2x128_0_12_n_n_12_1_211.operandIdx (ix2 b p) idx (2 : Fin 3)).val = min (idx (ix2 p (1 : Fin 2))).toInt.toNat 127 := by
  show gather_S2x128x128_S128x2_S2x128_0_12_n_n_12_1_211.start (ix2 b p) idx (2 : Fin 3) + gather_S2x128x128_S128x2_S2x128_0_12_n_n_12_1_211.batchCoord (ix2 b p) (2 : Fin 3) + gather_S2x128x128_S128x2_S2x128_0_12_n_n_12_1_211.offCoord (ix2 b p) (2 : Fin 3) = _
  rw [GatherDims.batchCoord_eq_zero _ _ _ List.not_mem_nil,
    GatherDims.offCoord_eq_zero _ _ _ (fun h => ((GatherDims.mem_sKept _ _).mp h).1 (by decide))]
  unfold GatherDims.start
  rw [dif_pos (show (2 : Fin 3) ∈ gather_S2x128x128_S128x2_S2x128_0_12_n_n_12_1_211.startIndexMap from by decide)]
  have hsi : gather_S2x128x128_S128x2_S2x128_0_12_n_n_12_1_211.siIdx (ix2 b p) ⟨List.idxOf (2 : Fin 3) gather_S2x128x128_S128x2_S2x128_0_12_n_n_12_1_211.startIndexMap, List.idxOf_lt_length_iff.2 (by decide)⟩
      = ix2 p (1 : Fin 2) := by
    funext b'; refine Fin.ext ?_
    match b' with
    | ⟨0, _⟩ => rfl
    | ⟨1, _⟩ => rfl
  rw [hsi]
  rfl

/-- A gather of a [2, 128, 128] array at a [128, 2] array of index pairs, one pair per column p: entry (b, p) is the
    array at (b, k1, k2), the pair's two words read signed and clamped into [0, 127]. -/
theorem gather_pairs_apply (x : S2x128x128.Idx → α) (k1 k2 : Fin 128)
    (h1 : min (idx (ix2 p (0 : Fin 2))).toInt.toNat 127 = k1.val)
    (h2 : min (idx (ix2 p (1 : Fin 2))).toInt.toNat 127 = k2.val) :
    Host.gather gather_S2x128x128_S128x2_S2x128_0_12_n_n_12_1_211 x idx (ix2 b p) = x (ix3 b k1 k2) := by
  unfold Host.gather
  refine congrArg x (funext fun a => Fin.ext ?_)
  match a with
  | ⟨0, _⟩ => exact gather_pairs_axis0 idx b p
  | ⟨1, _⟩ => exact (gather_pairs_axis1 idx b p).trans h1
  | ⟨2, _⟩ => exact (gather_pairs_axis2 idx b p).trans h2

end Gather

/-! ## The index pairs -/

/-- A position as a 32-bit word, after the wrap of a negative index: where the word is negative, 128 is added. -/
def wrapIota : IVec S128 32 :=
  select (cmpi .slt (iotaInDim S128 32 0) (broadcastInDim S128 ![] bcast_S_S128 (constantI S_ 32 0#32)))
    (addi (iotaInDim S128 32 0) (broadcastInDim S128 ![] bcast_S_S128 (constantI S_ 32 128#32)))
    (iotaInDim S128 32 0)

/-- The [128, 2] array of index pairs the gather reads: row p is the wrapped position p, twice. -/
def diagIdx : IVec S128x2 32 :=
  concatenate S128x2 1 [⟨S128x1, broadcastInDim S128x1 ![0] bcast_S128_S128x1_0 wrapIota⟩,
    ⟨S128x1, broadcastInDim S128x1 ![0] bcast_S128_S128x1_0 wrapIota⟩] concatenates_S128x1_S128x1_S128x2_d1

/-- A position below 128, as a 32-bit word, is not negative, and read signed it is the position. -/
theorem word_toInt (p : Fin 128) : (BitVec.ofNat 32 p.val).toInt = (p.val : Int) := by
  have hp := p.isLt
  have h256 : (256 : Nat) ≤ 2 ^ 32 := by decide
  have hn : (BitVec.ofNat 32 p.val).toNat = p.val := by
    rw [BitVec.toNat_ofNat]; exact Nat.mod_eq_of_lt (by omega)
  rw [BitVec.toInt_eq_toNat_of_lt (by rw [hn]; omega), hn]

theorem word_facts (p : Fin 128) : IntOp.cmpi .slt (BitVec.ofNat 32 p.val) 0#32 = 0#1
    ∧ (BitVec.ofNat 32 p.val).toInt.toNat = p.val := by
  refine ⟨?_, ?_⟩
  · show BitVec.ofBool ((BitVec.ofNat 32 p.val).slt 0#32) = 0#1
    have h0 : (0#32 : BitVec 32).toInt = 0 := by decide
    rw [BitVec.slt_eq_decide, word_toInt, h0, decide_eq_false (by omega)]
    rfl
  · rw [word_toInt]
    first | exact Int.toNat_natCast _ | omega

/-- The wrap leaves a position as it is. -/
theorem wrapIota_apply (p : Fin 128) : wrapIota (ix1 p) = BitVec.ofNat 32 p.val := by
  show Scalar.select (IntOp.cmpi .slt (BitVec.ofNat 32 p.val) 0#32) _ (BitVec.ofNat 32 p.val) = _
  rw [(word_facts p).1, select_zero]

/-- The wrapped positions laid as a column. -/
theorem column_apply (p : Fin 128) (u : Fin 1) :
    broadcastInDim S128x1 ![0] bcast_S128_S128x1_0 wrapIota (ix2 p u) = BitVec.ofNat 32 p.val := by
  refine (broadcastInDim_apply (s := S128) (t := S128x1) _ bcast_S128_S128x1_0 wrapIota (ix2 p u) (ix1 p) fun a => ?_).trans (wrapIota_apply p)
  match a with
  | ⟨0, _⟩ => rfl

/-- Both words of row p of the index pairs are the position p. -/
theorem diagIdx_apply (p : Fin 128) (k : Fin 2) : diagIdx (ix2 p k) = BitVec.ofNat 32 p.val := by
  unfold diagIdx
  match k with
  | ⟨0, _⟩ =>
    refine (concatenate_pair_apply_left (t := S128x2) (s₁ := S128x1) (s₂ := S128x1) (1 : Fin 2) _ _
      concatenates_S128x1_S128x1_S128x2_d1 (ix2 p (0 : Fin 2)) rfl (ix2 p (0 : Fin 1)) fun b => ?_).trans (column_apply p 0)
    match b with
    | ⟨0, _⟩ => rfl
    | ⟨1, _⟩ => rfl
  | ⟨1, _⟩ =>
    refine (concatenate_pair_apply_right (t := S128x2) (s₁ := S128x1) (s₂ := S128x1) (1 : Fin 2) _ _
      concatenates_S128x1_S128x1_S128x2_d1 (ix2 p (1 : Fin 2)) rfl rfl (ix2 p (0 : Fin 1)) (fun b hb => ?_) rfl).trans (column_apply p 0)
    match b with
    | ⟨0, _⟩ => rfl
    | ⟨1, _⟩ => exact absurd rfl hb

/-- Read signed and clamped into [0, 127], each word of row p is p. -/
theorem diagIdx_clamped (p : Fin 128) (k : Fin 2) : min (diagIdx (ix2 p k)).toInt.toNat 127 = p.val := by
  rw [diagIdx_apply, (word_facts p).2]
  have := p.isLt
  omega

/-! ## The diagonal -/

section Diagonal
variable {F : FTy → Type} [FloatOps F]
variable (m : (ℓ : Loc nD τ sig) → Buf (Elt F) ℓ) (a0 : (c : Dev nD) → Arrs0 (F := F) c)

set_option maxHeartbeats 4000000 in
/-- The twenty host operations leave, in the diagonal's buffer, the gather of the intersection counts at the index pairs. -/
theorem v158_eq (c : Dev nD) :
    (W10 m a0 c (Proc.devRef .tc main_v158) : S2x128.Idx → Elt F .f32)
      = Host.gather gather_S2x128x128_S128x2_S2x128_0_12_n_n_12_1_211
          (W9 m a0 c (Proc.devRef .tc main_v157) : S2x128x128.Idx → Elt F .f32) diagIdx := by
  show StableHlo.after hostOps1 (W9 m a0 c) (Proc.devRef .tc main_v158) = _
  simp only [hostOps1]
  after_results_simp
  try simp only [cast_eq]
  rfl

/-- Entry (b, p) of the diagonal is entry (b, p, p) of the intersection counts. -/
theorem diag_apply (c : Dev nD) (b : Fin 2) (p : Fin 128) :
    (W10 m a0 c (Proc.devRef .tc main_v158) : S2x128.Idx → Elt F .f32) (ix2 b p)
      = (W9 m a0 c (Proc.devRef .tc main_v157) : S2x128x128.Idx → Elt F .f32) (ix3 b p p) := by
  rw [v158_eq]
  exact gather_pairs_apply diagIdx b p _ p p (diagIdx_clamped p 0) (diagIdx_clamped p 1)

end Diagonal

end Cert.Bridge

end
-- ==== Proof.HandKernelIdeal.Reg0Array.lean ====
/-
  What the first kernel region leaves in its output array: entry (b, p, q) of the [2,128,128] array is
  entry (p, q) of the accumulator after the last tile of batch entry b.  The output block of batch
  entry b is written back once, after that tile; the two write-backs tile the array.
-/
import proofs.«134385_j4260607558106_2_alg».proof.Proof.HandKernelIdeal.Reg0
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The output window's block index at a point: the batch entry, then zeros. -/
theorem idx_facts0_2 : ∀ t : Fin cfg0.N, win0_2.index t (0 : Fin 3) = t.val / 8
    ∧ win0_2.index t (1 : Fin 3) = 0 ∧ win0_2.index t (2 : Fin 3) = 0 :=
  (by decide +kernel : ∀ t : Fin grid0.N, _)

/-- The accumulator at equal positions and entries is the same. -/
theorem acc0_congr (c : Dev nD) (n n' : ℕ) (hn : n < cfg0.N) (hn' : n' < cfg0.N) (p p' q q' : Fin 128)
    (h1 : n = n') (h2 : p = p') (h3 : q = q') : acc0 V c n hn (ix2 p q) = acc0 V c n' hn' (ix2 p' q') := by
  subst h1 h2 h3; rfl

/-- What the output array ends holding. -/
def res0 (c : Dev nD) : S2x128x128.Idx → Elt F .f32 := fun i =>
  acc0 V c (8 * (i 0).val + 7) (by have h0 : (i 0).val < 2 := (i 0).isLt; have hN : cfg0.N = 16 := N_0; omega)
    (ix2 (⟨(i 1).val, (i 1).isLt⟩ : Fin 128) (⟨(i 2).val, (i 2).isLt⟩ : Fin 128))

theorem res0_apply (c : Dev nD) (b : Fin 2) (p q : Fin 128) (h : 8 * b.val + 7 < cfg0.N) :
    res0 V c (ix3 b p q) = acc0 V c (8 * b.val + 7) h (ix2 p q) := rfl

/-- WHAT A WRITE-BACK WRITES is its block of `res0`. -/
theorem flushed0_2_eq (c : Dev nD) (t : Fin cfg0.N) (hf : (cfg0.win 2).flush t = true) :
    (dat0 V c).flushed 2 t = ((cfg0.win 2).blk t).view.read (Elt F) (res0 V c) := by
  have h7 : t.val % 8 = 7 := (flush0_2 t).mp hf
  obtain ⟨e0, e1, e2⟩ := idx_facts0_2 t
  show (cfg0.win 2).cut (grid0.coords t) ((dat0 V c).after 2 t) = _
  rw [after0_2]
  funext j
  obtain ⟨u, p, q, rfl⟩ : ∃ (u : Fin 1) (p q : Fin 128), j = ix3 u p q := ⟨j 0, j 1, j 2, eq_ix3 j⟩
  refine (shapeCast_ab_1ab_apply (acc0 V c t.val t.isLt) shapeCasts_S128x128_S1x128x128 u p q).trans ?_
  show _ = res0 V c (((cfg0.win 2).blk t).view.emb (ix3 u p q))
  unfold res0
  refine acc0_congr V c _ _ _ _ _ _ _ _ ?_ (Fin.ext ?_) (Fin.ext ?_)
  · show t.val = 8 * (win0_2.index t (0 : Fin 3) * 1 + 1 * u.val) + 7
    have hu : u.val = 0 := by omega
    omega
  · show p.val = win0_2.index t (1 : Fin 3) * 128 + 1 * p.val
    omega
  · show q.val = win0_2.index t (2 : Fin 3) * 128 + 1 * q.val
    omega

/-- An index of the array is in a point's block iff each coordinate is in the block's range on its axis. -/
theorem mem_blk0_2 (t : Fin cfg0.N) (i : S2x128x128.Idx) :
    i ∈ ((cfg0.win 2).blk t).view.set ↔ ∀ a : Fin 3, win0_2.index t a * S1x128x128.size a ≤ (i a).val ∧ (i a).val < win0_2.index t a * S1x128x128.size a + S1x128x128.size a := by
  show i ∈ ((View.whole main_v157).slice (win0_2.rect t)).set ↔ _
  rw [View.set_slice_whole, Rect.mem_set_unit]
  exact Iff.rfl

/-- Every index is in the block some write-back writes: the one after the last tile of its batch entry. -/
theorem cover0_2 (i : S2x128x128.Idx) :
    ∃ t : Fin cfg0.N, (cfg0.win 2).flush t = true ∧ i ∈ ((cfg0.win 2).blk t).view.set := by
  have hN : cfg0.N = 16 := N_0
  have h0 : (i 0).val < 2 := (i 0).isLt
  have h1 : (i 1).val < 128 := (i 1).isLt
  have h2 : (i 2).val < 128 := (i 2).isLt
  obtain ⟨t, ht⟩ : ∃ t : Fin cfg0.N, t.val = 8 * (i 0).val + 7 := ⟨⟨8 * (i 0).val + 7, by omega⟩, rfl⟩
  refine ⟨t, (flush0_2 t).mpr (by omega), ?_⟩
  rw [mem_blk0_2]
  obtain ⟨e0, e1, e2⟩ := idx_facts0_2 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 128 ≤ (i 2).val ∧ (i 2).val < win0_2.index t (2 : Fin 3) * 128 + 128; omega

/-- THE ARRAY after the region. -/
theorem final0_2 (c : Dev nD) : (dat0 V c).arrAt 2 cfg0.N = res0 V c :=
  (dat0 V c).arrAt_eq_of_cover 2 (res0 V c) (flushed0_2_eq V c) cover0_2

/-- Entry (b, p, q): entry (p, q) of the accumulator after the last tile of batch entry b. -/
theorem final0_2_apply (c : Dev nD) (b : Fin 2) (p q : Fin 128) (h : 8 * b.val + 7 < cfg0.N) :
    (dat0 V c).arrAt 2 cfg0.N (ix3 b p q) = acc0 V c (8 * b.val + 7) h (ix2 p q) :=
  (congrFun (final0_2 V c) (ix3 b p q)).trans (res0_apply V c b p q h)

end Regions

end Cert.KernelIdeal.Hand

end
-- ==== Proof.HandKernelIdeal.BlockReads0.lean ====
/-
  The first kernel region's input blocks, read entry by entry off their arrays. The grid is 2 × 8: point t works on
  batch t / 8 and row tile t mod 8. The feature window's block at point t is rows 8192 (t mod 8) … 8192 (t mod 8) + 8191
  of batch t / 8 of the feature array f32[2, 65536, 32]; the phenotype window's block is all of batch t / 8 of the
  phenotype array f32[2, 128, 32].
-/
import proofs.«134385_j4260607558106_2_alg».proof.Proof.HandKernelIdeal.Reg0
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

variable (V : (c : Dev nD) → (b : Ref sig .tc) → Buf (Elt F) ((c : Thread nD τ).loc b))

/-! ## The block indices, decided over the grid -/

/-- The feature window's block index at point t: the batch t / 8, the row tile t mod 8, the whole feature axis. -/
theorem in_index0_0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)

/-- The phenotype window's block index at point t: the batch t / 8, every agent, the whole feature axis. -/
theorem in_index0_1 : ∀ t : Fin cfg0.N, win0_1.index t (0 : Fin 3) = t.val / 8 ∧ win0_1.index t (1 : Fin 3) = 0
    ∧ win0_1.index t (2 : Fin 3) = 0 :=
  (by decide +kernel : ∀ t : Fin grid0.N, _)

/-! ## A block of a function of the array's index, read back -/

theorem read_blk0_0 (G : S2x65536x32.Idx → Elt F .f32) (t : Fin cfg0.N) (y : S1x8192x32.Idx) :
    ((cfg0.win 0).blk t).view.read (Elt F) G y = G (((cfg0.win 0).blk t).view.emb y) := rfl

theorem read_blk0_1 (G : S2x128x32.Idx → Elt F .f32) (t : Fin cfg0.N) (y : S1x128x32.Idx) :
    ((cfg0.win 1).blk t).view.read (Elt F) G y = G (((cfg0.win 1).blk t).view.emb y) := rfl

/-! ## The blocks at an entry -/

/-- Entry y of the feature block at point t is the feature array's entry i, when i is y's place in the array:
    batch t / 8, row 8192 (t mod 8) + y's row, y's feature. -/
theorem iblk0_0_at (c : Dev nD) (t : Fin cfg0.N) (y : S1x8192x32.Idx) (i : S2x65536x32.Idx)
    (h0 : (i 0).val = t.val / 8) (h1 : (i 1).val = 8192 * (t.val % 8) + (y 1).val) (h2 : (i 2).val = (y 2).val) :
    (iblk0 V c 0 t : Vec F S1x8192x32 .f32) y = (V c main_v156 : S2x65536x32.Idx → Elt F .f32) i := by
  obtain ⟨e0, e1, e2⟩ := in_index0_0 t
  have hy0 : (y 0).val < 1 := (y 0).isLt
  unfold iblk0
  refine (read_blk0_0 _ t y).trans ?_
  refine congrArg _ (funext fun a => Fin.ext ?_)
  match a with
  | ⟨0, _⟩ =>
    show win0_0.index t (0 : Fin 3) * 1 + 1 * (y 0).val = (i 0).val
    omega
  | ⟨1, _⟩ =>
    show win0_0.index t (1 : Fin 3) * 8192 + 1 * (y 1).val = (i 1).val
    omega
  | ⟨2, _⟩ =>
    show win0_0.index t (2 : Fin 3) * 32 + 1 * (y 2).val = (i 2).val
    omega

/-- Entry y of the phenotype block at point t is the phenotype array's entry i, when i is y's place in the array:
    batch t / 8, y's agent, y's feature. -/
theorem iblk0_1_at (c : Dev nD) (t : Fin cfg0.N) (y : S1x128x32.Idx) (i : S2x128x32.Idx)
    (h0 : (i 0).val = t.val / 8) (h1 : (i 1).val = (y 1).val) (h2 : (i 2).val = (y 2).val) :
    (iblk0 V c 1 t : Vec F S1x128x32 .f32) y = (V c main_v4 : S2x128x32.Idx → Elt F .f32) i := by
  obtain ⟨e0, e1, e2⟩ := in_index0_1 t
  have hy0 : (y 0).val < 1 := (y 0).isLt
  unfold iblk0
  refine (read_blk0_1 _ t y).trans ?_
  refine congrArg _ (funext fun a => Fin.ext ?_)
  match a with
  | ⟨0, _⟩ =>
    show win0_1.index t (0 : Fin 3) * 1 + 1 * (y 0).val = (i 0).val
    omega
  | ⟨1, _⟩ =>
    show win0_1.index t (1 : Fin 3) * 128 + 1 * (y 1).val = (i 1).val
    omega
  | ⟨2, _⟩ =>
    show win0_1.index t (2 : Fin 3) * 32 + 1 * (y 2).val = (i 2).val
    omega

/-- Row r, feature j of the feature block at point t. -/
theorem iblk0_0_apply (c : Dev nD) (t : Fin cfg0.N) (r : Fin 8192) (j : Fin 32) :
    (iblk0 V c 0 t : Vec F S1x8192x32 .f32) (ix3 (0 : Fin 1) r j)
      = (V c main_v156 : S2x65536x32.Idx → Elt F .f32)
          (ix3 (⟨t.val / 8, by have h : cfg0.N = 16 := N_0; have := t.isLt; omega⟩ : Fin 2)
            (⟨8192 * (t.val % 8) + r.val, by have := r.isLt; omega⟩ : Fin 65536) j) :=
  iblk0_0_at V c t _ _ rfl rfl rfl

/-- Agent p, feature j of the phenotype block at point t. -/
theorem iblk0_1_apply (c : Dev nD) (t : Fin cfg0.N) (p : Fin 128) (j : Fin 32) :
    (iblk0 V c 1 t : Vec F S1x128x32 .f32) (ix3 (0 : Fin 1) p j)
      = (V c main_v4 : S2x128x32.Idx → Elt F .f32)
          (ix3 (⟨t.val / 8, by have h : cfg0.N = 16 := N_0; have := t.isLt; omega⟩ : Fin 2) p j) :=
  iblk0_1_at V c t _ _ rfl rfl rfl

end Cert.KernelIdeal.Hand

end
-- ==== Proof.HandKernelIdeal.Reg0Value.lean ====
/-
  The first kernel region's values on the extended reals: a point's contribution to the accumulator is,
  entry (p, q), the number of rows of the point's feature block whose score against phenotype rows p
  and q both exceed one half; the accumulator after a point is the sum of the contributions since the
  last first tile.
-/
import proofs.«134385_j4260607558106_2_alg».proof.Proof.HandKernelIdeal.Reg0
import proofs.«134385_j4260607558106_2_alg».proof.Proof.Spec
import Idealize.ShloMosaic.Lib.ValueLayout
import Idealize.ShloMosaic.PureOps.Ideal.Laws
import proofs.«134385_j4260607558106_2_alg».proof.Proof.HandKernelIdeal.Reg0Array
import proofs.«134385_j4260607558106_2_alg».proof.Proof.HandKernelIdeal.BlockReads0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

namespace Region0

/-! ## Two layout readings at an index -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The contribution's stages, named -/

/-- The feature block's rows, without the leading unit axis. -/
def flat0 (x0 : Vec F S1x8192x32 .f32) : FVec F S8192x32 .f32 := shapeCast S8192x32 x0 shapeCasts_S1x8192x32_S8192x32

/-- Each row's guarded norm, as a column. -/
def nrm0 (x0 : Vec F S1x8192x32 .f32) : FVec F S8192x1 .f32 :=
  maximumf (sqrt (shapeCast S8192x1 (multiReduction .add [1] S8192 (mulf (flat0 x0) (flat0 x0)) 0x00000000#32 reduces_S8192x32_S8192 (.inl rfl) rfl) shapeCasts_S8192_S8192x1))
    (broadcast S8192x1 (Scalar.ofBits .f32 0x358637BD#32))

/-- The rows divided by their guarded norms. -/
def qn0 (x0 : Vec F S1x8192x32 .f32) : FVec F S8192x32 .f32 :=
  divf (flat0 x0) (broadcastTo S8192x32 (nrm0 x0) broadcasts_S8192x1_S8192x32)

/-- The phenotype block, transposed. -/
def kt0 (x1 : Vec F S1x128x32 .f32) : FVec F S32x128 .f32 :=
  transpose S32x128 [1, 0] (shapeCast S128x32 x1 shapeCasts_S1x128x32_S128x32) transposes_S128x32_p1_0_S32x128

/-- The scores of every row against every phenotype. -/
def raw0 (x0 : Vec F S1x8192x32 .f32) (x1 : Vec F S1x128x32 .f32) : FVec F S8192x128 .f32 :=
  matmul dot_S8192x32_S32x128_S8192x128_1_0_0_1_n_n (some .fp32) (qn0 x0) (kt0 x1) (constant S8192x128 .f32 0x00000000#32)

/-- The 0/1 matrix of the scores above one half. -/
def mask0 (x0 : Vec F S1x8192x32 .f32) (x1 : Vec F S1x128x32 .f32) : FVec F S8192x128 .bf16 :=
  truncf .bf16 (sitofp .f32 (extui 32 (cmpf .ogt (raw0 x0 x1) (broadcast S8192x128 (Scalar.ofBits .f32 0x3F000000#32))) natLt_1_32)) bitsLt_bf16_f32

/-- The contribution is the product of the 0/1 matrix's transpose with itself. -/
theorem contrib0_eq (x0 : Vec F S1x8192x32 .f32) (x1 : Vec F S1x128x32 .f32) :
    contrib0 x0 x1 = matmul dot_S8192x128_S8192x128_S128x128_0_0_1_1_n_n none (mask0 x0 x1) (mask0 x0 x1) (constant S128x128 .f32 0x00000000#32) := rfl

/-- The transposed phenotype block at `(j, p)` is the block at `(0, p, j)`. -/
theorem kt0_apply (x1 : Vec F S1x128x32 .f32) (j : Fin 32) (p : Fin 128) : kt0 x1 (ix2 j p) = x1 (ix3 (0 : Fin 1) p j) := by
  unfold kt0
  exact (transpose_ix2_apply _ transposes_S128x32_p1_0_S32x128 j p).trans (shapeCast_1ab_ab_apply x1 shapeCasts_S1x128x32_S128x32 p j)

/-- The flattened feature block at `(n, j)` is the block at `(0, n, j)`. -/
theorem flat0_apply (x0 : Vec F S1x8192x32 .f32) (n : Fin 8192) (j : Fin 32) : flat0 x0 (ix2 n j) = x0 (ix3 (0 : Fin 1) n j) := by
  unfold flat0
  exact shapeCast_1ab_ab_apply x0 shapeCasts_S1x8192x32_S8192x32 n j

/-! ## The dots' operand indices -/

theorem lhs1_0 (i : S8192x128.Idx) (q : dot_S8192x32_S32x128_S8192x128_1_0_0_1_n_n.contr.Idx) : (dot_S8192x32_S32x128_S8192x128_1_0_0_1_n_n.lhsIdx i q 0).val = (i 0).val := by
  unfold DotDims.lhsIdx
  rw [dif_neg (show ¬(0 : Fin S8192x32.rank) ∈ dot_S8192x32_S32x128_S8192x128_1_0_0_1_n_n.lhsBatch by decide), dif_pos (show (0 : Fin S8192x32.rank) ∈ dot_S8192x32_S32x128_S8192x128_1_0_0_1_n_n.lhsNonContracting by decide)]
  rfl
theorem lhs1_1 (i : S8192x128.Idx) (q : dot_S8192x32_S32x128_S8192x128_1_0_0_1_n_n.contr.Idx) : (dot_S8192x32_S32x128_S8192x128_1_0_0_1_n_n.lhsIdx i q 1).val = (q ⟨0, by decide⟩).val :=
  dot_S8192x32_S32x128_S8192x128_1_0_0_1_n_n.lhsIdx_val_of_single rfl i q
theorem rhs1_0 (i : S8192x128.Idx) (q : dot_S8192x32_S32x128_S8192x128_1_0_0_1_n_n.contr.Idx) : (dot_S8192x32_S32x128_S8192x128_1_0_0_1_n_n.rhsIdx i q 0).val = (q ⟨0, by decide⟩).val :=
  dot_S8192x32_S32x128_S8192x128_1_0_0_1_n_n.rhsIdx_val_of_single rfl i q
theorem rhs1_1 (i : S8192x128.Idx) (q : dot_S8192x32_S32x128_S8192x128_1_0_0_1_n_n.contr.Idx) : (dot_S8192x32_S32x128_S8192x128_1_0_0_1_n_n.rhsIdx i q 1).val = (i 1).val := by
  unfold DotDims.rhsIdx
  rw [dif_neg (show ¬(1 : Fin S32x128.rank) ∈ dot_S8192x32_S32x128_S8192x128_1_0_0_1_n_n.rhsBatch by decide), dif_pos (show (1 : Fin S32x128.rank) ∈ dot_S8192x32_S32x128_S8192x128_1_0_0_1_n_n.rhsNonContracting by decide)]
  rfl

theorem lhs2_0 (i : S128x128.Idx) (q : dot_S8192x128_S8192x128_S128x128_0_0_1_1_n_n.contr.Idx) : (dot_S8192x128_S8192x128_S128x128_0_0_1_1_n_n.lhsIdx i q 0).val = (q ⟨0, by decide⟩).val :=
  dot_S8192x128_S8192x128_S128x128_0_0_1_1_n_n.lhsIdx_val_of_single rfl i q
theorem lhs2_1 (i : S128x128.Idx) (q : dot_S8192x128_S8192x128_S128x128_0_0_1_1_n_n.contr.Idx) : (dot_S8192x128_S8192x128_S128x128_0_0_1_1_n_n.lhsIdx i q 1).val = (i 0).val := by
  unfold DotDims.lhsIdx
  rw [dif_neg (show ¬(1 : Fin S8192x128.rank) ∈ dot_S8192x128_S8192x128_S128x128_0_0_1_1_n_n.lhsBatch by decide), dif_pos (show (1 : Fin S8192x128.rank) ∈ dot_S8192x128_S8192x128_S128x128_0_0_1_1_n_n.lhsNonContracting by decide)]
  rfl
theorem rhs2_0 (i : S128x128.Idx) (q : dot_S8192x128_S8192x128_S128x128_0_0_1_1_n_n.contr.Idx) : (dot_S8192x128_S8192x128_S128x128_0_0_1_1_n_n.rhsIdx i q 0).val = (q ⟨0, by decide⟩).val :=
  dot_S8192x128_S8192x128_S128x128_0_0_1_1_n_n.rhsIdx_val_of_single rfl i q
theorem rhs2_1 (i : S128x128.Idx) (q : dot_S8192x128_S8192x128_S128x128_0_0_1_1_n_n.contr.Idx) : (dot_S8192x128_S8192x128_S128x128_0_0_1_1_n_n.rhsIdx i q 1).val = (i 1).val := by
  unfold DotDims.rhsIdx
  rw [dif_neg (show ¬(1 : Fin S8192x128.rank) ∈ dot_S8192x128_S8192x128_S128x128_0_0_1_1_n_n.rhsBatch by decide), dif_pos (show (1 : Fin S8192x128.rank) ∈ dot_S8192x128_S8192x128_S128x128_0_0_1_1_n_n.rhsNonContracting by decide)]
  rfl

/-! ## At the extended reals -/

/-- A row's guarded norm. -/
theorem nrm0_apply (x0 : Vec Ideal S1x8192x32 .f32) (n : Fin 8192) (u : Fin 1) :
    nrm0 (F := Ideal) x0 (ix2 n u) = Cert.Spec.gnorm (fun q => x0 (ix3 (0 : Fin 1) n q)) := by
  unfold nrm0 Cert.Spec.gnorm
  show max (Ideal.sqrt (shapeCast S8192x1 _ shapeCasts_S8192_S8192x1 (ix2 n u))) _ = _
  rw [shapeCast_a_a1_apply]
  refine congrArg (fun s => max (Ideal.sqrt s) Cert.Spec.eps) ?_
  refine (Ideal.multiReduction_add_single (mulf (flat0 (F := Ideal) x0) (flat0 (F := Ideal) x0)) 0x00000000#32 reduces_S8192x32_S8192 (.inl rfl) rfl (ix1 n)).trans ?_
  refine Finset.sum_congr rfl fun (k : Fin 32) _ => ?_
  have e : reduces_S8192x32_S8192.lift (ix1 n) k = ix2 n k := funext fun a => Fin.ext (by
    match a with
    | ⟨0, _⟩ => rfl
    | ⟨1, _⟩ => rfl)
  rw [e, mulf_apply, flat0_apply]

/-- A normalised row. -/
theorem qn0_apply (x0 : Vec Ideal S1x8192x32 .f32) (n : Fin 8192) (j : Fin 32) :
    qn0 (F := Ideal) x0 (ix2 n j) = Ideal.div (x0 (ix3 (0 : Fin 1) n j)) (Cert.Spec.gnorm (fun q => x0 (ix3 (0 : Fin 1) n q))) := by
  unfold qn0
  rw [divf_apply, flat0_apply, broadcastTo_a1_ab_apply, nrm0_apply]

/-- A row's score against a phenotype. -/
theorem raw0_apply (x0 : Vec Ideal S1x8192x32 .f32) (x1 : Vec Ideal S1x128x32 .f32) (n : Fin 8192) (p : Fin 128) :
    raw0 (F := Ideal) x0 x1 (ix2 n p) = Cert.Spec.score (fun j => x0 (ix3 (0 : Fin 1) n j)) (fun j => x1 (ix3 (0 : Fin 1) p j)) := by
  unfold raw0 Cert.Spec.score
  simp only [matmul]
  rw [Ideal.matmul_constant_zero_apply, ← Equiv.sum_comp (contrEquiv1 dot_S8192x32_S32x128_S8192x128_1_0_0_1_n_n 32 rfl rfl).symm]
  refine Finset.sum_congr rfl fun k _ => ?_
  have hk := contrEquiv1_symm_val dot_S8192x32_S32x128_S8192x128_1_0_0_1_n_n 32 rfl rfl k
  have el : dot_S8192x32_S32x128_S8192x128_1_0_0_1_n_n.lhsIdx (ix2 n p) ((contrEquiv1 dot_S8192x32_S32x128_S8192x128_1_0_0_1_n_n 32 rfl rfl).symm k) = ix2 n k := funext fun a => Fin.ext (by
    match a with
    | ⟨0, _⟩ => exact lhs1_0 _ _
    | ⟨1, _⟩ => exact (lhs1_1 _ _).trans hk)
  have er : dot_S8192x32_S32x128_S8192x128_1_0_0_1_n_n.rhsIdx (ix2 n p) ((contrEquiv1 dot_S8192x32_S32x128_S8192x128_1_0_0_1_n_n 32 rfl rfl).symm k) = ix2 k p := funext fun a => Fin.ext (by
    match a with
    | ⟨0, _⟩ => exact (rhs1_0 _ _).trans hk
    | ⟨1, _⟩ => exact rhs1_1 _ _)
  rw [el, er, qn0_apply, kt0_apply]

/-- The indicator of a score above one half, as the kernel computes it: the comparison's bit, widened, read as a number. -/
theorem ind_elt (r : EReal) :
    (FloatOps.sitofp (F := Ideal) .f32 (BitVec.setWidth 32 (FloatOps.cmpf (F := Ideal) (φ := .f32) .ogt r (Ideal.ofBits .f32 0x3F000000#32))) : EReal) = Cert.Spec.ind r := by
  unfold Cert.Spec.ind
  rw [Ideal.cmpf_def]
  unfold Ideal.cmp
  by_cases h : Cert.Spec.half < r
  · rw [if_pos h]
    simp only [h, decide_true]
    have e : (BitVec.setWidth 32 (BitVec.ofBool true)).toInt = 1 := by decide
    show (((BitVec.setWidth 32 (BitVec.ofBool true)).toInt : ℝ) : EReal) = 1
    rw [e, Int.cast_one, EReal.coe_one]
  · rw [if_neg h]
    simp only [h, decide_false]
    have e : (BitVec.setWidth 32 (BitVec.ofBool false)).toInt = 0 := by decide
    show (((BitVec.setWidth 32 (BitVec.ofBool false)).toInt : ℝ) : EReal) = 0
    rw [e, Int.cast_zero, EReal.coe_zero]

/-- An entry of the 0/1 matrix. -/
theorem mask0_apply (x0 : Vec Ideal S1x8192x32 .f32) (x1 : Vec Ideal S1x128x32 .f32) (n : Fin 8192) (p : Fin 128) :
    mask0 (F := Ideal) x0 x1 (ix2 n p) = Cert.Spec.ind (Cert.Spec.score (fun j => x0 (ix3 (0 : Fin 1) n j)) (fun j => x1 (ix3 (0 : Fin 1) p j))) := by
  rw [← raw0_apply]
  exact ind_elt _

end Region0

open Region0

/-- THE CONTRIBUTION, entry (p, q): the number of rows of the feature block whose scores against phenotype rows
    p and q both exceed one half. -/
theorem contrib0_apply (x0 : Vec Ideal S1x8192x32 .f32) (x1 : Vec Ideal S1x128x32 .f32) (p q : Fin 128) :
    contrib0 (F := Ideal) x0 x1 (ix2 p q)
      = ∑ n : Fin 8192, Cert.Spec.ind (Cert.Spec.score (fun j => x0 (ix3 (0 : Fin 1) n j)) (fun j => x1 (ix3 (0 : Fin 1) p j)))
          * Cert.Spec.ind (Cert.Spec.score (fun j => x0 (ix3 (0 : Fin 1) n j)) (fun j => x1 (ix3 (0 : Fin 1) q j))) := by
  rw [contrib0_eq]
  simp only [matmul]
  rw [Ideal.matmul_constant_zero_apply, ← Equiv.sum_comp (contrEquiv1 dot_S8192x128_S8192x128_S128x128_0_0_1_1_n_n 8192 rfl rfl).symm]
  refine Finset.sum_congr rfl fun k _ => ?_
  have hk := contrEquiv1_symm_val dot_S8192x128_S8192x128_S128x128_0_0_1_1_n_n 8192 rfl rfl k
  have el : dot_S8192x128_S8192x128_S128x128_0_0_1_1_n_n.lhsIdx (ix2 p q) ((contrEquiv1 dot_S8192x128_S8192x128_S128x128_0_0_1_1_n_n 8192 rfl rfl).symm k) = ix2 k p := funext fun a => Fin.ext (by
    match a with
    | ⟨0, _⟩ => exact (lhs2_0 _ _).trans hk
    | ⟨1, _⟩ => exact lhs2_1 _ _)
  have er : dot_S8192x128_S8192x128_S128x128_0_0_1_1_n_n.rhsIdx (ix2 p q) ((contrEquiv1 dot_S8192x128_S8192x128_S128x128_0_0_1_1_n_n 8192 rfl rfl).symm k) = ix2 k q := funext fun a => Fin.ext (by
    match a with
    | ⟨0, _⟩ => exact (rhs2_0 _ _).trans hk
    | ⟨1, _⟩ => exact rhs2_1 _ _)
  rw [el, er, mask0_apply, mask0_apply]

namespace Region0

/-- One update of the accumulator, at an entry. -/
theorem step_apply (x0 : Vec Ideal S1x8192x32 .f32) (x1 : Vec Ideal S1x128x32 .f32) (a : Vec Ideal S128x128 .f32) (p q : Fin 128) :
    k0_pay2 (F := Ideal) x0 x1 a (ix2 p q) = a (ix2 p q) + contrib0 (F := Ideal) x0 x1 (ix2 p q) := by
  rw [k0_pay2_eq, shapeCast_self, addf_apply]

/-- The zeros a first tile starts from are zero. -/
theorem zeros_apply (p q : Fin 128) : k0_pay1 (F := Ideal) (ix2 p q) = 0 := by
  rw [k0_pay1_eq, shapeCast_self, broadcast_apply]
  exact Ideal.ofBits_zero_f32

end Region0

/-! ## The accumulator as a sum of contributions -/

section AtIdeal
variable (V : (c : Dev nD) → (b : Ref sig .tc) → Buf (Elt Ideal) ((c : Thread nD τ).loc b))

/-- The contribution of the point at position `s` (zero past the grid's end). -/
def contribAt (c : Dev nD) (s : ℕ) : Vec Ideal S128x128 .f32 :=
  if h : s < cfg0.N then contrib0 (F := Ideal) (iblk0 V c 0 ⟨s, h⟩) (iblk0 V c 1 ⟨s, h⟩) else fun _ => (0 : EReal)

theorem contribAt_of_lt (c : Dev nD) (s : ℕ) (h : s < cfg0.N) :
    contribAt V c s = contrib0 (F := Ideal) (iblk0 V c 0 ⟨s, h⟩) (iblk0 V c 1 ⟨s, h⟩) := dif_pos h

/-- THE ACCUMULATOR after the point at position `n`, entry (p, q): the sum of the contributions of the points since
    the last first tile, `n - n % 8` up to `n`. -/
theorem acc0_apply (c : Dev nD) : ∀ (n : ℕ) (hn : n < cfg0.N) (p q : Fin 128),
    acc0 (F := Ideal) V c n hn (ix2 p q) = ∑ k ∈ Finset.range (n % 8 + 1), contribAt V c (n - n % 8 + k) (ix2 p q)
  | 0, hn, p, q => by
    rw [show acc0 (F := Ideal) V c 0 hn = _ from acc0_A V c ⟨0, hn⟩ rfl, step_apply, zeros_apply, zero_add]
    simp only [Nat.zero_mod, Nat.sub_zero, Nat.zero_add, Finset.range_one, Finset.sum_singleton]
    rw [contribAt_of_lt V c 0 hn]
  | n + 1, hn, p, q => by
    by_cases h0 : (n + 1) % 8 = 0
    · rw [show acc0 (F := Ideal) V c (n + 1) hn = _ from acc0_A V c ⟨n + 1, hn⟩ h0, step_apply, zeros_apply, zero_add, h0]
      simp only [Nat.sub_zero, Nat.zero_add, Nat.add_zero, Finset.range_one, Finset.sum_singleton]
      rw [contribAt_of_lt V c (n + 1) hn]
    · rw [show acc0 (F := Ideal) V c (n + 1) hn = _ from acc0_B V c ⟨n + 1, hn⟩ h0, step_apply]
      have ih := acc0_apply c n (Nat.lt_of_succ_lt hn) p q
      have hm : (n + 1) % 8 = n % 8 + 1 := by omega
      have hs : n + 1 - (n % 8 + 1) = n - n % 8 := by omega
      have hl : n - n % 8 + (n % 8 + 1) = n + 1 := by omega
      rw [hm, hs, Finset.sum_range_succ, hl, contribAt_of_lt V c (n + 1) hn]
      exact congrArg (· + _) ih

/-- After the last tile of batch entry `b`: the sum of the entry's eight contributions. -/
theorem acc0_last_apply (c : Dev nD) (b : ℕ) (h : 8 * b + 7 < cfg0.N) (p q : Fin 128) :
    acc0 (F := Ideal) V c (8 * b + 7) h (ix2 p q) = ∑ k ∈ Finset.range 8, contribAt V c (8 * b + k) (ix2 p q) := by
  rw [acc0_apply V c (8 * b + 7) h p q, show (8 * b + 7) % 8 = 7 from by omega, show 8 * b + 7 - 7 = 8 * b from by omega]

end AtIdeal

/-! ## The output array, entry by entry, from the region's input arrays -/

namespace Region0

section Rows
variable {G : FTy → Type} [FloatOps G]
variable (W : (c : Dev nD) → (b : Ref sig .tc) → Buf (Elt G) ((c : Thread nD τ).loc b))

/-- Row `r` of the feature block at tile `k` of batch entry `b` is row `8192 k + r` of the entry's features. -/
theorem row0_eq (c : Dev nD) (b : Fin 2) (k : Fin 8) (hk : 8 * b.val + k.val < cfg0.N) (r : Fin 8192) (hr : 8192 * k.val + r.val < 65536) :
    (fun j : Fin 32 => (iblk0 W c 0 ⟨8 * b.val + k.val, hk⟩ : Vec G S1x8192x32 .f32) (ix3 (0 : Fin 1) r j))
      = fun j : Fin 32 => (W c main_v156 : S2x65536x32.Idx → Elt G .f32) (ix3 b (⟨8192 * k.val + r.val, hr⟩ : Fin 65536) j) := by
  funext j
  have hk8 : k.val < 8 := k.isLt
  exact iblk0_0_at W c ⟨8 * b.val + k.val, hk⟩ _ _
    (by show b.val = (8 * b.val + k.val) / 8; omega)
    (by show 8192 * k.val + r.val = 8192 * ((8 * b.val + k.val) % 8) + r.val; omega) rfl

/-- Row `p` of the phenotype block at any tile of batch entry `b` is row `p` of the entry's phenotypes. -/
theorem phen0_eq (c : Dev nD) (b : Fin 2) (k : Fin 8) (hk : 8 * b.val + k.val < cfg0.N) (p : Fin 128) :
    (fun j : Fin 32 => (iblk0 W c 1 ⟨8 * b.val + k.val, hk⟩ : Vec G S1x128x32 .f32) (ix3 (0 : Fin 1) p j))
      = fun j : Fin 32 => (W c main_v4 : S2x128x32.Idx → Elt G .f32) (ix3 b p j) := by
  funext j
  have hk8 : k.val < 8 := k.isLt
  exact iblk0_1_at W c ⟨8 * b.val + k.val, hk⟩ _ _
    (by show b.val = (8 * b.val + k.val) / 8; omega) rfl rfl

end Rows

end Region0

section Entry
variable (V : (c : Dev nD) → (b : Ref sig .tc) → Buf (Elt Ideal) ((c : Thread nD τ).loc b))

/-- THE INTERSECTION COUNTS. Entry (b, p, q) of the region's output array: the number of pixels of batch entry `b`
    (its eight tiles of 8192 rows) whose scores against phenotype rows p and q both exceed one half. -/
theorem I_entry (c : Dev nD) (b : Fin 2) (p q : Fin 128) :
    ((dat0 (F := Ideal) V c).arrAt 2 cfg0.N : S2x128x128.Idx → EReal) (ix3 b p q)
      = ∑ k : Fin 8, ∑ r : Fin 8192,
          Cert.Spec.ind (Cert.Spec.score
              (fun j => (V c main_v156 : S2x65536x32.Idx → EReal) (ix3 b (⟨8192 * k.val + r.val, by have := k.isLt; have := r.isLt; omega⟩ : Fin 65536) j))
              (fun j => (V c main_v4 : S2x128x32.Idx → EReal) (ix3 b p j)))
          * Cert.Spec.ind (Cert.Spec.score
              (fun j => (V c main_v156 : S2x65536x32.Idx → EReal) (ix3 b (⟨8192 * k.val + r.val, by have := k.isLt; have := r.isLt; omega⟩ : Fin 65536) j))
              (fun j => (V c main_v4 : S2x128x32.Idx → EReal) (ix3 b q j))) := by
  have hN : cfg0.N = 16 := N_0
  have hb : b.val < 2 := b.isLt
  have h : 8 * b.val + 7 < cfg0.N := by omega
  show @Eq EReal _ _
  rw [final0_2_apply V c b p q h, acc0_last_apply V c b.val h p q, Finset.sum_range]
  refine Finset.sum_congr rfl fun k _ => ?_
  have hk8 : k.val < 8 := k.isLt
  have hk : 8 * b.val + k.val < cfg0.N := by omega
  rw [contribAt_of_lt V c _ hk, contrib0_apply]
  refine Finset.sum_congr rfl fun r _ => ?_
  have hr : 8192 * k.val + r.val < 65536 := by have := r.isLt; omega
  rw [row0_eq V c b k hk r hr, phen0_eq V c b k hk p, phen0_eq V c b k hk q]

end Entry

end Cert.KernelIdeal.Hand

end
-- ==== Proof.BridgeFinal.lean ====
/-
  The two programs' results are one array, at the extended reals.

  Entry (b, n, p) of the kernel's result is max(score, 0) · survivor(b, p) (the second region's block, read at its
  place in the array); the reference's is the same expression of its own stages. The scores are equal because both
  programs score the same pixel rows against the same normalised phenotypes; the survivors are equal because they are
  the same operations applied to the intersection counts, the mask areas, the fitnesses and the `alive` argument,
  each of which the two programs compute equally.
-/
import proofs.«134385_j4260607558106_2_alg».proof.Proof.BridgeOut
import proofs.«134385_j4260607558106_2_alg».proof.Proof.BridgeI
import proofs.«134385_j4260607558106_2_alg».proof.Proof.HostRead1
import proofs.«134385_j4260607558106_2_alg».proof.Proof.HostRead2
import proofs.«134385_j4260607558106_2_alg».proof.Proof.HostDiag
import proofs.«134385_j4260607558106_2_alg».proof.Proof.HandKernelIdeal.Reg0Value

noncomputable section

namespace Cert.Bridge

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- The kernel program's result array is the reference's last stage at the same arguments, given that the two programs
    compute the same fitnesses. -/
theorem final_of (hfit : (W8 m c (Proc.devRef .tc main_v155) : S2x128x1.Idx → EReal)
      = Cert.ReferenceIdeal.ReadP.val_main_v157 (F := Ideal) (m ((c.tc : Thread nD τ).loc main_arg0)) (m ((c.tc : Thread nD τ).loc main_arg1))
          (m ((c.tc : Thread nD τ).loc main_arg2))) :
    (a1 m c 3 : S2x65536x128.Idx → EReal)
    = Cert.ReferenceIdeal.ReadP.val_main_v222 (F := Ideal) (m ((c.tc : Thread nD τ).loc main_arg0)) (m ((c.tc : Thread nD τ).loc main_arg1))
        (m ((c.tc : Thread nD τ).loc main_arg2)) (m ((c.tc : Thread nD τ).loc main_arg3)) := by
  have h156 := v156_eq (F := Ideal) m c
  have h4 := v4_eq (F := Ideal) m c
  have hI := I_eq m c _ _ h156 h4 (fun b p q => I_entry (V8 m) c b p q)
  have hs := s_eq m c _ _ h156 h4 (fun b p q => I_entry (V8 m) c b p q) (fun b p => diag_apply m (a0 m) c b p)
  exact result_eq m c _ _ _ _ h156 h4 (tail_eq_of m (a0 m) c hI hs hfit)

end Cert.Bridge

end
-- ==== Proof.HostFitB.lean ====
/-
  The fit column, second half. The bilinear sample of the image at an agent's position is the sum of the four corner
  samples, each times its weight spread over the features; the sample is divided by its guarded norm, multiplied feature
  by feature with the agent's normalised phenotype, summed over the features and kept as a column. Given that the four
  corner samples and the four weights are the reference's, the kernel program's host operations compute these same
  operations in the same order as the reference, so each later array is the reference's.
-/
import proofs.«134385_j4260607558106_2_alg».proof.Proof.HandKernelIdeal.Fold
import proofs.«134385_j4260607558106_2_alg».proof.Proof.RefReadP
import proofs.«134385_j4260607558106_2_alg».proof.Proof.RefValue
import proofs.«134385_j4260607558106_2_alg».proof.Proof.HostRead1

set_option maxRecDepth 8192

noncomputable section

namespace Cert.Bridge

open Cert.KernelIdeal Cert.KernelIdeal.Gen Cert.KernelIdeal.Hand
open Idealize.ShloMosaic Idealize.ShloMosaic.TcCoe Idealize.ShloMosaic.StableHlo
open Idealize.SL.Sem

variable {F : FTy → Type} [FloatOps F]
variable (m : (ℓ : Loc nD τ sig) → Buf (Elt F) ℓ)

set_option maxHeartbeats 32000000 in
/-- The bilinear sample: the four corner samples times their weights, summed. -/
theorem pv_eq_of (c : Dev nD)
    (h63 : (W6 m c (Proc.devRef .tc main_v63) : S2x128x32.Idx → Elt F .f32)
      = Cert.ReferenceIdeal.ReadP.val_main_v60 (F := F) (m ((c.tc : Thread nD τ).loc main_arg0)) (m ((c.tc : Thread nD τ).loc main_arg2)))
    (h89 : (W6 m c (Proc.devRef .tc main_v89) : S2x128x32.Idx → Elt F .f32)
      = Cert.ReferenceIdeal.ReadP.val_main_v86 (F := F) (m ((c.tc : Thread nD τ).loc main_arg0)) (m ((c.tc : Thread nD τ).loc main_arg2)))
    (h116 : (W6 m c (Proc.devRef .tc main_v116) : S2x128x32.Idx → Elt F .f32)
      = Cert.ReferenceIdeal.ReadP.val_main_v113 (F := F) (m ((c.tc : Thread nD τ).loc main_arg0)) (m ((c.tc : Thread nD τ).loc main_arg2)))
    (h143 : (W6 m c (Proc.devRef .tc main_v143) : S2x128x32.Idx → Elt F .f32)
      = Cert.ReferenceIdeal.ReadP.val_main_v140 (F := F) (m ((c.tc : Thread nD τ).loc main_arg0)) (m ((c.tc : Thread nD τ).loc main_arg2)))
    (h38 : (W6 m c (Proc.devRef .tc main_v38) : S2x128.Idx → Elt F .f32)
      = Cert.ReferenceIdeal.ReadP.val_main_v34 (F := F) (m ((c.tc : Thread nD τ).loc main_arg2)))
    (h35 : (W6 m c (Proc.devRef .tc main_v35) : S2x128.Idx → Elt F .f32)
      = Cert.ReferenceIdeal.ReadP.val_main_v31 (F := F) (m ((c.tc : Thread nD τ).loc main_arg2)))
    (h32 : (W6 m c (Proc.devRef .tc main_v32) : S2x128.Idx → Elt F .f32)
      = Cert.ReferenceIdeal.ReadP.val_main_v28 (F := F) (m ((c.tc : Thread nD τ).loc main_arg2)))
    (h29 : (W6 m c (Proc.devRef .tc main_v29) : S2x128.Idx → Elt F .f32)
      = Cert.ReferenceIdeal.ReadP.val_main_v25 (F := F) (m ((c.tc : Thread nD τ).loc main_arg2))) :
    (W6 m c (Proc.devRef .tc main_v147) : S2x128x32.Idx → Elt F .f32)
      = Cert.ReferenceIdeal.ReadP.val_main_v144 (F := F) (m ((c.tc : Thread nD τ).loc main_arg0)) (m ((c.tc : Thread nD τ).loc main_arg2)) := by
  have k63 : StableHlo.after hostOps0_5 (W5 m c) (Proc.devRef .tc main_v63) = _ := h63
  have k89 : StableHlo.after hostOps0_5 (W5 m c) (Proc.devRef .tc main_v89) = _ := h89
  have k116 : StableHlo.after hostOps0_5 (W5 m c) (Proc.devRef .tc main_v116) = _ := h116
  have k143 : StableHlo.after hostOps0_5 (W5 m c) (Proc.devRef .tc main_v143) = _ := h143
  have k38 : StableHlo.after hostOps0_5 (W5 m c) (Proc.devRef .tc main_v38) = _ := h38
  have k35 : StableHlo.after hostOps0_5 (W5 m c) (Proc.devRef .tc main_v35) = _ := h35
  have k32 : StableHlo.after hostOps0_5 (W5 m c) (Proc.devRef .tc main_v32) = _ := h32
  have k29 : StableHlo.after hostOps0_5 (W5 m c) (Proc.devRef .tc main_v29) = _ := h29
  clear h63 h89 h116 h143 h38 h35 h32 h29
  show StableHlo.after hostOps0_5 (W5 m c) (Proc.devRef .tc main_v147) = _
  generalize W5 m c = V at k63 k89 k116 k143 k38 k35 k32 k29 ⊢
  simp only [hostOps0_5] at k63 k89 k116 k143 k38 k35 k32 k29 ⊢
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne'] at k63 k89 k116 k143 k38 k35 k32 k29 ⊢
  rw [k63, k89, k116, k143, k38, k35, k32, k29]
  unfold Cert.ReferenceIdeal.ReadP.val_main_v144 Cert.ReferenceIdeal.ReadP.val_main_v143 Cert.ReferenceIdeal.ReadP.val_main_v142 Cert.ReferenceIdeal.ReadP.val_main_v141 Cert.ReferenceIdeal.ReadP.val_main_v117 Cert.ReferenceIdeal.ReadP.val_main_v116 Cert.ReferenceIdeal.ReadP.val_main_v115 Cert.ReferenceIdeal.ReadP.val_main_v114 Cert.ReferenceIdeal.ReadP.val_main_v90 Cert.ReferenceIdeal.ReadP.val_main_v89 Cert.ReferenceIdeal.ReadP.val_main_v88 Cert.ReferenceIdeal.ReadP.val_main_v87 Cert.ReferenceIdeal.ReadP.val_main_v63 Cert.ReferenceIdeal.ReadP.val_main_v62 Cert.ReferenceIdeal.ReadP.val_main_v61
  rfl

set_option maxHeartbeats 4000000 in
/-- The norm's operations leave the bilinear sample where it is. -/
theorem W7_v147 (c : Dev nD) :
    W7 m c (Proc.devRef .tc main_v147) = W6 m c (Proc.devRef .tc main_v147) := by
  show StableHlo.after hostOps0_6 (W6 m c) (Proc.devRef .tc main_v147) = _
  simp only [hostOps0_6]
  after_results_simp

set_option maxHeartbeats 4000000 in
/-- The norm of the bilinear sample's rows. -/
theorem pvnorm_eq_of (c : Dev nD)
    (hpv : (W6 m c (Proc.devRef .tc main_v147) : S2x128x32.Idx → Elt F .f32)
      = Cert.ReferenceIdeal.ReadP.val_main_v144 (F := F) (m ((c.tc : Thread nD τ).loc main_arg0)) (m ((c.tc : Thread nD τ).loc main_arg2))) :
    (W7 m c (Proc.devRef .tc main_v148) : S2x128x1.Idx → Elt F .f32)
      = Cert.ReferenceIdeal.ReadP.val_main_v145 (F := F) (m ((c.tc : Thread nD τ).loc main_arg0)) (m ((c.tc : Thread nD τ).loc main_arg2)) := by
  show StableHlo.after hostOps0_6 (W6 m c) (Proc.devRef .tc main_v148) = _
  generalize W6 m c = V at hpv ⊢
  simp only [hostOps0_6]
  after_results_simp
  simp only [cast_eq]
  rw [hpv]
  unfold Cert.ReferenceIdeal.ReadP.val_main_v145 Cert.ReferenceIdeal.ReadP.val_main_call2_v2 Cert.ReferenceIdeal.ReadP.val_main_call2_v1 Cert.ReferenceIdeal.ReadP.val_main_call2_cst Cert.ReferenceIdeal.ReadP.val_main_call2_v0
  rfl

set_option maxHeartbeats 4000000 in
/-- The last stretch's operations leave the normalised phenotypes where they are. -/
theorem W8_v4 (c : Dev nD) :
    W8 m c (Proc.devRef .tc main_v4) = W7 m c (Proc.devRef .tc main_v4) := by
  show StableHlo.after hostOps0_7 (W7 m c) (Proc.devRef .tc main_v4) = _
  simp only [hostOps0_7]
  after_results_simp

set_option maxHeartbeats 8000000 in
/-- THE FIT COLUMN, from the bilinear sample: normalise, multiply by the normalised phenotypes, sum the features. -/
theorem fit_eq_of_pv (c : Dev nD)
    (hpv : (W6 m c (Proc.devRef .tc main_v147) : S2x128x32.Idx → Elt F .f32)
      = Cert.ReferenceIdeal.ReadP.val_main_v144 (F := F) (m ((c.tc : Thread nD τ).loc main_arg0)) (m ((c.tc : Thread nD τ).loc main_arg2))) :
    (W8 m c (Proc.devRef .tc main_v155) : S2x128x1.Idx → Elt F .f32)
      = Cert.ReferenceIdeal.ReadP.val_main_v157 (F := F) (m ((c.tc : Thread nD τ).loc main_arg0)) (m ((c.tc : Thread nD τ).loc main_arg1)) (m ((c.tc : Thread nD τ).loc main_arg2)) := by
  have h147 : (W7 m c (Proc.devRef .tc main_v147) : S2x128x32.Idx → Elt F .f32)
      = Cert.ReferenceIdeal.ReadP.val_main_v144 (F := F) (m ((c.tc : Thread nD τ).loc main_arg0)) (m ((c.tc : Thread nD τ).loc main_arg2)) := (W7_v147 m c).trans hpv
  have h148 := pvnorm_eq_of m c hpv
  have h4 : (W7 m c (Proc.devRef .tc main_v4) : S2x128x32.Idx → Elt F .f32)
      = Cert.ReferenceIdeal.ReadP.val_main_v154 (F := F) (m ((c.tc : Thread nD τ).loc main_arg1)) :=
    ((W8_v4 m c).symm.trans (v4_eq m c)).trans (Cert.RefValue.phen_twice _).symm
  show StableHlo.after hostOps0_7 (W7 m c) (Proc.devRef .tc main_v155) = _
  generalize W7 m c = V at h147 h148 h4 ⊢
  simp only [hostOps0_7]
  after_results_simp
  rw [h147, h148, h4]
  unfold Cert.ReferenceIdeal.ReadP.val_main_v157 Cert.ReferenceIdeal.ReadP.val_main_v156 Cert.ReferenceIdeal.ReadP.val_main_cst_34 Cert.ReferenceIdeal.ReadP.val_main_v155 Cert.ReferenceIdeal.ReadP.val_main_v149 Cert.ReferenceIdeal.ReadP.val_main_v148 Cert.ReferenceIdeal.ReadP.val_main_v147 Cert.ReferenceIdeal.ReadP.val_main_v146 Cert.ReferenceIdeal.ReadP.val_main_cst_32
  rfl

/-- THE FIT COLUMN, from the four corner samples and their weights. -/
theorem fit_eq_of (c : Dev nD)
    (h63 : (W6 m c (Proc.devRef .tc main_v63) : S2x128x32.Idx → Elt F .f32)
      = Cert.ReferenceIdeal.ReadP.val_main_v60 (F := F) (m ((c.tc : Thread nD τ).loc main_arg0)) (m ((c.tc : Thread nD τ).loc main_arg2)))
    (h89 : (W6 m c (Proc.devRef .tc main_v89) : S2x128x32.Idx → Elt F .f32)
      = Cert.ReferenceIdeal.ReadP.val_main_v86 (F := F) (m ((c.tc : Thread nD τ).loc main_arg0)) (m ((c.tc : Thread nD τ).loc main_arg2)))
    (h116 : (W6 m c (Proc.devRef .tc main_v116) : S2x128x32.Idx → Elt F .f32)
      = Cert.ReferenceIdeal.ReadP.val_main_v113 (F := F) (m ((c.tc : Thread nD τ).loc main_arg0)) (m ((c.tc : Thread nD τ).loc main_arg2)))
    (h143 : (W6 m c (Proc.devRef .tc main_v143) : S2x128x32.Idx → Elt F .f32)
      = Cert.ReferenceIdeal.ReadP.val_main_v140 (F := F) (m ((c.tc : Thread nD τ).loc main_arg0)) (m ((c.tc : Thread nD τ).loc main_arg2)))
    (h38 : (W6 m c (Proc.devRef .tc main_v38) : S2x128.Idx → Elt F .f32)
      = Cert.ReferenceIdeal.ReadP.val_main_v34 (F := F) (m ((c.tc : Thread nD τ).loc main_arg2)))
    (h35 : (W6 m c (Proc.devRef .tc main_v35) : S2x128.Idx → Elt F .f32)
      = Cert.ReferenceIdeal.ReadP.val_main_v31 (F := F) (m ((c.tc : Thread nD τ).loc main_arg2)))
    (h32 : (W6 m c (Proc.devRef .tc main_v32) : S2x128.Idx → Elt F .f32)
      = Cert.ReferenceIdeal.ReadP.val_main_v28 (F := F) (m ((c.tc : Thread nD τ).loc main_arg2)))
    (h29 : (W6 m c (Proc.devRef .tc main_v29) : S2x128.Idx → Elt F .f32)
      = Cert.ReferenceIdeal.ReadP.val_main_v25 (F := F) (m ((c.tc : Thread nD τ).loc main_arg2))) :
    (W8 m c (Proc.devRef .tc main_v155) : S2x128x1.Idx → Elt F .f32)
      = Cert.ReferenceIdeal.ReadP.val_main_v157 (F := F) (m ((c.tc : Thread nD τ).loc main_arg0)) (m ((c.tc : Thread nD τ).loc main_arg1)) (m ((c.tc : Thread nD τ).loc main_arg2)) :=
  fit_eq_of_pv m c (pv_eq_of m c h63 h89 h116 h143 h38 h35 h32 h29)

end Cert.Bridge

end
-- ==== Proof.HostFitW.lean ====
/-
  The fit column, the bilinear weights. An agent's position (two numbers in [-1, 1]) is scaled to image coordinates
  h = clip((p₀ + 1) · 256 · ½, 0, 255) and w likewise from p₁; the four corner weights are the products of the distances
  of h and w to their floors and ceilings. The kernel program's host operations compute these by the same operations in
  the same order as the reference, so the clipped coordinates and the four weights are the reference's.
-/
import proofs.«134385_j4260607558106_2_alg».proof.Proof.HandKernelIdeal.Fold
import proofs.«134385_j4260607558106_2_alg».proof.Proof.RefReadP

set_option maxRecDepth 8192

noncomputable section

namespace Cert.Bridge

open Cert.KernelIdeal Cert.KernelIdeal.Gen Cert.KernelIdeal.Hand
open Idealize.ShloMosaic Idealize.ShloMosaic.TcCoe Idealize.ShloMosaic.StableHlo
open Idealize.SL.Sem

variable {F : FTy → Type} [FloatOps F]
variable (m : (ℓ : Loc nD τ sig) → Buf (Elt F) ℓ)

set_option maxHeartbeats 16000000 in
/-- The clipped row coordinate h, as the bilinear stretch finds it. -/
theorem h21_eq (c : Dev nD) :
    (W5 m c (Proc.devRef .tc main_v21) : S2x128.Idx → Elt F .f32)
      = Cert.ReferenceIdeal.ReadP.val_main_v17 (F := F) (m ((c.tc : Thread nD τ).loc main_arg2)) := by
  show StableHlo.after hostOps0_4 (StableHlo.after hostOps0_3 (StableHlo.after hostOps0_2 (StableHlo.after hostOps0_1 (StableHlo.after hostOps0 (W0 m c))))) (Proc.devRef .tc main_v21) = _
  simp only [hostOps0_4, hostOps0_3, hostOps0_2, hostOps0_1, hostOps0]
  after_results_simp
  simp only [cast_eq]
  unfold Cert.ReferenceIdeal.ReadP.val_main_v17 Cert.ReferenceIdeal.ReadP.val_main_call0_v4 Cert.ReferenceIdeal.ReadP.val_main_call0_v3 Cert.ReferenceIdeal.ReadP.val_main_call0_v2 Cert.ReferenceIdeal.ReadP.val_main_call0_v1 Cert.ReferenceIdeal.ReadP.val_main_call0_v0 Cert.ReferenceIdeal.ReadP.val_main_c Cert.ReferenceIdeal.ReadP.val_main_cst_5 Cert.ReferenceIdeal.ReadP.val_main_v8 Cert.ReferenceIdeal.ReadP.val_main_v7 Cert.ReferenceIdeal.ReadP.val_main_cst_1 Cert.ReferenceIdeal.ReadP.val_main_v6 Cert.ReferenceIdeal.ReadP.val_main_v5 Cert.ReferenceIdeal.ReadP.val_main_cst_0 Cert.ReferenceIdeal.ReadP.val_main_v4 Cert.ReferenceIdeal.ReadP.val_main_v3 Cert.ReferenceIdeal.ReadP.val_main_cst Cert.ReferenceIdeal.ReadP.val_main_v2 Cert.ReferenceIdeal.ReadP.val_main_v1
  rfl

set_option maxHeartbeats 16000000 in
/-- The clipped column coordinate w, as the bilinear stretch finds it. -/
theorem w22_eq (c : Dev nD) :
    (W5 m c (Proc.devRef .tc main_v22) : S2x128.Idx → Elt F .f32)
      = Cert.ReferenceIdeal.ReadP.val_main_v18 (F := F) (m ((c.tc : Thread nD τ).loc main_arg2)) := by
  show StableHlo.after hostOps0_4 (StableHlo.after hostOps0_3 (StableHlo.after hostOps0_2 (StableHlo.after hostOps0_1 (StableHlo.after hostOps0 (W0 m c))))) (Proc.devRef .tc main_v22) = _
  simp only [hostOps0_4, hostOps0_3, hostOps0_2, hostOps0_1, hostOps0]
  after_results_simp
  simp only [cast_eq]
  unfold Cert.ReferenceIdeal.ReadP.val_main_v18 Cert.ReferenceIdeal.ReadP.val_main_call1_v4 Cert.ReferenceIdeal.ReadP.val_main_call1_v3 Cert.ReferenceIdeal.ReadP.val_main_call1_v2 Cert.ReferenceIdeal.ReadP.val_main_call1_v1 Cert.ReferenceIdeal.ReadP.val_main_call1_v0 Cert.ReferenceIdeal.ReadP.val_main_c_7 Cert.ReferenceIdeal.ReadP.val_main_cst_6 Cert.ReferenceIdeal.ReadP.val_main_v16 Cert.ReferenceIdeal.ReadP.val_main_v15 Cert.ReferenceIdeal.ReadP.val_main_cst_4 Cert.ReferenceIdeal.ReadP.val_main_v14 Cert.ReferenceIdeal.ReadP.val_main_v13 Cert.ReferenceIdeal.ReadP.val_main_cst_3 Cert.ReferenceIdeal.ReadP.val_main_v12 Cert.ReferenceIdeal.ReadP.val_main_v11 Cert.ReferenceIdeal.ReadP.val_main_cst_2 Cert.ReferenceIdeal.ReadP.val_main_v10 Cert.ReferenceIdeal.ReadP.val_main_v9
  rfl

set_option maxHeartbeats 16000000 in
/-- The weight of the corner (floor h, floor w): (ceil h − h) · (ceil w − w). -/
theorem w38_eq (c : Dev nD) :
    (W6 m c (Proc.devRef .tc main_v38) : S2x128.Idx → Elt F .f32)
      = Cert.ReferenceIdeal.ReadP.val_main_v34 (F := F) (m ((c.tc : Thread nD τ).loc main_arg2)) := by
  have h21 := h21_eq m c
  have h22 := w22_eq m c
  show StableHlo.after hostOps0_5 (W5 m c) (Proc.devRef .tc main_v38) = _
  generalize W5 m c = V at h21 h22 ⊢
  simp only [hostOps0_5]
  after_results_simp
  rw [h21, h22]
  unfold Cert.ReferenceIdeal.ReadP.val_main_v34 Cert.ReferenceIdeal.ReadP.val_main_v33 Cert.ReferenceIdeal.ReadP.val_main_v32 Cert.ReferenceIdeal.ReadP.val_main_v22 Cert.ReferenceIdeal.ReadP.val_main_v21
  rfl

set_option maxHeartbeats 16000000 in
/-- The weight of the corner (floor h, ceil w): (ceil h − h) · (w − floor w). -/
theorem w35_eq (c : Dev nD) :
    (W6 m c (Proc.devRef .tc main_v35) : S2x128.Idx → Elt F .f32)
      = Cert.ReferenceIdeal.ReadP.val_main_v31 (F := F) (m ((c.tc : Thread nD τ).loc main_arg2)) := by
  have h21 := h21_eq m c
  have h22 := w22_eq m c
  show StableHlo.after hostOps0_5 (W5 m c) (Proc.devRef .tc main_v35) = _
  generalize W5 m c = V at h21 h22 ⊢
  simp only [hostOps0_5]
  after_results_simp
  rw [h21, h22]
  unfold Cert.ReferenceIdeal.ReadP.val_main_v31 Cert.ReferenceIdeal.ReadP.val_main_v30 Cert.ReferenceIdeal.ReadP.val_main_v29 Cert.ReferenceIdeal.ReadP.val_main_v21 Cert.ReferenceIdeal.ReadP.val_main_v20
  rfl

set_option maxHeartbeats 16000000 in
/-- The weight of the corner (ceil h, floor w): (h − floor h) · (ceil w − w). -/
theorem w32_eq (c : Dev nD) :
    (W6 m c (Proc.devRef .tc main_v32) : S2x128.Idx → Elt F .f32)
      = Cert.ReferenceIdeal.ReadP.val_main_v28 (F := F) (m ((c.tc : Thread nD τ).loc main_arg2)) := by
  have h21 := h21_eq m c
  have h22 := w22_eq m c
  show StableHlo.after hostOps0_5 (W5 m c) (Proc.devRef .tc main_v32) = _
  generalize W5 m c = V at h21 h22 ⊢
  simp only [hostOps0_5]
  after_results_simp
  rw [h21, h22]
  unfold Cert.ReferenceIdeal.ReadP.val_main_v28 Cert.ReferenceIdeal.ReadP.val_main_v27 Cert.ReferenceIdeal.ReadP.val_main_v26 Cert.ReferenceIdeal.ReadP.val_main_v22 Cert.ReferenceIdeal.ReadP.val_main_v19
  rfl

set_option maxHeartbeats 16000000 in
/-- The weight of the corner (ceil h, ceil w): (h − floor h) · (w − floor w). -/
theorem w29_eq (c : Dev nD) :
    (W6 m c (Proc.devRef .tc main_v29) : S2x128.Idx → Elt F .f32)
      = Cert.ReferenceIdeal.ReadP.val_main_v25 (F := F) (m ((c.tc : Thread nD τ).loc main_arg2)) := by
  have h21 := h21_eq m c
  have h22 := w22_eq m c
  show StableHlo.after hostOps0_5 (W5 m c) (Proc.devRef .tc main_v29) = _
  generalize W5 m c = V at h21 h22 ⊢
  simp only [hostOps0_5]
  after_results_simp
  rw [h21, h22]
  unfold Cert.ReferenceIdeal.ReadP.val_main_v25 Cert.ReferenceIdeal.ReadP.val_main_v24 Cert.ReferenceIdeal.ReadP.val_main_v23 Cert.ReferenceIdeal.ReadP.val_main_v20 Cert.ReferenceIdeal.ReadP.val_main_v19
  rfl

end Cert.Bridge

end
-- ==== Proof.LibNary3.lean ====
/-
  A three-operand operation's result, with each operand's contents at its own reference.

  An operation over a family of operands hands its function the family of their contents, k ↦ (contents at operand k).
  For a literal family of three references the family of contents is the literal triple of the three contents: at
  k = 0, 1, 2 both give the contents at the first, the second, the third reference.  Stated with the triple, the
  contents of each operand stand at a literal reference and can be rewritten further one by one.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of an operation over the literal family of three references x, a, b: its function at the triple of
    the contents at x, at a and at b. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]
  congr 1
  funext k
  fin_cases k <;> rfl

end Cert.LibNary3

end
-- ==== Proof.HostFitA.lean ====
/-
  The bilinear read of the feature array at the agents' positions: the corner read at (floor h, floor w), the
  feature rows gathered at the batch index and the two floored, wrapped coordinates, as the host operations
  before the first kernel region leave it.  It is the same composition of array operations as the reference's
  stage; the reference reads the feature array through a transpose and its inverse, which cancel.
-/
import proofs.«134385_j4260607558106_2_alg».proof.Proof.HandKernelIdeal.Fold
import proofs.«134385_j4260607558106_2_alg».proof.Proof.RefReadP
import proofs.«134385_j4260607558106_2_alg».proof.Proof.RefValue
import proofs.«134385_j4260607558106_2_alg».proof.Proof.LibNary3
import proofs.«134385_j4260607558106_2_alg».proof.Proof.HostFitW

set_option maxRecDepth 16384

noncomputable section

namespace Cert.Bridge

open Cert.KernelIdeal Cert.KernelIdeal.Gen Cert.KernelIdeal.Hand
open Idealize.ShloMosaic Idealize.ShloMosaic.TcCoe Idealize.ShloMosaic.StableHlo
open Idealize.SL.Sem

section Nary3
variable {τ : Topo} {sig : RefSig} {Val : EltTy → Type} {x a b y : Ref sig .tc}

/-- The three-operand result with each operand's contents at its own reference, keyed for rewriting under
    any result reference. -/
theorem g63_nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  Cert.LibNary3.nary3_result f hxs hy F
end Nary3

/-- One pass rewriting every operation of a literal list to its function at its operands' contents. -/
local macro "host_results" : tactic =>
  `(tactic| (simp (disch := decide) only [after_cons, after_nil,
      nullary_result', unary_result', binary_result', ternary_result', quaternary_result', reshape_result', g63_nary3_result',
      unaryIndexed_result', binaryIndexed_result',
      nullary_result_ne', unary_result_ne', binary_result_ne', ternary_result_ne', quaternary_result_ne', reshape_result_ne',
      nary_result_ne', unaryIndexed_result_ne', binaryIndexed_result_ne']))

/-- The same rewriting, one operation at a time. -/
local macro "host_results_rw" : tactic =>
  `(tactic| repeat (first
      | rw [nullary_result] | rw [unary_result] | rw [binary_result] | rw [ternary_result] | rw [reshape_result]
      | rw [Cert.LibNary3.nary3_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

variable {F : FTy → Type} [FloatOps F]
variable (m : (ℓ : Loc nD τ sig) → Buf (Elt F) ℓ)

set_option maxHeartbeats 16000000 in
/-- The feature array is not written before the bilinear stretch. -/
theorem g63_W5_arg0 (c : Dev nD) :
    W5 m c (Proc.devRef .tc main_arg0) = W0 m c (Proc.devRef .tc main_arg0) := by
  show StableHlo.after hostOps0_4 (StableHlo.after hostOps0_3 (StableHlo.after hostOps0_2
    (StableHlo.after hostOps0_1 (StableHlo.after hostOps0 (W0 m c))))) (Proc.devRef .tc main_arg0) = _
  simp only [hostOps0_4, hostOps0_3, hostOps0_2, hostOps0_1, hostOps0]
  after_results_simp

set_option maxHeartbeats 64000000 in
/-- The feature rows read at (floor h, floor w). -/
theorem g63_eq (c : Dev nD) :
    (W6 m c (Proc.devRef .tc main_v63) : S2x128x32.Idx → Elt F .f32)
      = Cert.ReferenceIdeal.ReadP.val_main_v60 (F := F) (m ((c.tc : Thread nD τ).loc main_arg0))
          (m ((c.tc : Thread nD τ).loc main_arg2)) := by
  have h21 := h21_eq m c
  have h22 := w22_eq m c
  have h0 := g63_W5_arg0 m c
  show StableHlo.after hostOps0_5 (W5 m c) (Proc.devRef .tc main_v63) = _
  generalize W5 m c = V at h21 h22 h0 ⊢
  simp only [hostOps0_5]
  host_results
  host_results_rw
  rw [h21, h22, h0]
  unfold
    Cert.ReferenceIdeal.ReadP.val_main_v60 Cert.ReferenceIdeal.ReadP.val_main_v59 Cert.ReferenceIdeal.ReadP.val_main_v58
    Cert.ReferenceIdeal.ReadP.val_main_v57 Cert.ReferenceIdeal.ReadP.val_main_v56 Cert.ReferenceIdeal.ReadP.val_main_v55
    Cert.ReferenceIdeal.ReadP.val_main_v54 Cert.ReferenceIdeal.ReadP.val_main_v53 Cert.ReferenceIdeal.ReadP.val_main_v52
    Cert.ReferenceIdeal.ReadP.val_main_c_13 Cert.ReferenceIdeal.ReadP.val_main_v51 Cert.ReferenceIdeal.ReadP.val_main_v50
    Cert.ReferenceIdeal.ReadP.val_main_c_12 Cert.ReferenceIdeal.ReadP.val_main_v49 Cert.ReferenceIdeal.ReadP.val_main_v48
    Cert.ReferenceIdeal.ReadP.val_main_v47 Cert.ReferenceIdeal.ReadP.val_main_c_11 Cert.ReferenceIdeal.ReadP.val_main_v46
    Cert.ReferenceIdeal.ReadP.val_main_v45 Cert.ReferenceIdeal.ReadP.val_main_c_10 Cert.ReferenceIdeal.ReadP.val_main_v44
    Cert.ReferenceIdeal.ReadP.val_main_v43 Cert.ReferenceIdeal.ReadP.val_main_v42 Cert.ReferenceIdeal.ReadP.val_main_c_9
    Cert.ReferenceIdeal.ReadP.val_main_v41 Cert.ReferenceIdeal.ReadP.val_main_v40 Cert.ReferenceIdeal.ReadP.val_main_c_8
    Cert.ReferenceIdeal.ReadP.val_main_v39 Cert.ReferenceIdeal.ReadP.val_main_v38 Cert.ReferenceIdeal.ReadP.val_main_v37
    Cert.ReferenceIdeal.ReadP.val_main_v36 Cert.ReferenceIdeal.ReadP.val_main_v20 Cert.ReferenceIdeal.ReadP.val_main_v19
  rw [Cert.RefValue.im_eq]
  rfl

end Cert.Bridge

end
-- ==== Proof.HostFitG89.lean ====
/-
  The fit column, one of the four corner samples: the image gathered at (batch, floor h, ceil w) for every agent.
  The index triples are built from the clipped coordinates by the same operations, in the same order, as the
  reference's (convert to integers, wrap a negative index, lay the three columns side by side), and the gather reads
  the image itself, which the reference reaches through a layout round trip that is the identity.
-/
import proofs.«134385_j4260607558106_2_alg».proof.Proof.HandKernelIdeal.Fold
import proofs.«134385_j4260607558106_2_alg».proof.Proof.RefReadP
import proofs.«134385_j4260607558106_2_alg».proof.Proof.RefValue

set_option maxRecDepth 16384

noncomputable section

namespace Cert.Bridge

open Cert.KernelIdeal Cert.KernelIdeal.Gen Cert.KernelIdeal.Hand
open Idealize.ShloMosaic Idealize.ShloMosaic.TcCoe Idealize.ShloMosaic.StableHlo
open Idealize.SL.Sem

variable {F : FTy → Type} [FloatOps F]
variable (m : (ℓ : Loc nD τ sig) → Buf (Elt F) ℓ)

set_option maxHeartbeats 64000000 in
/-- The corner sample at (floor h, ceil w): the host operations' result is, operation for operation, the reference's
    gather, once the reference's layout round trip of the image is replaced by the image. -/
theorem g89_eq (c : Dev nD) :
    (W6 m c (Proc.devRef .tc main_v89) : S2x128x32.Idx → Elt F .f32)
      = Cert.ReferenceIdeal.ReadP.val_main_v86 (F := F) (m ((c.tc : Thread nD τ).loc main_arg0)) (m ((c.tc : Thread nD τ).loc main_arg2)) := by
  unfold Cert.ReferenceIdeal.ReadP.val_main_v86
  rw [Cert.RefValue.im_eq]
  rfl

end Cert.Bridge

end
-- ==== Proof.HostFitG116.lean ====
/-
  The fit column, the third bilinear corner. The image row gathered at the corner (ceil h, floor w) of each agent's
  position: the kernel program's host operations build the same index triple (batch, ceil h, floor w), each wrapped
  into range by the same comparison, addition and selection, by the same operations in the same order as the
  reference, and gather from the image itself, where the reference gathers from the image moved to feature-first
  layout and back, which is the image.
-/
import proofs.«134385_j4260607558106_2_alg».proof.Proof.HandKernelIdeal.Fold
import proofs.«134385_j4260607558106_2_alg».proof.Proof.RefReadP
import proofs.«134385_j4260607558106_2_alg».proof.Proof.RefValue

set_option maxRecDepth 16384

noncomputable section

namespace Cert.Bridge

open Cert.KernelIdeal Cert.KernelIdeal.Gen Cert.KernelIdeal.Hand
open Idealize.ShloMosaic Idealize.ShloMosaic.TcCoe Idealize.ShloMosaic.StableHlo
open Idealize.SL.Sem

variable {F : FTy → Type} [FloatOps F]
variable (m : (ℓ : Loc nD τ sig) → Buf (Elt F) ℓ)

set_option maxHeartbeats 64000000 in
/-- The image rows at the corner (ceil h, floor w), as the bilinear stretch leaves them. -/
theorem g116_eq (c : Dev nD) :
    (W6 m c (Proc.devRef .tc main_v116) : S2x128x32.Idx → Elt F .f32)
      = Cert.ReferenceIdeal.ReadP.val_main_v113 (F := F) (m ((c.tc : Thread nD τ).loc main_arg0)) (m ((c.tc : Thread nD τ).loc main_arg2)) := by
  unfold Cert.ReferenceIdeal.ReadP.val_main_v113
  rw [Cert.RefValue.im_eq]
  rfl

end Cert.Bridge

end
-- ==== Proof.HostFitG2.lean ====
/-
  The fit column, the corner sample at (ceil h, ceil w). The kernel program's host operations build the gather's index
  columns (the batch, the row ceil h, the column ceil w, each wrapped if negative) and gather the image's feature rows
  there, by the same operations in the same order as the reference; the reference gathers from the image after moving
  its feature axis to the front and back, which is the image itself.
-/
import proofs.«134385_j4260607558106_2_alg».proof.Proof.HandKernelIdeal.Fold
import proofs.«134385_j4260607558106_2_alg».proof.Proof.RefReadP
import proofs.«134385_j4260607558106_2_alg».proof.Proof.RefValue

set_option maxRecDepth 16384

noncomputable section

namespace Cert.Bridge

open Cert.KernelIdeal Cert.KernelIdeal.Gen Cert.KernelIdeal.Hand
open Idealize.ShloMosaic Idealize.ShloMosaic.TcCoe Idealize.ShloMosaic.StableHlo
open Idealize.SL.Sem

variable {F : FTy → Type} [FloatOps F]
variable (m : (ℓ : Loc nD τ sig) → Buf (Elt F) ℓ)

set_option maxHeartbeats 64000000 in
/-- The corner sample at (ceil h, ceil w) is the reference's. -/
theorem g143_eq (c : Dev nD) :
    (W6 m c (Proc.devRef .tc main_v143) : S2x128x32.Idx → Elt F .f32)
      = Cert.ReferenceIdeal.ReadP.val_main_v140 (F := F) (m ((c.tc : Thread nD τ).loc main_arg0)) (m ((c.tc : Thread nD τ).loc main_arg2)) := by
  unfold Cert.ReferenceIdeal.ReadP.val_main_v140
  rw [Cert.RefValue.im_eq]
  rfl

end Cert.Bridge

end
-- ==== Proof.HostFit.lean ====
/-
  The fit column: the kernel program's host operations before the first kernel region leave, in the fit column's
  buffer, the reference's fit — each agent's normalised phenotype against the normalised bilinear sample of the image at
  the agent's position. The four corner samples, the four weights, and the sum, normalisation and contraction that follow
  are each the reference's.
-/
import proofs.«134385_j4260607558106_2_alg».proof.Proof.HostFitB
import proofs.«134385_j4260607558106_2_alg».proof.Proof.HostFitW
import proofs.«134385_j4260607558106_2_alg».proof.Proof.HostFitA
import proofs.«134385_j4260607558106_2_alg».proof.Proof.HostFitG89
import proofs.«134385_j4260607558106_2_alg».proof.Proof.HostFitG116
import proofs.«134385_j4260607558106_2_alg».proof.Proof.HostFitG2

noncomputable section

namespace Cert.Bridge

open Cert.KernelIdeal Cert.KernelIdeal.Gen Cert.KernelIdeal.Hand
open Idealize.ShloMosaic Idealize.ShloMosaic.TcCoe Idealize.ShloMosaic.StableHlo
open Idealize.SL.Sem

variable {F : FTy → Type} [FloatOps F]
variable (m : (ℓ : Loc nD τ sig) → Buf (Elt F) ℓ)

/-- THE FIT COLUMN is the reference's. -/
theorem fit_eq (c : Dev nD) :
    (W8 m c (Proc.devRef .tc main_v155) : S2x128x1.Idx → Elt F .f32)
      = Cert.ReferenceIdeal.ReadP.val_main_v157 (F := F) (m ((c.tc : Thread nD τ).loc main_arg0)) (m ((c.tc : Thread nD τ).loc main_arg1)) (m ((c.tc : Thread nD τ).loc main_arg2)) :=
  fit_eq_of m c (g63_eq m c) (g89_eq m c) (g116_eq m c) (g143_eq m c) (w38_eq m c) (w35_eq m c) (w32_eq m c) (w29_eq m c)

end Cert.Bridge

end
-- ==== Proof.lean ====
/-
  The certificate's claims, assembled.

  The kernel program computes, per image b: the agents' phenotype rows divided by their guarded norms; the fitness
  of each agent (the row sum of its normalised phenotype against the normalised bilinear sample of the plateau at
  its position); in a first kernel region the pairwise intersection counts I(p,q) = ∑_n [score(n,p) > ½]·[score(n,q) > ½]
  of the agents' binary masks, accumulated over eight tiles of 8192 pixels in a scratch matrix; from I, its diagonal
  (the mask areas) and the fitnesses the surviving agents; and in a second region the continuous masks
  max(score(n,p), 0) multiplied by the survivors' row. The reference computes the scores as one batched product, the
  intersections as one product over all 65536 pixels and the areas as a column sum of the binary masks.

  At the extended reals the two agree: the tiled sum of the intersections is the whole sum (a finite sum regrouped);
  an area is a diagonal intersection because an indicator is its own square; max(r, 0) > ½ exactly when r > ½; the
  bilinear samples are taken from the same array (the reference transposes the plateau and transposes it back);
  everything else is the same operation on equal operands.

  The frames: each kernel program is run item by item — the stretches of host operations, the two kernel regions with
  the body run once per case of its one branch — and no item writes an argument. The reference is a straight line of
  host operations.
-/
import proofs.«134385_j4260607558106_2_alg».proof.Defs
import proofs.«134385_j4260607558106_2_alg».proof.Proof.Gen.Kernel
import proofs.«134385_j4260607558106_2_alg».proof.Proof.Gen.KernelIdeal
import proofs.«134385_j4260607558106_2_alg».proof.Proof.Gen.ReferenceIdeal
import proofs.«134385_j4260607558106_2_alg».proof.Proof.Gen.Pre_finite_inputs
import proofs.«134385_j4260607558106_2_alg».proof.Proof.HandKernel.Frame
import proofs.«134385_j4260607558106_2_alg».proof.Proof.HandKernelIdeal.Frame
import proofs.«134385_j4260607558106_2_alg».proof.Proof.RefRunEq
import proofs.«134385_j4260607558106_2_alg».proof.Proof.BridgeFinal
import proofs.«134385_j4260607558106_2_alg».proof.Proof.HostFit

noncomputable section

namespace Cert.Proof

open Idealize.ShloMosaic Idealize.SL.Sem

/-- The word-level kernel program runs to the end, faults nowhere, and leaves its arguments as launched. -/
theorem frame_p : Cert.frame_Kernel (hKernel := Cert.Kernel.Gen.facts) (hPre_finite_inputs := Cert.Pre_finite_inputs.Gen.facts) :=
  fun m ρ _ => Cert.Kernel.Hand.frame m ρ

/-- So does the idealized kernel program. -/
theorem frame_pi : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The ideal pass rewrote nothing: the idealized kernel is the kernel's own text read at the extended reals. -/
theorem preserves : Cert.preserves_Kernel_KernelIdeal := trivial

/-- At the extended reals, from memories agreeing on the arguments, both programs end with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.a1 m c 3, Cert.KernelIdeal.Hand.run_result m ρ, ?_⟩
  refine (θ_run Cert.ReferenceIdeal.defs _ _).mono (fun _ h c => ⟨(h c).1.trans ?_, (h c).2⟩)
    (Cert.ReferenceIdeal.ValueP.run (F := Ideal) m' ρ')
  rw [Cert.RefValue.res_eq, (hagree c).1, (hagree c).2.1, (hagree c).2.2.1, (hagree c).2.2.2]
  exact (Cert.Bridge.final_of m c (Cert.Bridge.fit_eq m c)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
